-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x256 : Shape := ⟨2, ![4096, 256]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  main_v18

def fn {F : FTy → Type} [FloatOps F] (main_arg0 : FVec F S4096x512 .f32) (main_arg1 : FVec F S4096x512 .f32) (main_arg2 : FVec F S4096x256 .f32) (main_arg3 : FVec F S4096x256 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_v13 main_v16
-- ==== Kernel.lean ====
abbrev S4096x512 : Shape := ⟨2, ![4096, 512]⟩
abbrev S4096x256 : Shape := ⟨2, ![4096, 256]⟩
abbrev S8192x256 : Shape := ⟨2, ![8192, 256]⟩
abbrev S8192x1 : Shape := ⟨2, ![8192, 1]⟩
abbrev S1024x256 : Shape := ⟨2, ![1024, 256]⟩
abbrev S1024x1 : Shape := ⟨2, ![1024, 1]⟩
abbrev S1024 : Shape := ⟨1, ![1024]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x256, .f32⟩
  | .hbm, ⟨3, _⟩ => ⟨S4096x256, .f32⟩
  | .hbm, ⟨4, _⟩ => ⟨S8192x256, .f32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v62 : BitVec 1 := Scalar.cmpi .eq arg1 c7_i32
  let v63 : BitVec 32 := Scalar.extui v62
  let c0_i32_22 : BitVec 32 := 0#32
  let v64 : BitVec 1 := Scalar.cmpi .ne v63 c0_i32_22
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S4096x256_S4096x256_S8192x256_d0 : Shape.Concatenates [S4096x256, S4096x256] S8192x256 0
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  bitsLt_bf16_f32 : FTy.bits .bf16 < FTy.bits .f32
  transposes_S1024x256_p1_0_S256x1024 : S1024x256.Transposes [1, 0] S256x1024
  shapeCasts_S1024x1_S1x1024 : S1024x1.ShapeCasts S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  reduces_S1024x1024_S1024 : S1024x1024.Reduces [1] S1024
  reducesTo_S8192x1_S_d0_1 : S8192x1.ReducesTo [0, 1] S_
  h_S_ : 0 < S_.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x256, .f32⟩
  | .hbm, ⟨3, _⟩ => ⟨S4096x256, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S256x8192, .f32⟩
  | .hbm, ⟨10, _⟩ => ⟨S8192x8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192, .i32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S8192x1, .i32⟩
  | .hbm, ⟨49, _⟩ => ⟨S_, .i32⟩
  | .hbm, ⟨50, _⟩ => ⟨S8192x1, .i32⟩
  | .hbm, ⟨51, _⟩ => ⟨S8192x1, .i1⟩
  | .hbm, ⟨52, _⟩ => ⟨S_, .i32⟩
  | .hbm, ⟨53, _⟩ => ⟨S8192x1, .i32⟩
  | .hbm, ⟨54, _⟩ => ⟨S8192x1, .i32⟩
  | .hbm, ⟨55, _⟩ => ⟨S8192x1, .i32⟩
  | .hbm, ⟨56, _⟩ => ⟨S8192x1x1, .i32⟩
  | .hbm, ⟨57, _⟩ => ⟨S1, .i32⟩
  | .hbm, ⟨58, _⟩ => ⟨S_, .i32⟩
  | .hbm, ⟨59, _⟩ => ⟨S8192x1x1, .i32⟩
  | .hbm, ⟨60, _⟩ => ⟨S8192x1x1, .i1⟩
  | .hbm, ⟨61, _⟩ => ⟨S1x1x1, .i32⟩
  | .hbm, ⟨62, _⟩ => ⟨S8192x1x1, .i32⟩
  | .hbm, ⟨63, _⟩ => ⟨S8192x1x1, .i1⟩
  | .hbm, ⟨64, _⟩ => ⟨S8192x1x1, .i1⟩
  | .hbm, ⟨65, _⟩ => ⟨S_, .i1⟩
  | .hbm, ⟨66, _⟩ => ⟨S8192x1, .i1⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_call1_v0 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call2_cst : Ref sig .tc := ⟨.hbm, 33, rfl⟩
abbrev main_call2_v0 : Ref sig .tc := ⟨.hbm, 34, rfl⟩
abbrev main_call2_cst_0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_cst_1 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_v21 : Ref sig .tc := ⟨.hbm, 47, rfl⟩
abbrev main_v22 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_c_2 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_3 : Ref sig .tc := ⟨.hbm, 65, rfl⟩
abbrev main_call3_v12 : Ref sig .tc := ⟨.hbm, 66, rfl⟩
abbrev main_call3_v13 : Ref sig .tc := ⟨.hbm, 67, rfl⟩
abbrev main_call3_cst : Ref sig .tc := ⟨.hbm, 68, rfl⟩
abbrev main_call3_v14 : Ref sig .tc := ⟨.hbm, 69, rfl⟩
abbrev main_v23 : Ref sig .tc := ⟨.hbm, 70, rfl⟩
abbrev main_cst_2 : Ref sig .tc := ⟨.hbm, 71, rfl⟩
abbrev main_v24 : Ref sig .tc := ⟨.hbm, 72, rfl⟩
abbrev main_cst_3 : Ref sig .tc := ⟨.hbm, 73, rfl⟩
abbrev main_v25 : Ref sig .tc := ⟨.hbm, 74, rfl⟩
abbrev main_v26 : Ref sig .tc := ⟨.hbm, 75, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x256_S256x8192_S8192x8192_1_0_0_1_n_n_wf : DotDims.WF S8192x256 S256x8192 S8192x8192 [1] [0] [0] [1] [] []
  gather_S8192x8192_S8192x1x1_S8192x1_n_1_0_0_1_2_11_wf : GatherDims.WF S8192x8192 S8192x1x1 S8192x1 [] [1] [0] [1] [0] 2 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.WBody.lean ====
/- The kernel body at one grid point (row tile i, column tile j), run once for each of the three ways its two
   conditionals can go: the first column tile (the running maximum and sum are reset before they are used), a middle
   tile (neither conditional fires), the last tile (the row tile's result m + log l is stored into the output block).
   Each run holds the two input blocks and the two scratch columns (at the last tile also the output block), returns
   the inputs as they were, and FINDS the stores it leaves in each scratch column (and the output block) as pieces;
   the pieces cover their buffer, so what the buffer then reads is the pieces over anything. -/
import proofs.«126300_j66795331388029_1_alg».proof.Proof.Gen.Kernel.Skeleton
import proofs.«126300_j66795331388029_1_alg».proof.Proof.Gen.Kernel.Launch
import proofs.«126300_j66795331388029_1_alg».proof.Proof.Gen.Kernel.Points
import Idealize.ShloMosaic.Lib.Tactic
import Idealize.ShloMosaic.Lib.Pipeline.Kit
import Idealize.ShloMosaic.Lib.Pipeline.Frame

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The running maximum's and the running sum's scratch columns. -/
abbrev sM : Memref sig .tc .vmem S1024x1 .f32 := Memref.whole cc0_scratch0
abbrev sL : Memref sig .tc .vmem S1024x1 .f32 := Memref.whole cc0_scratch1
theorem hsM : (sM).IsWhole := Memref.isWhole_whole _
theorem hsL : (sL).IsWhole := Memref.isWhole_whole _
/-- A column's contents are stated through one whole [1024,1] buffer's view (which one does not matter). -/
abbrev VC : View sig .tc .vmem S1024x1 .f32 := (sM).view

/-- A scratch column held whole at buffer contents `f`. -/
abbrev Col (c : Dev nD) (M : Memref sig .tc .vmem S1024x1 .f32) : Type := Buf (Elt F) (M.view.loc (c : Thread nD τ))
abbrev ptW (c : Dev nD) (M : Memref sig .tc .vmem S1024x1 .f32) (f : Col (F := F) c M) : sProp 𝕄 :=
  M.view.loc (c : Thread nD τ) ↦{fullShare} f

/-- A column (a scratch column or the output block) as pieces stored into it. -/
abbrev Pieces (F : FTy → Type) [FloatOps F] : Type := List (View.Piece (Elt F) S1024x1 .f32)

/-- The first conditional's test: the column tile is the first one (the second's is the printed `k0_cond2`:
    the column tile is the last one). -/
abbrev cond1 (i : grid0.Coords) : Prop :=
  (Scalar.cmpi .ne (Scalar.extui (Scalar.cmpi .eq (BitVec.ofNat 32 (i 1).val) 0#32)) 0#32) = 1#1
abbrev cond2 (i : grid0.Coords) : Prop := k0_cond2 i = 1#1

/-- The body at point `i` on staging memrefs and the two scratch columns. -/
abbrev bodyOn (i : grid0.Coords) (arg2 : Memref sig .tc .vmem S1024x256 .f32) (harg2 : arg2.IsWhole)
    (arg3 : Memref sig .tc .vmem S1024x256 .f32) (harg3 : arg3.IsWhole)
    (arg4 : Memref sig .tc .vmem S1024x1 .f32) (harg4 : arg4.IsWhole) : Prog (TpuEff nD τ sig (Elt F) Λ₀ .tc) PUnit :=
  cc0__lse_kernel i arg2 harg2 arg3 harg3 arg4 harg4 (Memref.whole cc0_scratch0) (Memref.isWhole_whole _) (Memref.whole cc0_scratch1) (Memref.isWhole_whole _)

set_option maxHeartbeats 1000000 in
/-- The first column tile: the scratch columns are overwritten before they are read. -/
def runA (c : Dev nD) (i : grid0.Coords) (arg2 : Memref sig .tc .vmem S1024x256 .f32) (harg2 : arg2.IsWhole)
    (arg3 : Memref sig .tc .vmem S1024x256 .f32) (harg3 : arg3.IsWhole)
    (arg4 : Memref sig .tc .vmem S1024x1 .f32) (harg4 : arg4.IsWhole)
    (hc1 : cond1 i) (hc2 : ¬ cond2 i) (x0 x1 : Vec F S1024x256 .f32) :
    { L : Pieces F × Pieces F //
      ∀ (E : Set ℕ) (K : PUnit → sProp 𝕄),
        iprop(owns (c : Thread nD τ) arg2 fullShare x0 ∗ owns (c : Thread nD τ) arg3 fullShare x1
            ∗ (∃ f, ptW c (sM) f) ∗ (∃ f, ptW c (sL) f)
            ∗ (iprop(owns (c : Thread nD τ) arg2 fullShare x0 ∗ owns (c : Thread nD τ) arg3 fullShare x1
                ∗ (∃ f, ptW c (sM) ((sM).view.writes (Elt F) f L.1))
                ∗ (∃ f, ptW c (sL) ((sL).view.writes (Elt F) f L.2))) -∗ K ⟨⟩))
          ⊢ wp frame (wpE (defs₀ (F := F)) Variants.none c none) E (bodyOn i arg2 harg2 arg3 harg3 arg4 harg4) K } := by
  refine ⟨(?_, ?_), fun E K => ?run⟩
  case run =>
    unfold bodyOn
    simp only [cc0__lse_kernel_eq_skeleton]; unfold cc0__lse_kernel_skel
    unfold owns
    iintro ⟨⟨%f0, %hf0, H0⟩, ⟨%f1, %hf1, H1⟩, ⟨%g5, H5⟩, ⟨%g6, H6⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H5]
    · iexists _; iexact H5
    iexists _; iexact H6

set_option maxHeartbeats 1000000 in
/-- A middle column tile: neither conditional fires; the scratch columns, held at `g5` and `g6`, are read and updated. -/
def runB (c : Dev nD) (i : grid0.Coords) (arg2 : Memref sig .tc .vmem S1024x256 .f32) (harg2 : arg2.IsWhole)
    (arg3 : Memref sig .tc .vmem S1024x256 .f32) (harg3 : arg3.IsWhole)
    (arg4 : Memref sig .tc .vmem S1024x1 .f32) (harg4 : arg4.IsWhole)
    (hc1 : ¬ cond1 i) (hc2 : ¬ cond2 i) (x0 x1 : Vec F S1024x256 .f32) (g5 : Col (F := F) c (sM)) (g6 : Col (F := F) c (sL)) :
    { L : Pieces F × Pieces F //
      ∀ (E : Set ℕ) (K : PUnit → sProp 𝕄),
        iprop(owns (c : Thread nD τ) arg2 fullShare x0 ∗ owns (c : Thread nD τ) arg3 fullShare x1
            ∗ ptW c (sM) g5 ∗ ptW c (sL) g6
            ∗ (iprop(owns (c : Thread nD τ) arg2 fullShare x0 ∗ owns (c : Thread nD τ) arg3 fullShare x1
                ∗ (∃ f, ptW c (sM) ((sM).view.writes (Elt F) f L.1))
                ∗ (∃ f, ptW c (sL) ((sL).view.writes (Elt F) f L.2))) -∗ K ⟨⟩))
          ⊢ wp frame (wpE (defs₀ (F := F)) Variants.none c none) E (bodyOn i arg2 harg2 arg3 harg3 arg4 harg4) K } := by
  refine ⟨(?_, ?_), fun E K => ?run⟩
  case run =>
    unfold bodyOn
    simp only [cc0__lse_kernel_eq_skeleton]; unfold cc0__lse_kernel_skel
    unfold owns
    iintro ⟨⟨%f0, %hf0, H0⟩, ⟨%f1, %hf1, H1⟩, H5, H6, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H5]
    · iexists _; iexact H5
    iexists _; iexact H6

set_option maxHeartbeats 1000000 in
/-- The last column tile: the scratch columns are updated and the row tile's result is stored, whole, into the
    output block. -/
def runC (c : Dev nD) (i : grid0.Coords) (arg2 : Memref sig .tc .vmem S1024x256 .f32) (harg2 : arg2.IsWhole)
    (arg3 : Memref sig .tc .vmem S1024x256 .f32) (harg3 : arg3.IsWhole)
    (arg4 : Memref sig .tc .vmem S1024x1 .f32) (harg4 : arg4.IsWhole)
    (hc1 : ¬ cond1 i) (hc2 : cond2 i) (x0 x1 : Vec F S1024x256 .f32) (g5 : Col (F := F) c (sM)) (g6 : Col (F := F) c (sL)) :
    { L : Pieces F × Pieces F × Pieces F //
      ∀ (E : Set ℕ) (K : PUnit → sProp 𝕄) (x2 : Vec F S1024x1 .f32),
        iprop(owns (c : Thread nD τ) arg2 fullShare x0 ∗ owns (c : Thread nD τ) arg3 fullShare x1
            ∗ owns (c : Thread nD τ) arg4 fullShare x2
            ∗ ptW c (sM) g5 ∗ ptW c (sL) g6
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.2.2)
                ∗ (∃ f, ptW c (sM) ((sM).view.writes (Elt F) f L.1))
                ∗ (∃ f, ptW c (sL) ((sL).view.writes (Elt F) f L.2.1))) -∗ K ⟨⟩))
          ⊢ wp frame (wpE (defs₀ (F := F)) Variants.none c none) E (bodyOn i arg2 harg2 arg3 harg3 arg4 harg4) K } := by
  refine ⟨(?_, ?_, ?_), fun E K x2 => ?run⟩
  case run =>
    unfold bodyOn
    simp only [cc0__lse_kernel_eq_skeleton]; unfold cc0__lse_kernel_skel
    unfold owns
    iintro ⟨⟨%f0, %hf0, H0⟩, ⟨%f1, %hf1, H1⟩, ⟨%f2, %hf2, H2⟩, H5, H6, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H5]
    · iexists _; iexact H5
    iexists _; iexact H6

end Cert.Kernel.Hand

end
-- ==== Proof.WData.lean ====
/- The pipeline's proof data for the kernel's one region: the 64 grid points are (row tile i, column tile j) in
   row-major order, point t = 8 i + j. Window 0 stages rows [1024 i, 1024 i + 1024) of the projections, window 1
   rows [1024 j, 1024 j + 1024) of the SAME array, window 2 is the output's block i, stored and written back only at
   j = 7. Between points the two scratch columns carry the row tile's running maximum and running sum: after point t
   they hold what the point's case of the body leaves, computed from the point's two input blocks and — except at
   j = 0, where they are reset — from what point t - 1 left. -/
import proofs.«126300_j66795331388029_1_alg».proof.Proof.WBody
import Idealize.ShloMosaic.Lib.Pipeline.Regions
import Idealize.ShloMosaic.Lib.Pipeline.FrameBody
import Idealize.ShloMosaic.Lib.Ring

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region: one concatenate -/

/-- Core `c`'s buffers at launch, as the host operations' valuation; -/
abbrev V₀ (c : Dev nD) : Valuation τ sig (Elt F) := fun b => (s₀ m ρ).mem ((c : Dev nD), b)
/-- and when the region is entered: the concatenate has run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The two conditionals over the grid -/

/-- The first fires exactly at the first column tile, -/
theorem hcond1 : ∀ t : Fin cfg0.N, cond1 (grid0.coords t) ↔ t.val % 8 = 0 :=
  (by decide +kernel : ∀ t : Fin grid0.N, cond1 (grid0.coords t) ↔ t.val % 8 = 0)
/-- the second exactly at the last. -/
theorem hcond2 : ∀ t : Fin cfg0.N, cond2 (grid0.coords t) ↔ t.val % 8 = 7 :=
  (by decide +kernel : ∀ t : Fin grid0.N, cond2 (grid0.coords t) ↔ t.val % 8 = 7)

theorem ncond2_of0 (t : Fin cfg0.N) (h0 : t.val % 8 = 0) : ¬ cond2 (grid0.coords t) := fun h => by
  have := (hcond2 t).mp h; omega
theorem ncond1_of (t : Fin cfg0.N) (h0 : ¬ t.val % 8 = 0) : ¬ cond1 (grid0.coords t) := fun h => h0 ((hcond1 t).mp h)
theorem ncond2_of (t : Fin cfg0.N) (h7 : ¬ t.val % 8 = 7) : ¬ cond2 (grid0.coords t) := fun h => h7 ((hcond2 t).mp h)

/-! ## The staging memrefs the pipeline calls the body with at a point -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)

/-! ## What a column reads after a run's stores -/

/-- A column after the pieces `L` were stored into it, whatever it held: the pieces read back over anything. -/
def colOf (L : Pieces F) : Vec F S1024x1 .f32 := (VC).read (Elt F) ((VC).writes (Elt F) (VC).junk L)

section Covers
variable (c : Dev nD) (i : grid0.Coords) (arg2 : Memref sig .tc .vmem S1024x256 .f32) (harg2 : arg2.IsWhole)
    (arg3 : Memref sig .tc .vmem S1024x256 .f32) (harg3 : arg3.IsWhole)
    (arg4 : Memref sig .tc .vmem S1024x1 .f32) (harg4 : arg4.IsWhole) (x0 x1 : Vec F S1024x256 .f32)

/-- In every case each column's pieces end with a store of the whole column, so they cover it. -/
theorem coverA_M (hc1 : cond1 i) (hc2 : ¬ cond2 i) (y : S1024x1.Idx) :
    ∃ pc ∈ (runA (F := F) c i arg2 harg2 arg3 harg3 arg4 harg4 hc1 hc2 x0 x1).1.1, y ∈ pc.1.set :=
  View.cover_of_tiledL _ S1024x1.size (by sl_kernel_rfl) y
theorem coverA_L (hc1 : cond1 i) (hc2 : ¬ cond2 i) (y : S1024x1.Idx) :
    ∃ pc ∈ (runA (F := F) c i arg2 harg2 arg3 harg3 arg4 harg4 hc1 hc2 x0 x1).1.2, y ∈ pc.1.set :=
  View.cover_of_tiledL _ S1024x1.size (by sl_kernel_rfl) y
theorem coverB_M (hc1 : ¬ cond1 i) (hc2 : ¬ cond2 i) (g5 : Col (F := F) c (sM)) (g6 : Col (F := F) c (sL)) (y : S1024x1.Idx) :
    ∃ pc ∈ (runB (F := F) c i arg2 harg2 arg3 harg3 arg4 harg4 hc1 hc2 x0 x1 g5 g6).1.1, y ∈ pc.1.set :=
  View.cover_of_tiledL _ S1024x1.size (by sl_kernel_rfl) y
theorem coverB_L (hc1 : ¬ cond1 i) (hc2 : ¬ cond2 i) (g5 : Col (F := F) c (sM)) (g6 : Col (F := F) c (sL)) (y : S1024x1.Idx) :
    ∃ pc ∈ (runB (F := F) c i arg2 harg2 arg3 harg3 arg4 harg4 hc1 hc2 x0 x1 g5 g6).1.2, y ∈ pc.1.set :=
  View.cover_of_tiledL _ S1024x1.size (by sl_kernel_rfl) y
theorem coverC_M (hc1 : ¬ cond1 i) (hc2 : cond2 i) (g5 : Col (F := F) c (sM)) (g6 : Col (F := F) c (sL)) (y : S1024x1.Idx) :
    ∃ pc ∈ (runC (F := F) c i arg2 harg2 arg3 harg3 arg4 harg4 hc1 hc2 x0 x1 g5 g6).1.1, y ∈ pc.1.set :=
  View.cover_of_tiledL _ S1024x1.size (by sl_kernel_rfl) y
theorem coverC_L (hc1 : ¬ cond1 i) (hc2 : cond2 i) (g5 : Col (F := F) c (sM)) (g6 : Col (F := F) c (sL)) (y : S1024x1.Idx) :
    ∃ pc ∈ (runC (F := F) c i arg2 harg2 arg3 harg3 arg4 harg4 hc1 hc2 x0 x1 g5 g6).1.2.1, y ∈ pc.1.set :=
  View.cover_of_tiledL _ S1024x1.size (by sl_kernel_rfl) y
theorem coverC_O (hc1 : ¬ cond1 i) (hc2 : cond2 i) (g5 : Col (F := F) c (sM)) (g6 : Col (F := F) c (sL)) (y : S1024x1.Idx) :
    ∃ pc ∈ (runC (F := F) c i arg2 harg2 arg3 harg3 arg4 harg4 hc1 hc2 x0 x1 g5 g6).1.2.2, y ∈ pc.1.set :=
  View.cover_of_tiledL _ S1024x1.size (by sl_kernel_rfl) y
end Covers

/-! ## The scratch columns, point by point -/

/-- A pair (running maximum, running sum) of columns, as read. -/
abbrev St (F : FTy → Type) [FloatOps F] : Type := Vec F S1024x1 .f32 × Vec F S1024x1 .f32

/-- What the first column tile's run leaves in the scratch columns. -/
def stepA (c : Dev nD) (t : Fin cfg0.N) (h0 : t.val % 8 = 0) : St F :=
  (colOf (runA (F := F) c (grid0.coords t) (ms0 t) (hs0 t) (ms1 t) (hs1 t) (ms2 t) (hs2 t) ((hcond1 t).mpr h0) (ncond2_of0 t h0) (iblk m ρ c 0 t) (iblk m ρ c 1 t)).1.1,
   colOf (runA (F := F) c (grid0.coords t) (ms0 t) (hs0 t) (ms1 t) (hs1 t) (ms2 t) (hs2 t) ((hcond1 t).mpr h0) (ncond2_of0 t h0) (iblk m ρ c 0 t) (iblk m ρ c 1 t)).1.2)
/-- What a middle tile's run leaves, from what the point before left. -/
def stepB (c : Dev nD) (t : Fin cfg0.N) (h0 : ¬ t.val % 8 = 0) (h7 : ¬ t.val % 8 = 7) (prev : St F) : St F :=
  (colOf (runB (F := F) c (grid0.coords t) (ms0 t) (hs0 t) (ms1 t) (hs1 t) (ms2 t) (hs2 t) (ncond1_of t h0) (ncond2_of t h7) (iblk m ρ c 0 t) (iblk m ρ c 1 t) ((hsM).unread prev.1) ((hsL).unread prev.2)).1.1,
   colOf (runB (F := F) c (grid0.coords t) (ms0 t) (hs0 t) (ms1 t) (hs1 t) (ms2 t) (hs2 t) (ncond1_of t h0) (ncond2_of t h7) (iblk m ρ c 0 t) (iblk m ρ c 1 t) ((hsM).unread prev.1) ((hsL).unread prev.2)).1.2)
/-- What the last tile's run leaves in the scratch columns, -/
def stepC (c : Dev nD) (t : Fin cfg0.N) (h0 : ¬ t.val % 8 = 0) (h7 : t.val % 8 = 7) (prev : St F) : St F :=
  (colOf (runC (F := F) c (grid0.coords t) (ms0 t) (hs0 t) (ms1 t) (hs1 t) (ms2 t) (hs2 t) (ncond1_of t h0) ((hcond2 t).mpr h7) (iblk m ρ c 0 t) (iblk m ρ c 1 t) ((hsM).unread prev.1) ((hsL).unread prev.2)).1.1,
   colOf (runC (F := F) c (grid0.coords t) (ms0 t) (hs0 t) (ms1 t) (hs1 t) (ms2 t) (hs2 t) (ncond1_of t h0) ((hcond2 t).mpr h7) (iblk m ρ c 0 t) (iblk m ρ c 1 t) ((hsM).unread prev.1) ((hsL).unread prev.2)).1.2.1)
/-- and in the output block. -/
def outC (c : Dev nD) (t : Fin cfg0.N) (h0 : ¬ t.val % 8 = 0) (h7 : t.val % 8 = 7) (prev : St F) : Vec F S1024x1 .f32 :=
  colOf (runC (F := F) c (grid0.coords t) (ms0 t) (hs0 t) (ms1 t) (hs1 t) (ms2 t) (hs2 t) (ncond1_of t h0) ((hcond2 t).mpr h7) (iblk m ρ c 0 t) (iblk m ρ c 1 t) ((hsM).unread prev.1) ((hsL).unread prev.2)).1.2.2

/-- THE CARRIED STATE: what the scratch columns read after the body at position `n`. -/
def stAt (c : Dev nD) : (n : ℕ) → n < cfg0.N → St F
  | 0, hn => stepA m ρ c ⟨0, hn⟩ (Nat.zero_mod _)
  | n + 1, hn =>
    if h0 : (n + 1) % 8 = 0 then stepA m ρ c ⟨n + 1, hn⟩ h0
    else if h7 : (n + 1) % 8 = 7 then stepC m ρ c ⟨n + 1, hn⟩ h0 h7 (stAt c n (Nat.lt_of_succ_lt hn))
    else stepB m ρ c ⟨n + 1, hn⟩ h0 h7 (stAt c n (Nat.lt_of_succ_lt hn))

/-- What the output's staging buffer reads after the body at a last column tile (anything elsewhere: the body does
    not touch it there and the pipeline does not write it back). -/
def outAt (c : Dev nD) (t : Fin cfg0.N) : Vec F S1024x1 .f32 :=
  if h7 : t.val % 8 = 7 then
    outC m ρ c t (by omega) h7 (stAt m ρ c (t.val - 1) (Nat.lt_of_le_of_lt (Nat.sub_le _ _) t.isLt))
  else colOf []

/-! ## The invariant and the proof data -/

/-- Before position `k`: the scratch columns held whole, reading — unless `k = 0`, where nothing is known of them —
    what position `k - 1` left. -/
def Φc (c : Dev nD) (k : Fin (cfg0.N + 1)) : sProp 𝕄 :=
  iprop(∃ (g5 : Col (F := F) c (sM)) (g6 : Col (F := F) c (sL)), ptW c (sM) g5 ∗ ptW c (sL) g6
    ∗ ⌜∀ h : 0 < k.val, (sM).view.read (Elt F) g5 = (stAt m ρ c (k.val - 1) (by have := k.isLt; omega)).1
        ∧ (sL).view.read (Elt F) g6 = (stAt m ρ c (k.val - 1) (by have := k.isLt; omega)).2⌝)

/-- The proof data on core `c`: the arrays as the region finds them; after the body each input's buffer at its
    block and the output's at `outAt`; the invariant `Φc`; nothing owed; the projections' array shared between the
    two windows that read it, half each, the output's held outright. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => outAt m ρ c t
  Φ k := Φc m ρ c k
  q w := match w with
    | ⟨0, _⟩ => fullShare.left
    | ⟨1, _⟩ => fullShare.right
    | ⟨2, _⟩ => fullShare
  owed _ := 0

end Cert.Kernel.Hand

end
-- ==== Proof.WOblig.lean ====
/- The body obligation of the kernel's one region: at every grid point, from the invariant (the two scratch columns
   reading what the point before left), the two input blocks staged and the output's staging buffer, the body runs
   to the invariant of the next point, the inputs as staged and the output's buffer left alone — or, at a last
   column tile, holding the row tile's result. By cases on the column tile: first, last, or in between. -/
import proofs.«126300_j66795331388029_1_alg».proof.Proof.WData

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried state, case by case -/

theorem stAt_A (c : Dev nD) (t : Fin cfg0.N) (h0 : t.val % 8 = 0) :
    stAt m ρ c t.val t.isLt = stepA m ρ c t h0 := by
  obtain ⟨n, hn⟩ := t
  cases n with
  | zero => exact rfl
  | succ n => exact (dif_pos h0).trans rfl

theorem stAt_B (c : Dev nD) (t : Fin cfg0.N) (h0 : ¬ t.val % 8 = 0) (h7 : ¬ t.val % 8 = 7) :
    stAt m ρ c t.val t.isLt
      = stepB m ρ c t h0 h7 (stAt m ρ c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

theorem stAt_C (c : Dev nD) (t : Fin cfg0.N) (h0 : ¬ t.val % 8 = 0) (h7 : t.val % 8 = 7) :
    stAt m ρ c t.val t.isLt
      = stepC m ρ c t h0 h7 (stAt m ρ c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h7).trans rfl)

theorem outAt_C (c : Dev nD) (t : Fin cfg0.N) (h0 : ¬ t.val % 8 = 0) (h7 : t.val % 8 = 7) :
    outAt m ρ c t = outC m ρ c t h0 h7 (stAt m ρ c (t.val - 1) (Nat.lt_of_le_of_lt (Nat.sub_le _ _) t.isLt)) :=
  (dif_pos h7).trans rfl

/-! ## What the proof data say of each window -/

theorem A_eq (c : Dev nD) (w : Fin cfg0.W) : (dats m ρ 0 c).A w = V m ρ c (Pipeline.arrRef spec0 w) := by
  dsimp only [dats]
theorem after_0 (c : Dev nD) (t : Fin cfg0.N) : (dats m ρ 0 c).after 0 t = iblk m ρ c 0 t := by dsimp only [dats]
theorem after_1 (c : Dev nD) (t : Fin cfg0.N) : (dats m ρ 0 c).after 1 t = iblk m ρ c 1 t := by dsimp only [dats]
theorem after_2 (c : Dev nD) (t : Fin cfg0.N) : (dats m ρ 0 c).after 2 t = outAt m ρ c t := by dsimp only [dats]

/-- The row block's staging buffer holds the row block at every point: fetched at the first column tile of its row
    tile, and the block index does not move at the others. -/
theorem before_0 (c : Dev nD) (t : Fin cfg0.N) (d) : (dats m ρ 0 c).before 0 t d = iblk m ρ c 0 t :=
  ((dats m ρ 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
/-- The column block's is fetched at every point. -/
theorem before_1 (c : Dev nD) (t : Fin cfg0.N) (d) : (dats m ρ 0 c).before 1 t d = iblk m ρ c 1 t :=
  ((dats m ρ 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The output window is idle exactly off the last column tile, -/
theorem idle_2 (t : Fin cfg0.N) (h7 : t.val % 8 = 7) : idle0 2 (grid0.coords t) = false := by
  show (!(k0_cond2 (grid0.coords t) == 1#1)) = false
  rw [show k0_cond2 (grid0.coords t) = 1#1 from (hcond2 t).mpr h7]; rfl
theorem idle_2' (t : Fin cfg0.N) (h7 : ¬ t.val % 8 = 7) : idle0 2 (grid0.coords t) = true := by
  show (!(k0_cond2 (grid0.coords t) == 1#1)) = true
  rw [show (k0_cond2 (grid0.coords t) == 1#1) = false from beq_eq_false_iff_ne.mpr (ncond2_of t h7)]; rfl
/-- and written back exactly at it. -/
theorem flush_2' (t : Fin cfg0.N) (h7 : ¬ t.val % 8 = 7) : (win0 2).flush t = false :=
  Bool.eq_false_iff.mpr fun h => h7 ((flush0_2 t).mp h)

/-! ## The body obligation, at a generic point -/

/-- What the body is called with at point `t`, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (ms0 t) fullShare ((dats m ρ 0 c).after 0 t)
    ∗ owns (c : Thread nD τ) (ms1 t) fullShare ((dats m ρ 0 c).after 1 t)
    ∗ (match cfg0.idle 2 (cfg0.grid.coords t) with
        | true =>
          match (cfg0.win 2).flush t with
          | false => iprop(∃ d, owns (c : Thread nD τ) (ms2 t) fullShare ((dats m ρ 0 c).before 2 t d))
          | true => owns (c : Thread nD τ) (ms2 t) fullShare ((dats m ρ 0 c).after 2 t)
        | false => owns (c : Thread nD τ) (ms2 t) fullShare ((dats m ρ 0 c).after 2 t)))

set_option maxHeartbeats 1600000 in
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1]
  rw [show (dats m ρ 0 c).owesAt () t.succ = (dats m ρ 0 c).owesAt () t.castSucc from rfl, after_0, after_1, after_2,
    show (dats m ρ 0 c).Φ t.castSucc = Φc m ρ c t.castSucc from rfl, show (dats m ρ 0 c).Φ t.succ = Φc m ρ c t.succ from rfl]
  unfold Φc
  by_cases h0 : t.val % 8 = 0
  · -- the first column tile
    have h7 : ¬ t.val % 8 = 7 := by omega
    rw [idle_2' t h7, flush_2' t h7]
    iintro ⟨⟨%g5, %g6, H5, H6, -⟩, Ho, ⟨%d0, H0⟩, ⟨%d1, H1⟩, ⟨%d2, H2⟩⟩
    iapply ((runA (F := F) c (grid0.coords t) (ms0 t) (hs0 t) (ms1 t) (hs1 t) (ms2 t) (hs2 t) ((hcond1 t).mpr h0) (ncond2_of0 t h0) (iblk m ρ c 0 t) (iblk m ρ c 1 t)).2 Set.univ _)
    isplitl [H0]; · iexact H0
    isplitl [H1]; · iexact H1
    isplitl [H5]; · iexists _; iexact H5
    isplitl [H6]; · iexists _; iexact H6
    iintro ⟨H0, H1, ⟨%f5, H5⟩, ⟨%f6, H6⟩⟩
    isplitl [H5 H6]
    · iexists _, _
      isplitl [H5]; · iexact H5
      isplitl [H6]; · iexact H6
      ipureintro
      intro _
      show _ = (stAt m ρ c t.val t.isLt).1 ∧ _ = (stAt m ρ c t.val t.isLt).2
      rw [stAt_A m ρ c t h0]
      dsimp only [stepA, colOf]
      exact ⟨View.read_writes_of_cover _ _ _ _ _ (coverA_M c _ _ _ _ _ _ _ _ _ _ _),
        View.read_writes_of_cover _ _ _ _ _ (coverA_L c _ _ _ _ _ _ _ _ _ _ _)⟩
    isplitl [Ho]; · iexact Ho
    isplitl [H0]; · iexact H0
    isplitl [H1]; · iexact H1
    iexists d2; iexact H2
  · by_cases h7 : t.val % 8 = 7
    · -- the last column tile
      rw [idle_2 t h7]
      iintro ⟨⟨%g5, %g6, H5, H6, %hΦ⟩, Ho, ⟨%d0, H0⟩, ⟨%d1, H1⟩, ⟨%d2, H2⟩⟩
      obtain ⟨e5, e6⟩ := hΦ (show 0 < t.val by omega)
      obtain rfl := (hsM).eq_unread e5; obtain rfl := (hsL).eq_unread e6
      iapply ((runC (F := F) c (grid0.coords t) (ms0 t) (hs0 t) (ms1 t) (hs1 t) (ms2 t) (hs2 t) (ncond1_of t h0) ((hcond2 t).mpr h7) (iblk m ρ c 0 t) (iblk m ρ c 1 t) _ _).2 Set.univ _ _)
      isplitl [H0]; · iexact H0
      isplitl [H1]; · iexact H1
      isplitl [H2]; · iexact H2
      isplitl [H5]; · iexact H5
      isplitl [H6]; · iexact H6
      iintro ⟨H0, H1, ⟨%f2, H2⟩, ⟨%f5, H5⟩, ⟨%f6, H6⟩⟩
      isplitl [H5 H6]
      · iexists _, _
        isplitl [H5]; · iexact H5
        isplitl [H6]; · iexact H6
        ipureintro
        intro _
        show _ = (stAt m ρ c t.val t.isLt).1 ∧ _ = (stAt m ρ c t.val t.isLt).2
        rw [stAt_C m ρ c t h0 h7]
        dsimp only [stepC, colOf]
        exact ⟨View.read_writes_of_cover _ _ _ _ _ (coverC_M c _ _ _ _ _ _ _ _ _ _ _ _ _),
          View.read_writes_of_cover _ _ _ _ _ (coverC_L c _ _ _ _ _ _ _ _ _ _ _ _ _)⟩
      isplitl [Ho]; · iexact Ho
      isplitl [H0]; · iexact H0
      isplitl [H1]; · iexact H1
      unfold owns; iexists _; isplitr
      swap; · iexact H2
      ipureintro
      rw [outAt_C m ρ c t h0 h7]
      dsimp only [outC, colOf]
      exact View.read_writes_of_cover _ _ _ _ _ (coverC_O c _ _ _ _ _ _ _ _ _ _ _ _ _)
    · -- a middle column tile
      rw [idle_2' t h7, flush_2' t h7]
      iintro ⟨⟨%g5, %g6, H5, H6, %hΦ⟩, Ho, ⟨%d0, H0⟩, ⟨%d1, H1⟩, ⟨%d2, H2⟩⟩
      obtain ⟨e5, e6⟩ := hΦ (show 0 < t.val by omega)
      obtain rfl := (hsM).eq_unread e5; obtain rfl := (hsL).eq_unread e6
      iapply ((runB (F := F) c (grid0.coords t) (ms0 t) (hs0 t) (ms1 t) (hs1 t) (ms2 t) (hs2 t) (ncond1_of t h0) (ncond2_of t h7) (iblk m ρ c 0 t) (iblk m ρ c 1 t) _ _).2 Set.univ _)
      isplitl [H0]; · iexact H0
      isplitl [H1]; · iexact H1
      isplitl [H5]; · iexact H5
      isplitl [H6]; · iexact H6
      iintro ⟨H0, H1, ⟨%f5, H5⟩, ⟨%f6, H6⟩⟩
      isplitl [H5 H6]
      · iexists _, _
        isplitl [H5]; · iexact H5
        isplitl [H6]; · iexact H6
        ipureintro
        intro _
        show _ = (stAt m ρ c t.val t.isLt).1 ∧ _ = (stAt m ρ c t.val t.isLt).2
        rw [stAt_B m ρ c t h0 h7]
        dsimp only [stepB, colOf]
        exact ⟨View.read_writes_of_cover _ _ _ _ _ (coverB_M c _ _ _ _ _ _ _ _ _ _ _ _ _),
          View.read_writes_of_cover _ _ _ _ _ (coverB_L c _ _ _ _ _ _ _ _ _ _ _ _ _)⟩
      isplitl [Ho]; · iexact Ho
      isplitl [H0]; · iexact H0
      isplitl [H1]; · iexact H1
      iexists d2; iexact H2

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.Kernel.Hand

end
-- ==== Proof.WLaunch.lean ====
/- The launch of the kernel's @main: one concatenate, the region, then the host tail (sum, divide by 8192, add 2e9).
   @main is run as three segments. The first and last are lines of host operations over the core's unscoped buffers.
   The region is entered from what the first leaves: the projections' array, which TWO windows read, is dealt to them
   half a share each; the output's array goes to its window whole; every other unscoped buffer goes round the region
   untouched; the two scratch columns enter the invariant. At its exit the halves are put together again and the
   output's array is at what the write-backs left, which is what the host tail then reads. -/
import proofs.«126300_j66795331388029_1_alg».proof.Proof.WOblig
import Idealize.ShloMosaic.Lib.Pipeline.Regions

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's whole algebra: the kernel has no protocol of its own. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through the host operations: the core's `owes`. -/
abbrev R (c : Dev nD) : sProp 𝕄 := iprop(∃ W, owes (c : Thread nD τ) (0 : CellTallies nD τ sig Unit) W)
/-- The launch element: the pipeline library's at the staging cells. -/
def u₀ : UR sig nD τ := initOf (Pipeline.cells cfgs cellOf_inj) (Pipeline.launchToks cfgs cellOf_inj)

/-! ## The two windows on one array -/

/-- The windows' arrays are two buffers: the projections' (windows 0 and 1) and the output's. -/
theorem arrRefs_eq : (Finset.univ.image (Pipeline.arrRef spec0) : Finset (Ref sig .tc)) = [main_v0, main_v1].toFinset := by decide

omit [FloatOps F] in
theorem arrBufs_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v1) ↦{fullShare} W main_v1)) := by
  unfold Pipeline.arrBufs
  exact bigSep_eq_bigSepL_of_eq [main_v0, main_v1] arrRefs_eq (by decide) _

/-- The shares the three windows hold their arrays at: the two readers of the projections' array a half each. -/
theorem share_0 (c : Dev nD) : (dats m ρ 0 c).share 0 = fullShare.left := rfl
theorem share_1 (c : Dev nD) : (dats m ρ 0 c).share 1 = fullShare.right := rfl
theorem share_2 (c : Dev nD) : (dats m ρ 0 c).share 2 = fullShare := rfl

/-- The pipeline's arrays at contents `G`: the projections' array at the two halves of its share, the output's whole. -/
theorem arrays_eq' (c : Dev nD) (G : (w : Fin cfg0.W) → Buf (Elt F) ((cfg0.win w).arr.view.loc (c : Thread nD τ))) :
    ((dats m ρ 0 c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  have h : ((dats m ρ 0 c).arrays G : sProp 𝕄)
      = bigSep Finset.univ fun w : Fin cfg0.W => (((c : Thread nD τ).loc (Pipeline.arrRef spec0 w)) ↦{(dats m ρ 0 c).share w} G w : sProp 𝕄) := by
    unfold Dat.arrays
    exact bigSep_congr fun w _ => by rw [(arr_whole0 w).set_eq_univ]
  rw [h, bigSep_W0, share_0, share_1, share_2]

/-! ## The host operations -/

theorem fresh0 : ∀ op ∈ (hostOps0 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h

/-- THE FIRST HOST SEGMENT: the concatenate, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) fresh0 (V₀ m ρ) R

/-- The output's array when the region is left: after every write-back. -/
def finalOut (c : Dev nD) : Buf (Elt F) ((c : Thread nD τ).loc main_v1) := (dats m ρ 0 c).arrAt 2 cfg0.N

/-- The core's buffers when the region is left: the output's array at `finalOut`, every other as the region found
    it (spelt as one more host operation, a constant, so that the library's lemmas read it). -/
abbrev V₁ (c : Dev nD) : Valuation τ sig (Elt F) :=
  StableHlo.after [StableHlo.nullary main_v1 (finalOut m ρ c)] (StableHlo.after hostOps0 (V₀ m ρ c))

/-- THE LAST HOST SEGMENT: the sum, the division and the addition, over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) fresh1 (V₁ m ρ) R

/-- Off the output's array the region changes no unscoped buffer. -/
theorem V₁_of_ne (c : Dev nD) (b : Ref sig .tc) (hb : b ≠ main_v1) : V₁ m ρ c (Proc.devRef .tc b) = V m ρ c b := by
  show StableHlo.after [StableHlo.nullary main_v1 (finalOut m ρ c)] _ (Proc.devRef .tc b) = _
  refine StableHlo.after_of_forall_not_mem (b := Proc.devRef .tc b) _ _ ?_
  intro op hop
  rw [List.mem_singleton] at hop; subst hop
  simp only [StableHlo.nullary_writes, Finset.mem_singleton]
  exact StableHlo.devRef_ne_of_ne hb
theorem V₁_v1 (c : Dev nD) : V₁ m ρ c (Proc.devRef .tc main_v1) = finalOut m ρ c := by
  show StableHlo.after [StableHlo.nullary main_v1 (finalOut m ρ c)] _ (Proc.devRef .tc main_v1) = _
  after_results

/-- The unscoped buffers no window stages are, when the region is left, as it found them. -/
theorem rest_eq (c : Dev nD) :
    (Pipeline.unscopedRest spec0 c (V m ρ c) : sProp 𝕄) = Pipeline.unscopedRest spec0 c (fun b => V₁ m ρ c (Proc.devRef .tc b)) := by
  unfold Pipeline.unscopedRest
  exact bigSep_congr fun b hb => by
    show (((c : Thread nD τ).loc b) ↦{fullShare} V m ρ c b : sProp 𝕄) = (((c : Thread nD τ).loc b) ↦{fullShare} V₁ m ρ c (Proc.devRef .tc b))
    rw [V₁_of_ne m ρ c b (fun h => by subst h; exact (Finset.mem_sdiff.mp hb).2 (by decide))]

/-! ## The region -/

set_option backward.isDefEq.respectTransparency.types false in
set_option maxHeartbeats 1600000 in
/-- THE REGION (see the header). -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (V₁ m ρ c) ∗ R c)
  X c := iprop(emp)
  Y c := iprop(emp)
  Z c := Pipeline.unscopedRest spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c), arrBufs_eq, arrays_eq']
    iintro ⟨⟨⟨⟨H0, H1⟩, Hrest⟩, HO⟩, -, -⟩
    ihave H0 := (pointsTo_share (PosShare.mem_left_op_right fullShare)).1 $$ H0
    icases H0 with ⟨Hl, Hr⟩
    imodintro
    isplitl [Hl Hr H1]
    · isplitl [Hl]; · iexact Hl
      isplitl [Hr]; · iexact Hr
      iexact H1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Φc m ρ c 0 from rfl, scopedRest0_eq]; unfold Φc
    iintro ⟨-, -, ⟨%f5, H5⟩, ⟨%f6, H6⟩⟩
    iexists f5, f6
    isplitl [H5]; · iexact H5
    isplitl [H6]; · iexact H6
    ipureintro; intro h; exact absurd h (Nat.lt_irrefl 0)
  hout c := by
    rw [Pipeline.ownSems0_none, show (dats m ρ 0 c).Φ (Fin.last cfg0.N) = Φc m ρ c (Fin.last cfg0.N) from rfl, scopedRest0_eq]; unfold Φc
    iintro ⟨%g5, %g6, H5, H6, -⟩
    isplitr; · iempintro
    isplitr; · iempintro
    isplitl [H5]; · iexists _; iexact H5
    iexists _; iexact H6
  hexit c := by
    rw [arrays_eq',
      show StableHlo.held (c : Thread nD τ) (Pipeline.ucRefs τ sig) (V₁ m ρ c) = unscopedBufs c (fun b => V₁ m ρ c (Proc.devRef .tc b)) from (Pipeline.unscopedBufs_held c _).symm,
      Pipeline.unscopedBufs_split₀ cfgs 0 winFacts₀0.arr_unscoped c (fun b => V₁ m ρ c (Proc.devRef .tc b)), arrBufs_eq]
    iintro ⟨⟨Hl, Hr, H1⟩, HO, -, Hrest⟩
    imodintro
    isplitr [HO]
    · isplitl [Hl Hr H1]
      · isplitl [Hl Hr]
        · rw [V₁_of_ne m ρ c main_v0 (by decide)]
          rw [show (dats m ρ 0 c).arrAt 0 cfg0.N = V m ρ c main_v0 from (dats m ρ 0 c).arrAt_in 0 rfl _,
            show (dats m ρ 0 c).arrAt 1 cfg0.N = V m ρ c main_v0 from (dats m ρ 0 c).arrAt_in 1 rfl _]
          iapply (pointsTo_share (PosShare.mem_left_op_right fullShare)).2
          isplitl [Hl] <;> iassumption
        · rw [V₁_v1]; iexact H1
      · rw [← rest_eq m ρ c]; iexact Hrest
    · unfold Pipeline.Dat.owesAt Pipeline.owesWithin
      icases HO with ⟨%W, -, HO⟩; iexists W; iexact HO

end Cert.Kernel.Hand

end
-- ==== Proof.WRun.lean ====
/- The run of the kernel's @main, for any float values: from any memory with zero counters every weakly fair
   execution terminates, nothing faulting, the four arguments end as they were and the result holds the host tail
   — 2e9 + (0 + the sum of all entries) / 8192 — of the output array as the region's write-backs left it. -/
import proofs.«126300_j66795331388029_1_alg».proof.Proof.WLaunch

set_option maxRecDepth 16384

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host tail of @main, as a function of the output array. -/
def tailOf (X : (⟨S8192x1, .f32⟩ : BufTy).Contents (Elt F)) : (⟨S_, .f32⟩ : BufTy).Contents (Elt F) :=
  addf (constant S_ .f32 0x4EEE6B28#32)
    (Host.divf (Host.reduceAdd X (constant S_ .f32 0x00000000#32) reducesTo_S8192x1_S_d0_1 h_S_) (constant S_ .f32 0x46000000#32))

/-- What the last segment leaves: the unscoped buffers after the tail. -/
abbrev Tₙ (c : Dev nD) : sProp 𝕄 :=
  StableHlo.held (c : Thread nD τ) (Pipeline.ucRefs τ sig) (StableHlo.after hostOps1 (V₁ m ρ c))

/-- @main as its three segments. -/
abbrev segs : List (Pipeline.Seg (pcfgs (F := F)) adm (dats m ρ) () defs₀ 𝒱₀ L lv) :=
  [.host (seg0 m ρ), .region (reg0 m ρ), .host (seg1 m ρ)]

/-- The result buffer after the tail, -/
theorem res_v4 (c : Dev nD) : StableHlo.after hostOps1 (V₁ m ρ c) (Proc.devRef .tc main_v4) = tailOf (finalOut m ρ c) := by
  unfold tailOf; after_results
/-- and the arguments, which no host operation writes. -/
theorem res_arg0 (c : Dev nD) : StableHlo.after hostOps1 (V₁ m ρ c) (Proc.devRef .tc main_arg0) = m ((c : Thread nD τ).loc main_arg0) := by
  after_results
theorem res_arg1 (c : Dev nD) : StableHlo.after hostOps1 (V₁ m ρ c) (Proc.devRef .tc main_arg1) = m ((c : Thread nD τ).loc main_arg1) := by
  after_results
theorem res_arg2 (c : Dev nD) : StableHlo.after hostOps1 (V₁ m ρ c) (Proc.devRef .tc main_arg2) = m ((c : Thread nD τ).loc main_arg2) := by
  after_results
theorem res_arg3 (c : Dev nD) : StableHlo.after hostOps1 (V₁ m ρ c) (Proc.devRef .tc main_arg3) = m ((c : Thread nD τ).loc main_arg3) := by
  after_results

/-- The post of the run, device by device. -/
def QY (c : Dev nD) (s : MemSt nD τ sig (Elt F)) : Prop :=
  s.mem ((c : Thread nD τ).loc main_v4) = tailOf (finalOut m ρ c)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

set_option backward.isDefEq.respectTransparency.types false in
set_option maxHeartbeats 1600000 in
theorem run_main : θ_run defs (onTc (τ := τ) (main (F := F))) (s₀ m ρ) (fun r => ∀ c : Dev nD, QY m ρ c r.2) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := QY m ρ)
    (hfin := fun c s' => by
      show iprop((bigSep (Pipeline.ucRefs τ sig) fun b : DevRef τ sig => ((((c : Dev nD), b) : Loc nD τ sig) ↦{fullShare} StableHlo.after hostOps1 (V₁ m ρ c) b : sProp 𝕄)) ∗ SI s') ⊢ _
      iintro ⟨Hh, HSI⟩
      ihave Hr := (pointsTo_read_all (Pipeline.ucRefs τ sig) (fun b => ((c : Dev nD), b)) (fun b => StableHlo.after hostOps1 (V₁ m ρ c) b) s') $$ [Hh HSI]
      · isplitl [Hh]
        · iexact Hh
        · iexact HSI
      icases Hr with ⟨%ha, HSI⟩
      imodintro
      isplitr
      · ipureintro
        exact ⟨(ha (Proc.devRef .tc main_v4) (by decide)).trans (res_v4 m ρ c),
          (ha (Proc.devRef .tc main_arg0) (by decide)).trans (res_arg0 m ρ c),
          (ha (Proc.devRef .tc main_arg1) (by decide)).trans (res_arg1 m ρ c),
          (ha (Proc.devRef .tc main_arg2) (by decide)).trans (res_arg2 m ρ c),
          (ha (Proc.devRef .tc main_arg3) (by decide)).trans (res_arg3 m ρ c)⟩
      iexact HSI)
    (hQ := fun _ h => h)

/-- The frame: the arguments end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Hand

end
-- ==== Proof.KBody.lean ====
/- The kernel body at one grid point (row tile i, column tile j), run once for each of the three ways its two
   conditionals can go: the first column tile (the running maximum and sum are reset before they are used), a middle
   tile (neither conditional fires), the last tile (the row tile's result m + log l is stored into the output block).
   Each run holds the two input blocks and the two scratch columns (at the last tile also the output block), returns
   the inputs as they were, and FINDS the stores it leaves in each scratch column (and the output block) as pieces;
   the pieces cover their buffer, so what the buffer then reads is the pieces over anything. -/
import proofs.«126300_j66795331388029_1_alg».proof.Proof.Gen.KernelIdeal.Skeleton
import proofs.«126300_j66795331388029_1_alg».proof.Proof.Gen.KernelIdeal.Launch
import proofs.«126300_j66795331388029_1_alg».proof.Proof.Gen.KernelIdeal.Points
import Idealize.ShloMosaic.Lib.Tactic
import Idealize.ShloMosaic.Lib.Pipeline.Kit
import Idealize.ShloMosaic.Lib.Pipeline.Frame

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The running maximum's and the running sum's scratch columns. -/
abbrev sM : Memref sig .tc .vmem S1024x1 .f32 := Memref.whole cc0_scratch0
abbrev sL : Memref sig .tc .vmem S1024x1 .f32 := Memref.whole cc0_scratch1
theorem hsM : (sM).IsWhole := Memref.isWhole_whole _
theorem hsL : (sL).IsWhole := Memref.isWhole_whole _
/-- A column's contents are stated through one whole [1024,1] buffer's view (which one does not matter). -/
abbrev VC : View sig .tc .vmem S1024x1 .f32 := (sM).view

/-- A scratch column held whole at buffer contents `f`. -/
abbrev Col (c : Dev nD) (M : Memref sig .tc .vmem S1024x1 .f32) : Type := Buf (Elt F) (M.view.loc (c : Thread nD τ))
abbrev ptW (c : Dev nD) (M : Memref sig .tc .vmem S1024x1 .f32) (f : Col (F := F) c M) : sProp 𝕄 :=
  M.view.loc (c : Thread nD τ) ↦{fullShare} f

/-- A column (a scratch column or the output block) as pieces stored into it. -/
abbrev Pieces (F : FTy → Type) [FloatOps F] : Type := List (View.Piece (Elt F) S1024x1 .f32)

/-- The first conditional's test: the column tile is the first one (the second's is the printed `k0_cond2`:
    the column tile is the last one). -/
abbrev cond1 (i : grid0.Coords) : Prop :=
  (Scalar.cmpi .ne (Scalar.extui (Scalar.cmpi .eq (BitVec.ofNat 32 (i 1).val) 0#32)) 0#32) = 1#1
abbrev cond2 (i : grid0.Coords) : Prop := k0_cond2 i = 1#1

/-- The body at point `i` on staging memrefs and the two scratch columns. -/
abbrev bodyOn (i : grid0.Coords) (arg2 : Memref sig .tc .vmem S1024x256 .f32) (harg2 : arg2.IsWhole)
    (arg3 : Memref sig .tc .vmem S1024x256 .f32) (harg3 : arg3.IsWhole)
    (arg4 : Memref sig .tc .vmem S1024x1 .f32) (harg4 : arg4.IsWhole) : Prog (TpuEff nD τ sig (Elt F) Λ₀ .tc) PUnit :=
  cc0__lse_kernel i arg2 harg2 arg3 harg3 arg4 harg4 (Memref.whole cc0_scratch0) (Memref.isWhole_whole _) (Memref.whole cc0_scratch1) (Memref.isWhole_whole _)

set_option maxHeartbeats 1000000 in
/-- The first column tile: the scratch columns are overwritten before they are read. -/
def runA (c : Dev nD) (i : grid0.Coords) (arg2 : Memref sig .tc .vmem S1024x256 .f32) (harg2 : arg2.IsWhole)
    (arg3 : Memref sig .tc .vmem S1024x256 .f32) (harg3 : arg3.IsWhole)
    (arg4 : Memref sig .tc .vmem S1024x1 .f32) (harg4 : arg4.IsWhole)
    (hc1 : cond1 i) (hc2 : ¬ cond2 i) (x0 x1 : Vec F S1024x256 .f32) :
    { L : Pieces F × Pieces F //
      ∀ (E : Set ℕ) (K : PUnit → sProp 𝕄),
        iprop(owns (c : Thread nD τ) arg2 fullShare x0 ∗ owns (c : Thread nD τ) arg3 fullShare x1
            ∗ (∃ f, ptW c (sM) f) ∗ (∃ f, ptW c (sL) f)
            ∗ (iprop(owns (c : Thread nD τ) arg2 fullShare x0 ∗ owns (c : Thread nD τ) arg3 fullShare x1
                ∗ (∃ f, ptW c (sM) ((sM).view.writes (Elt F) f L.1))
                ∗ (∃ f, ptW c (sL) ((sL).view.writes (Elt F) f L.2))) -∗ K ⟨⟩))
          ⊢ wp frame (wpE (defs₀ (F := F)) Variants.none c none) E (bodyOn i arg2 harg2 arg3 harg3 arg4 harg4) K } := by
  refine ⟨(?_, ?_), fun E K => ?run⟩
  case run =>
    unfold bodyOn
    simp only [cc0__lse_kernel_eq_skeleton]; unfold cc0__lse_kernel_skel
    unfold owns
    iintro ⟨⟨%f0, %hf0, H0⟩, ⟨%f1, %hf1, H1⟩, ⟨%g5, H5⟩, ⟨%g6, H6⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H5]
    · iexists _; iexact H5
    iexists _; iexact H6

set_option maxHeartbeats 1000000 in
/-- A middle column tile: neither conditional fires; the scratch columns, held at `g5` and `g6`, are read and updated. -/
def runB (c : Dev nD) (i : grid0.Coords) (arg2 : Memref sig .tc .vmem S1024x256 .f32) (harg2 : arg2.IsWhole)
    (arg3 : Memref sig .tc .vmem S1024x256 .f32) (harg3 : arg3.IsWhole)
    (arg4 : Memref sig .tc .vmem S1024x1 .f32) (harg4 : arg4.IsWhole)
    (hc1 : ¬ cond1 i) (hc2 : ¬ cond2 i) (x0 x1 : Vec F S1024x256 .f32) (g5 : Col (F := F) c (sM)) (g6 : Col (F := F) c (sL)) :
    { L : Pieces F × Pieces F //
      ∀ (E : Set ℕ) (K : PUnit → sProp 𝕄),
        iprop(owns (c : Thread nD τ) arg2 fullShare x0 ∗ owns (c : Thread nD τ) arg3 fullShare x1
            ∗ ptW c (sM) g5 ∗ ptW c (sL) g6
            ∗ (iprop(owns (c : Thread nD τ) arg2 fullShare x0 ∗ owns (c : Thread nD τ) arg3 fullShare x1
                ∗ (∃ f, ptW c (sM) ((sM).view.writes (Elt F) f L.1))
                ∗ (∃ f, ptW c (sL) ((sL).view.writes (Elt F) f L.2))) -∗ K ⟨⟩))
          ⊢ wp frame (wpE (defs₀ (F := F)) Variants.none c none) E (bodyOn i arg2 harg2 arg3 harg3 arg4 harg4) K } := by
  refine ⟨(?_, ?_), fun E K => ?run⟩
  case run =>
    unfold bodyOn
    simp only [cc0__lse_kernel_eq_skeleton]; unfold cc0__lse_kernel_skel
    unfold owns
    iintro ⟨⟨%f0, %hf0, H0⟩, ⟨%f1, %hf1, H1⟩, H5, H6, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H5]
    · iexists _; iexact H5
    iexists _; iexact H6

set_option maxHeartbeats 1000000 in
/-- The last column tile: the scratch columns are updated and the row tile's result is stored, whole, into the
    output block. -/
def runC (c : Dev nD) (i : grid0.Coords) (arg2 : Memref sig .tc .vmem S1024x256 .f32) (harg2 : arg2.IsWhole)
    (arg3 : Memref sig .tc .vmem S1024x256 .f32) (harg3 : arg3.IsWhole)
    (arg4 : Memref sig .tc .vmem S1024x1 .f32) (harg4 : arg4.IsWhole)
    (hc1 : ¬ cond1 i) (hc2 : cond2 i) (x0 x1 : Vec F S1024x256 .f32) (g5 : Col (F := F) c (sM)) (g6 : Col (F := F) c (sL)) :
    { L : Pieces F × Pieces F × Pieces F //
      ∀ (E : Set ℕ) (K : PUnit → sProp 𝕄) (x2 : Vec F S1024x1 .f32),
        iprop(owns (c : Thread nD τ) arg2 fullShare x0 ∗ owns (c : Thread nD τ) arg3 fullShare x1
            ∗ owns (c : Thread nD τ) arg4 fullShare x2
            ∗ ptW c (sM) g5 ∗ ptW c (sL) g6
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.2.2)
                ∗ (∃ f, ptW c (sM) ((sM).view.writes (Elt F) f L.1))
                ∗ (∃ f, ptW c (sL) ((sL).view.writes (Elt F) f L.2.1))) -∗ K ⟨⟩))
          ⊢ wp frame (wpE (defs₀ (F := F)) Variants.none c none) E (bodyOn i arg2 harg2 arg3 harg3 arg4 harg4) K } := by
  refine ⟨(?_, ?_, ?_), fun E K x2 => ?run⟩
  case run =>
    unfold bodyOn
    simp only [cc0__lse_kernel_eq_skeleton]; unfold cc0__lse_kernel_skel
    unfold owns
    iintro ⟨⟨%f0, %hf0, H0⟩, ⟨%f1, %hf1, H1⟩, ⟨%f2, %hf2, H2⟩, H5, H6, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H5]
    · iexists _; iexact H5
    iexists _; iexact H6

end Cert.KernelIdeal.Hand

end
-- ==== Proof.KData.lean ====
/- The pipeline's proof data for the kernel's one region: the 64 grid points are (row tile i, column tile j) in
   row-major order, point t = 8 i + j. Window 0 stages rows [1024 i, 1024 i + 1024) of the projections, window 1
   rows [1024 j, 1024 j + 1024) of the SAME array, window 2 is the output's block i, stored and written back only at
   j = 7. Between points the two scratch columns carry the row tile's running maximum and running sum: after point t
   they hold what the point's case of the body leaves, computed from the point's two input blocks and — except at
   j = 0, where they are reset — from what point t - 1 left. -/
import proofs.«126300_j66795331388029_1_alg».proof.Proof.KBody
import Idealize.ShloMosaic.Lib.Pipeline.Regions
import Idealize.ShloMosaic.Lib.Pipeline.FrameBody
import Idealize.ShloMosaic.Lib.Ring

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region: one concatenate -/

/-- Core `c`'s buffers at launch, as the host operations' valuation; -/
abbrev V₀ (c : Dev nD) : Valuation τ sig (Elt F) := fun b => (s₀ m ρ).mem ((c : Dev nD), b)
/-- and when the region is entered: the concatenate has run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The two conditionals over the grid -/

/-- The first fires exactly at the first column tile, -/
theorem hcond1 : ∀ t : Fin cfg0.N, cond1 (grid0.coords t) ↔ t.val % 8 = 0 :=
  (by decide +kernel : ∀ t : Fin grid0.N, cond1 (grid0.coords t) ↔ t.val % 8 = 0)
/-- the second exactly at the last. -/
theorem hcond2 : ∀ t : Fin cfg0.N, cond2 (grid0.coords t) ↔ t.val % 8 = 7 :=
  (by decide +kernel : ∀ t : Fin grid0.N, cond2 (grid0.coords t) ↔ t.val % 8 = 7)

theorem ncond2_of0 (t : Fin cfg0.N) (h0 : t.val % 8 = 0) : ¬ cond2 (grid0.coords t) := fun h => by
  have := (hcond2 t).mp h; omega
theorem ncond1_of (t : Fin cfg0.N) (h0 : ¬ t.val % 8 = 0) : ¬ cond1 (grid0.coords t) := fun h => h0 ((hcond1 t).mp h)
theorem ncond2_of (t : Fin cfg0.N) (h7 : ¬ t.val % 8 = 7) : ¬ cond2 (grid0.coords t) := fun h => h7 ((hcond2 t).mp h)

/-! ## The staging memrefs the pipeline calls the body with at a point -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)

/-! ## What a column reads after a run's stores -/

/-- A column after the pieces `L` were stored into it, whatever it held: the pieces read back over anything. -/
def colOf (L : Pieces F) : Vec F S1024x1 .f32 := (VC).read (Elt F) ((VC).writes (Elt F) (VC).junk L)

section Covers
variable (c : Dev nD) (i : grid0.Coords) (arg2 : Memref sig .tc .vmem S1024x256 .f32) (harg2 : arg2.IsWhole)
    (arg3 : Memref sig .tc .vmem S1024x256 .f32) (harg3 : arg3.IsWhole)
    (arg4 : Memref sig .tc .vmem S1024x1 .f32) (harg4 : arg4.IsWhole) (x0 x1 : Vec F S1024x256 .f32)

/-- In every case each column's pieces end with a store of the whole column, so they cover it. -/
theorem coverA_M (hc1 : cond1 i) (hc2 : ¬ cond2 i) (y : S1024x1.Idx) :
    ∃ pc ∈ (runA (F := F) c i arg2 harg2 arg3 harg3 arg4 harg4 hc1 hc2 x0 x1).1.1, y ∈ pc.1.set :=
  View.cover_of_tiledL _ S1024x1.size (by sl_kernel_rfl) y
theorem coverA_L (hc1 : cond1 i) (hc2 : ¬ cond2 i) (y : S1024x1.Idx) :
    ∃ pc ∈ (runA (F := F) c i arg2 harg2 arg3 harg3 arg4 harg4 hc1 hc2 x0 x1).1.2, y ∈ pc.1.set :=
  View.cover_of_tiledL _ S1024x1.size (by sl_kernel_rfl) y
theorem coverB_M (hc1 : ¬ cond1 i) (hc2 : ¬ cond2 i) (g5 : Col (F := F) c (sM)) (g6 : Col (F := F) c (sL)) (y : S1024x1.Idx) :
    ∃ pc ∈ (runB (F := F) c i arg2 harg2 arg3 harg3 arg4 harg4 hc1 hc2 x0 x1 g5 g6).1.1, y ∈ pc.1.set :=
  View.cover_of_tiledL _ S1024x1.size (by sl_kernel_rfl) y
theorem coverB_L (hc1 : ¬ cond1 i) (hc2 : ¬ cond2 i) (g5 : Col (F := F) c (sM)) (g6 : Col (F := F) c (sL)) (y : S1024x1.Idx) :
    ∃ pc ∈ (runB (F := F) c i arg2 harg2 arg3 harg3 arg4 harg4 hc1 hc2 x0 x1 g5 g6).1.2, y ∈ pc.1.set :=
  View.cover_of_tiledL _ S1024x1.size (by sl_kernel_rfl) y
theorem coverC_M (hc1 : ¬ cond1 i) (hc2 : cond2 i) (g5 : Col (F := F) c (sM)) (g6 : Col (F := F) c (sL)) (y : S1024x1.Idx) :
    ∃ pc ∈ (runC (F := F) c i arg2 harg2 arg3 harg3 arg4 harg4 hc1 hc2 x0 x1 g5 g6).1.1, y ∈ pc.1.set :=
  View.cover_of_tiledL _ S1024x1.size (by sl_kernel_rfl) y
theorem coverC_L (hc1 : ¬ cond1 i) (hc2 : cond2 i) (g5 : Col (F := F) c (sM)) (g6 : Col (F := F) c (sL)) (y : S1024x1.Idx) :
    ∃ pc ∈ (runC (F := F) c i arg2 harg2 arg3 harg3 arg4 harg4 hc1 hc2 x0 x1 g5 g6).1.2.1, y ∈ pc.1.set :=
  View.cover_of_tiledL _ S1024x1.size (by sl_kernel_rfl) y
theorem coverC_O (hc1 : ¬ cond1 i) (hc2 : cond2 i) (g5 : Col (F := F) c (sM)) (g6 : Col (F := F) c (sL)) (y : S1024x1.Idx) :
    ∃ pc ∈ (runC (F := F) c i arg2 harg2 arg3 harg3 arg4 harg4 hc1 hc2 x0 x1 g5 g6).1.2.2, y ∈ pc.1.set :=
  View.cover_of_tiledL _ S1024x1.size (by sl_kernel_rfl) y
end Covers

/-! ## The scratch columns, point by point -/

/-- A pair (running maximum, running sum) of columns, as read. -/
abbrev St (F : FTy → Type) [FloatOps F] : Type := Vec F S1024x1 .f32 × Vec F S1024x1 .f32

/-- What the first column tile's run leaves in the scratch columns. -/
def stepA (c : Dev nD) (t : Fin cfg0.N) (h0 : t.val % 8 = 0) : St F :=
  (colOf (runA (F := F) c (grid0.coords t) (ms0 t) (hs0 t) (ms1 t) (hs1 t) (ms2 t) (hs2 t) ((hcond1 t).mpr h0) (ncond2_of0 t h0) (iblk m ρ c 0 t) (iblk m ρ c 1 t)).1.1,
   colOf (runA (F := F) c (grid0.coords t) (ms0 t) (hs0 t) (ms1 t) (hs1 t) (ms2 t) (hs2 t) ((hcond1 t).mpr h0) (ncond2_of0 t h0) (iblk m ρ c 0 t) (iblk m ρ c 1 t)).1.2)
/-- What a middle tile's run leaves, from what the point before left. -/
def stepB (c : Dev nD) (t : Fin cfg0.N) (h0 : ¬ t.val % 8 = 0) (h7 : ¬ t.val % 8 = 7) (prev : St F) : St F :=
  (colOf (runB (F := F) c (grid0.coords t) (ms0 t) (hs0 t) (ms1 t) (hs1 t) (ms2 t) (hs2 t) (ncond1_of t h0) (ncond2_of t h7) (iblk m ρ c 0 t) (iblk m ρ c 1 t) ((hsM).unread prev.1) ((hsL).unread prev.2)).1.1,
   colOf (runB (F := F) c (grid0.coords t) (ms0 t) (hs0 t) (ms1 t) (hs1 t) (ms2 t) (hs2 t) (ncond1_of t h0) (ncond2_of t h7) (iblk m ρ c 0 t) (iblk m ρ c 1 t) ((hsM).unread prev.1) ((hsL).unread prev.2)).1.2)
/-- What the last tile's run leaves in the scratch columns, -/
def stepC (c : Dev nD) (t : Fin cfg0.N) (h0 : ¬ t.val % 8 = 0) (h7 : t.val % 8 = 7) (prev : St F) : St F :=
  (colOf (runC (F := F) c (grid0.coords t) (ms0 t) (hs0 t) (ms1 t) (hs1 t) (ms2 t) (hs2 t) (ncond1_of t h0) ((hcond2 t).mpr h7) (iblk m ρ c 0 t) (iblk m ρ c 1 t) ((hsM).unread prev.1) ((hsL).unread prev.2)).1.1,
   colOf (runC (F := F) c (grid0.coords t) (ms0 t) (hs0 t) (ms1 t) (hs1 t) (ms2 t) (hs2 t) (ncond1_of t h0) ((hcond2 t).mpr h7) (iblk m ρ c 0 t) (iblk m ρ c 1 t) ((hsM).unread prev.1) ((hsL).unread prev.2)).1.2.1)
/-- and in the output block. -/
def outC (c : Dev nD) (t : Fin cfg0.N) (h0 : ¬ t.val % 8 = 0) (h7 : t.val % 8 = 7) (prev : St F) : Vec F S1024x1 .f32 :=
  colOf (runC (F := F) c (grid0.coords t) (ms0 t) (hs0 t) (ms1 t) (hs1 t) (ms2 t) (hs2 t) (ncond1_of t h0) ((hcond2 t).mpr h7) (iblk m ρ c 0 t) (iblk m ρ c 1 t) ((hsM).unread prev.1) ((hsL).unread prev.2)).1.2.2

/-- THE CARRIED STATE: what the scratch columns read after the body at position `n`. -/
def stAt (c : Dev nD) : (n : ℕ) → n < cfg0.N → St F
  | 0, hn => stepA m ρ c ⟨0, hn⟩ (Nat.zero_mod _)
  | n + 1, hn =>
    if h0 : (n + 1) % 8 = 0 then stepA m ρ c ⟨n + 1, hn⟩ h0
    else if h7 : (n + 1) % 8 = 7 then stepC m ρ c ⟨n + 1, hn⟩ h0 h7 (stAt c n (Nat.lt_of_succ_lt hn))
    else stepB m ρ c ⟨n + 1, hn⟩ h0 h7 (stAt c n (Nat.lt_of_succ_lt hn))

/-- What the output's staging buffer reads after the body at a last column tile (anything elsewhere: the body does
    not touch it there and the pipeline does not write it back). -/
def outAt (c : Dev nD) (t : Fin cfg0.N) : Vec F S1024x1 .f32 :=
  if h7 : t.val % 8 = 7 then
    outC m ρ c t (by omega) h7 (stAt m ρ c (t.val - 1) (Nat.lt_of_le_of_lt (Nat.sub_le _ _) t.isLt))
  else colOf []

/-! ## The invariant and the proof data -/

/-- Before position `k`: the scratch columns held whole, reading — unless `k = 0`, where nothing is known of them —
    what position `k - 1` left. -/
def Φc (c : Dev nD) (k : Fin (cfg0.N + 1)) : sProp 𝕄 :=
  iprop(∃ (g5 : Col (F := F) c (sM)) (g6 : Col (F := F) c (sL)), ptW c (sM) g5 ∗ ptW c (sL) g6
    ∗ ⌜∀ h : 0 < k.val, (sM).view.read (Elt F) g5 = (stAt m ρ c (k.val - 1) (by have := k.isLt; omega)).1
        ∧ (sL).view.read (Elt F) g6 = (stAt m ρ c (k.val - 1) (by have := k.isLt; omega)).2⌝)

/-- The proof data on core `c`: the arrays as the region finds them; after the body each input's buffer at its
    block and the output's at `outAt`; the invariant `Φc`; nothing owed; the projections' array shared between the
    two windows that read it, half each, the output's held outright. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => outAt m ρ c t
  Φ k := Φc m ρ c k
  q w := match w with
    | ⟨0, _⟩ => fullShare.left
    | ⟨1, _⟩ => fullShare.right
    | ⟨2, _⟩ => fullShare
  owed _ := 0

end Cert.KernelIdeal.Hand

end
-- ==== Proof.KOblig.lean ====
/- The body obligation of the kernel's one region: at every grid point, from the invariant (the two scratch columns
   reading what the point before left), the two input blocks staged and the output's staging buffer, the body runs
   to the invariant of the next point, the inputs as staged and the output's buffer left alone — or, at a last
   column tile, holding the row tile's result. By cases on the column tile: first, last, or in between. -/
import proofs.«126300_j66795331388029_1_alg».proof.Proof.KData

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried state, case by case -/

theorem stAt_A (c : Dev nD) (t : Fin cfg0.N) (h0 : t.val % 8 = 0) :
    stAt m ρ c t.val t.isLt = stepA m ρ c t h0 := by
  obtain ⟨n, hn⟩ := t
  cases n with
  | zero => exact rfl
  | succ n => exact (dif_pos h0).trans rfl

theorem stAt_B (c : Dev nD) (t : Fin cfg0.N) (h0 : ¬ t.val % 8 = 0) (h7 : ¬ t.val % 8 = 7) :
    stAt m ρ c t.val t.isLt
      = stepB m ρ c t h0 h7 (stAt m ρ c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

theorem stAt_C (c : Dev nD) (t : Fin cfg0.N) (h0 : ¬ t.val % 8 = 0) (h7 : t.val % 8 = 7) :
    stAt m ρ c t.val t.isLt
      = stepC m ρ c t h0 h7 (stAt m ρ c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h7).trans rfl)

theorem outAt_C (c : Dev nD) (t : Fin cfg0.N) (h0 : ¬ t.val % 8 = 0) (h7 : t.val % 8 = 7) :
    outAt m ρ c t = outC m ρ c t h0 h7 (stAt m ρ c (t.val - 1) (Nat.lt_of_le_of_lt (Nat.sub_le _ _) t.isLt)) :=
  (dif_pos h7).trans rfl

/-! ## What the proof data say of each window -/

theorem A_eq (c : Dev nD) (w : Fin cfg0.W) : (dats m ρ 0 c).A w = V m ρ c (Pipeline.arrRef spec0 w) := by
  dsimp only [dats]
theorem after_0 (c : Dev nD) (t : Fin cfg0.N) : (dats m ρ 0 c).after 0 t = iblk m ρ c 0 t := by dsimp only [dats]
theorem after_1 (c : Dev nD) (t : Fin cfg0.N) : (dats m ρ 0 c).after 1 t = iblk m ρ c 1 t := by dsimp only [dats]
theorem after_2 (c : Dev nD) (t : Fin cfg0.N) : (dats m ρ 0 c).after 2 t = outAt m ρ c t := by dsimp only [dats]

/-- The row block's staging buffer holds the row block at every point: fetched at the first column tile of its row
    tile, and the block index does not move at the others. -/
theorem before_0 (c : Dev nD) (t : Fin cfg0.N) (d) : (dats m ρ 0 c).before 0 t d = iblk m ρ c 0 t :=
  ((dats m ρ 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
/-- The column block's is fetched at every point. -/
theorem before_1 (c : Dev nD) (t : Fin cfg0.N) (d) : (dats m ρ 0 c).before 1 t d = iblk m ρ c 1 t :=
  ((dats m ρ 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The output window is idle exactly off the last column tile, -/
theorem idle_2 (t : Fin cfg0.N) (h7 : t.val % 8 = 7) : idle0 2 (grid0.coords t) = false := by
  show (!(k0_cond2 (grid0.coords t) == 1#1)) = false
  rw [show k0_cond2 (grid0.coords t) = 1#1 from (hcond2 t).mpr h7]; rfl
theorem idle_2' (t : Fin cfg0.N) (h7 : ¬ t.val % 8 = 7) : idle0 2 (grid0.coords t) = true := by
  show (!(k0_cond2 (grid0.coords t) == 1#1)) = true
  rw [show (k0_cond2 (grid0.coords t) == 1#1) = false from beq_eq_false_iff_ne.mpr (ncond2_of t h7)]; rfl
/-- and written back exactly at it. -/
theorem flush_2' (t : Fin cfg0.N) (h7 : ¬ t.val % 8 = 7) : (win0 2).flush t = false :=
  Bool.eq_false_iff.mpr fun h => h7 ((flush0_2 t).mp h)

/-! ## The body obligation, at a generic point -/

/-- What the body is called with at point `t`, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (ms0 t) fullShare ((dats m ρ 0 c).after 0 t)
    ∗ owns (c : Thread nD τ) (ms1 t) fullShare ((dats m ρ 0 c).after 1 t)
    ∗ (match cfg0.idle 2 (cfg0.grid.coords t) with
        | true =>
          match (cfg0.win 2).flush t with
          | false => iprop(∃ d, owns (c : Thread nD τ) (ms2 t) fullShare ((dats m ρ 0 c).before 2 t d))
          | true => owns (c : Thread nD τ) (ms2 t) fullShare ((dats m ρ 0 c).after 2 t)
        | false => owns (c : Thread nD τ) (ms2 t) fullShare ((dats m ρ 0 c).after 2 t)))

set_option maxHeartbeats 1600000 in
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1]
  rw [show (dats m ρ 0 c).owesAt () t.succ = (dats m ρ 0 c).owesAt () t.castSucc from rfl, after_0, after_1, after_2,
    show (dats m ρ 0 c).Φ t.castSucc = Φc m ρ c t.castSucc from rfl, show (dats m ρ 0 c).Φ t.succ = Φc m ρ c t.succ from rfl]
  unfold Φc
  by_cases h0 : t.val % 8 = 0
  · -- the first column tile
    have h7 : ¬ t.val % 8 = 7 := by omega
    rw [idle_2' t h7, flush_2' t h7]
    iintro ⟨⟨%g5, %g6, H5, H6, -⟩, Ho, ⟨%d0, H0⟩, ⟨%d1, H1⟩, ⟨%d2, H2⟩⟩
    iapply ((runA (F := F) c (grid0.coords t) (ms0 t) (hs0 t) (ms1 t) (hs1 t) (ms2 t) (hs2 t) ((hcond1 t).mpr h0) (ncond2_of0 t h0) (iblk m ρ c 0 t) (iblk m ρ c 1 t)).2 Set.univ _)
    isplitl [H0]; · iexact H0
    isplitl [H1]; · iexact H1
    isplitl [H5]; · iexists _; iexact H5
    isplitl [H6]; · iexists _; iexact H6
    iintro ⟨H0, H1, ⟨%f5, H5⟩, ⟨%f6, H6⟩⟩
    isplitl [H5 H6]
    · iexists _, _
      isplitl [H5]; · iexact H5
      isplitl [H6]; · iexact H6
      ipureintro
      intro _
      show _ = (stAt m ρ c t.val t.isLt).1 ∧ _ = (stAt m ρ c t.val t.isLt).2
      rw [stAt_A m ρ c t h0]
      dsimp only [stepA, colOf]
      exact ⟨View.read_writes_of_cover _ _ _ _ _ (coverA_M c _ _ _ _ _ _ _ _ _ _ _),
        View.read_writes_of_cover _ _ _ _ _ (coverA_L c _ _ _ _ _ _ _ _ _ _ _)⟩
    isplitl [Ho]; · iexact Ho
    isplitl [H0]; · iexact H0
    isplitl [H1]; · iexact H1
    iexists d2; iexact H2
  · by_cases h7 : t.val % 8 = 7
    · -- the last column tile
      rw [idle_2 t h7]
      iintro ⟨⟨%g5, %g6, H5, H6, %hΦ⟩, Ho, ⟨%d0, H0⟩, ⟨%d1, H1⟩, ⟨%d2, H2⟩⟩
      obtain ⟨e5, e6⟩ := hΦ (show 0 < t.val by omega)
      obtain rfl := (hsM).eq_unread e5; obtain rfl := (hsL).eq_unread e6
      iapply ((runC (F := F) c (grid0.coords t) (ms0 t) (hs0 t) (ms1 t) (hs1 t) (ms2 t) (hs2 t) (ncond1_of t h0) ((hcond2 t).mpr h7) (iblk m ρ c 0 t) (iblk m ρ c 1 t) _ _).2 Set.univ _ _)
      isplitl [H0]; · iexact H0
      isplitl [H1]; · iexact H1
      isplitl [H2]; · iexact H2
      isplitl [H5]; · iexact H5
      isplitl [H6]; · iexact H6
      iintro ⟨H0, H1, ⟨%f2, H2⟩, ⟨%f5, H5⟩, ⟨%f6, H6⟩⟩
      isplitl [H5 H6]
      · iexists _, _
        isplitl [H5]; · iexact H5
        isplitl [H6]; · iexact H6
        ipureintro
        intro _
        show _ = (stAt m ρ c t.val t.isLt).1 ∧ _ = (stAt m ρ c t.val t.isLt).2
        rw [stAt_C m ρ c t h0 h7]
        dsimp only [stepC, colOf]
        exact ⟨View.read_writes_of_cover _ _ _ _ _ (coverC_M c _ _ _ _ _ _ _ _ _ _ _ _ _),
          View.read_writes_of_cover _ _ _ _ _ (coverC_L c _ _ _ _ _ _ _ _ _ _ _ _ _)⟩
      isplitl [Ho]; · iexact Ho
      isplitl [H0]; · iexact H0
      isplitl [H1]; · iexact H1
      unfold owns; iexists _; isplitr
      swap; · iexact H2
      ipureintro
      rw [outAt_C m ρ c t h0 h7]
      dsimp only [outC, colOf]
      exact View.read_writes_of_cover _ _ _ _ _ (coverC_O c _ _ _ _ _ _ _ _ _ _ _ _ _)
    · -- a middle column tile
      rw [idle_2' t h7, flush_2' t h7]
      iintro ⟨⟨%g5, %g6, H5, H6, %hΦ⟩, Ho, ⟨%d0, H0⟩, ⟨%d1, H1⟩, ⟨%d2, H2⟩⟩
      obtain ⟨e5, e6⟩ := hΦ (show 0 < t.val by omega)
      obtain rfl := (hsM).eq_unread e5; obtain rfl := (hsL).eq_unread e6
      iapply ((runB (F := F) c (grid0.coords t) (ms0 t) (hs0 t) (ms1 t) (hs1 t) (ms2 t) (hs2 t) (ncond1_of t h0) (ncond2_of t h7) (iblk m ρ c 0 t) (iblk m ρ c 1 t) _ _).2 Set.univ _)
      isplitl [H0]; · iexact H0
      isplitl [H1]; · iexact H1
      isplitl [H5]; · iexact H5
      isplitl [H6]; · iexact H6
      iintro ⟨H0, H1, ⟨%f5, H5⟩, ⟨%f6, H6⟩⟩
      isplitl [H5 H6]
      · iexists _, _
        isplitl [H5]; · iexact H5
        isplitl [H6]; · iexact H6
        ipureintro
        intro _
        show _ = (stAt m ρ c t.val t.isLt).1 ∧ _ = (stAt m ρ c t.val t.isLt).2
        rw [stAt_B m ρ c t h0 h7]
        dsimp only [stepB, colOf]
        exact ⟨View.read_writes_of_cover _ _ _ _ _ (coverB_M c _ _ _ _ _ _ _ _ _ _ _ _ _),
          View.read_writes_of_cover _ _ _ _ _ (coverB_L c _ _ _ _ _ _ _ _ _ _ _ _ _)⟩
      isplitl [Ho]; · iexact Ho
      isplitl [H0]; · iexact H0
      isplitl [H1]; · iexact H1
      iexists d2; iexact H2

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.KernelIdeal.Hand

end
-- ==== Proof.KLaunch.lean ====
/- The launch of the kernel's @main: one concatenate, the region, then the host tail (sum, divide by 8192, add 2e9).
   @main is run as three segments. The first and last are lines of host operations over the core's unscoped buffers.
   The region is entered from what the first leaves: the projections' array, which TWO windows read, is dealt to them
   half a share each; the output's array goes to its window whole; every other unscoped buffer goes round the region
   untouched; the two scratch columns enter the invariant. At its exit the halves are put together again and the
   output's array is at what the write-backs left, which is what the host tail then reads. -/
import proofs.«126300_j66795331388029_1_alg».proof.Proof.KOblig
import Idealize.ShloMosaic.Lib.Pipeline.Regions

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's whole algebra: the kernel has no protocol of its own. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through the host operations: the core's `owes`. -/
abbrev R (c : Dev nD) : sProp 𝕄 := iprop(∃ W, owes (c : Thread nD τ) (0 : CellTallies nD τ sig Unit) W)
/-- The launch element: the pipeline library's at the staging cells. -/
def u₀ : UR sig nD τ := initOf (Pipeline.cells cfgs cellOf_inj) (Pipeline.launchToks cfgs cellOf_inj)

/-! ## The two windows on one array -/

/-- The windows' arrays are two buffers: the projections' (windows 0 and 1) and the output's. -/
theorem arrRefs_eq : (Finset.univ.image (Pipeline.arrRef spec0) : Finset (Ref sig .tc)) = [main_v0, main_v1].toFinset := by decide

omit [FloatOps F] in
theorem arrBufs_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v1) ↦{fullShare} W main_v1)) := by
  unfold Pipeline.arrBufs
  exact bigSep_eq_bigSepL_of_eq [main_v0, main_v1] arrRefs_eq (by decide) _

/-- The shares the three windows hold their arrays at: the two readers of the projections' array a half each. -/
theorem share_0 (c : Dev nD) : (dats m ρ 0 c).share 0 = fullShare.left := rfl
theorem share_1 (c : Dev nD) : (dats m ρ 0 c).share 1 = fullShare.right := rfl
theorem share_2 (c : Dev nD) : (dats m ρ 0 c).share 2 = fullShare := rfl

/-- The pipeline's arrays at contents `G`: the projections' array at the two halves of its share, the output's whole. -/
theorem arrays_eq' (c : Dev nD) (G : (w : Fin cfg0.W) → Buf (Elt F) ((cfg0.win w).arr.view.loc (c : Thread nD τ))) :
    ((dats m ρ 0 c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  have h : ((dats m ρ 0 c).arrays G : sProp 𝕄)
      = bigSep Finset.univ fun w : Fin cfg0.W => (((c : Thread nD τ).loc (Pipeline.arrRef spec0 w)) ↦{(dats m ρ 0 c).share w} G w : sProp 𝕄) := by
    unfold Dat.arrays
    exact bigSep_congr fun w _ => by rw [(arr_whole0 w).set_eq_univ]
  rw [h, bigSep_W0, share_0, share_1, share_2]

/-! ## The host operations -/

theorem fresh0 : ∀ op ∈ (hostOps0 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h

/-- THE FIRST HOST SEGMENT: the concatenate, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) fresh0 (V₀ m ρ) R

/-- The output's array when the region is left: after every write-back. -/
def finalOut (c : Dev nD) : Buf (Elt F) ((c : Thread nD τ).loc main_v1) := (dats m ρ 0 c).arrAt 2 cfg0.N

/-- The core's buffers when the region is left: the output's array at `finalOut`, every other as the region found
    it (spelt as one more host operation, a constant, so that the library's lemmas read it). -/
abbrev V₁ (c : Dev nD) : Valuation τ sig (Elt F) :=
  StableHlo.after [StableHlo.nullary main_v1 (finalOut m ρ c)] (StableHlo.after hostOps0 (V₀ m ρ c))

/-- THE LAST HOST SEGMENT: the sum, the division and the addition, over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) fresh1 (V₁ m ρ) R

/-- Off the output's array the region changes no unscoped buffer. -/
theorem V₁_of_ne (c : Dev nD) (b : Ref sig .tc) (hb : b ≠ main_v1) : V₁ m ρ c (Proc.devRef .tc b) = V m ρ c b := by
  show StableHlo.after [StableHlo.nullary main_v1 (finalOut m ρ c)] _ (Proc.devRef .tc b) = _
  refine StableHlo.after_of_forall_not_mem (b := Proc.devRef .tc b) _ _ ?_
  intro op hop
  rw [List.mem_singleton] at hop; subst hop
  simp only [StableHlo.nullary_writes, Finset.mem_singleton]
  exact StableHlo.devRef_ne_of_ne hb
theorem V₁_v1 (c : Dev nD) : V₁ m ρ c (Proc.devRef .tc main_v1) = finalOut m ρ c := by
  show StableHlo.after [StableHlo.nullary main_v1 (finalOut m ρ c)] _ (Proc.devRef .tc main_v1) = _
  after_results

/-- The unscoped buffers no window stages are, when the region is left, as it found them. -/
theorem rest_eq (c : Dev nD) :
    (Pipeline.unscopedRest spec0 c (V m ρ c) : sProp 𝕄) = Pipeline.unscopedRest spec0 c (fun b => V₁ m ρ c (Proc.devRef .tc b)) := by
  unfold Pipeline.unscopedRest
  exact bigSep_congr fun b hb => by
    show (((c : Thread nD τ).loc b) ↦{fullShare} V m ρ c b : sProp 𝕄) = (((c : Thread nD τ).loc b) ↦{fullShare} V₁ m ρ c (Proc.devRef .tc b))
    rw [V₁_of_ne m ρ c b (fun h => by subst h; exact (Finset.mem_sdiff.mp hb).2 (by decide))]

/-! ## The region -/

set_option backward.isDefEq.respectTransparency.types false in
set_option maxHeartbeats 1600000 in
/-- THE REGION (see the header). -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (V₁ m ρ c) ∗ R c)
  X c := iprop(emp)
  Y c := iprop(emp)
  Z c := Pipeline.unscopedRest spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c), arrBufs_eq, arrays_eq']
    iintro ⟨⟨⟨⟨H0, H1⟩, Hrest⟩, HO⟩, -, -⟩
    ihave H0 := (pointsTo_share (PosShare.mem_left_op_right fullShare)).1 $$ H0
    icases H0 with ⟨Hl, Hr⟩
    imodintro
    isplitl [Hl Hr H1]
    · isplitl [Hl]; · iexact Hl
      isplitl [Hr]; · iexact Hr
      iexact H1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Φc m ρ c 0 from rfl, scopedRest0_eq]; unfold Φc
    iintro ⟨-, -, ⟨%f5, H5⟩, ⟨%f6, H6⟩⟩
    iexists f5, f6
    isplitl [H5]; · iexact H5
    isplitl [H6]; · iexact H6
    ipureintro; intro h; exact absurd h (Nat.lt_irrefl 0)
  hout c := by
    rw [Pipeline.ownSems0_none, show (dats m ρ 0 c).Φ (Fin.last cfg0.N) = Φc m ρ c (Fin.last cfg0.N) from rfl, scopedRest0_eq]; unfold Φc
    iintro ⟨%g5, %g6, H5, H6, -⟩
    isplitr; · iempintro
    isplitr; · iempintro
    isplitl [H5]; · iexists _; iexact H5
    iexists _; iexact H6
  hexit c := by
    rw [arrays_eq',
      show StableHlo.held (c : Thread nD τ) (Pipeline.ucRefs τ sig) (V₁ m ρ c) = unscopedBufs c (fun b => V₁ m ρ c (Proc.devRef .tc b)) from (Pipeline.unscopedBufs_held c _).symm,
      Pipeline.unscopedBufs_split₀ cfgs 0 winFacts₀0.arr_unscoped c (fun b => V₁ m ρ c (Proc.devRef .tc b)), arrBufs_eq]
    iintro ⟨⟨Hl, Hr, H1⟩, HO, -, Hrest⟩
    imodintro
    isplitr [HO]
    · isplitl [Hl Hr H1]
      · isplitl [Hl Hr]
        · rw [V₁_of_ne m ρ c main_v0 (by decide)]
          rw [show (dats m ρ 0 c).arrAt 0 cfg0.N = V m ρ c main_v0 from (dats m ρ 0 c).arrAt_in 0 rfl _,
            show (dats m ρ 0 c).arrAt 1 cfg0.N = V m ρ c main_v0 from (dats m ρ 0 c).arrAt_in 1 rfl _]
          iapply (pointsTo_share (PosShare.mem_left_op_right fullShare)).2
          isplitl [Hl] <;> iassumption
        · rw [V₁_v1]; iexact H1
      · rw [← rest_eq m ρ c]; iexact Hrest
    · unfold Pipeline.Dat.owesAt Pipeline.owesWithin
      icases HO with ⟨%W, -, HO⟩; iexists W; iexact HO

end Cert.KernelIdeal.Hand

end
-- ==== Proof.KRun.lean ====
/- The run of the kernel's @main, for any float values: from any memory with zero counters every weakly fair
   execution terminates, nothing faulting, the four arguments end as they were and the result holds the host tail
   — 2e9 + (0 + the sum of all entries) / 8192 — of the output array as the region's write-backs left it. -/
import proofs.«126300_j66795331388029_1_alg».proof.Proof.KLaunch

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host tail of @main, as a function of the output array. -/
def tailOf (X : (⟨S8192x1, .f32⟩ : BufTy).Contents (Elt F)) : (⟨S_, .f32⟩ : BufTy).Contents (Elt F) :=
  addf (constant S_ .f32 0x4EEE6B28#32)
    (Host.divf (Host.reduceAdd X (constant S_ .f32 0x00000000#32) reducesTo_S8192x1_S_d0_1 h_S_) (constant S_ .f32 0x46000000#32))

/-- What the last segment leaves: the unscoped buffers after the tail. -/
abbrev Tₙ (c : Dev nD) : sProp 𝕄 :=
  StableHlo.held (c : Thread nD τ) (Pipeline.ucRefs τ sig) (StableHlo.after hostOps1 (V₁ m ρ c))

/-- @main as its three segments. -/
abbrev segs : List (Pipeline.Seg (pcfgs (F := F)) adm (dats m ρ) () defs₀ 𝒱₀ L lv) :=
  [.host (seg0 m ρ), .region (reg0 m ρ), .host (seg1 m ρ)]

/-- The result buffer after the tail, -/
theorem res_v4 (c : Dev nD) : StableHlo.after hostOps1 (V₁ m ρ c) (Proc.devRef .tc main_v4) = tailOf (finalOut m ρ c) := by
  unfold tailOf; after_results
/-- and the arguments, which no host operation writes. -/
theorem res_arg0 (c : Dev nD) : StableHlo.after hostOps1 (V₁ m ρ c) (Proc.devRef .tc main_arg0) = m ((c : Thread nD τ).loc main_arg0) := by
  after_results
theorem res_arg1 (c : Dev nD) : StableHlo.after hostOps1 (V₁ m ρ c) (Proc.devRef .tc main_arg1) = m ((c : Thread nD τ).loc main_arg1) := by
  after_results
theorem res_arg2 (c : Dev nD) : StableHlo.after hostOps1 (V₁ m ρ c) (Proc.devRef .tc main_arg2) = m ((c : Thread nD τ).loc main_arg2) := by
  after_results
theorem res_arg3 (c : Dev nD) : StableHlo.after hostOps1 (V₁ m ρ c) (Proc.devRef .tc main_arg3) = m ((c : Thread nD τ).loc main_arg3) := by
  after_results

/-- The post of the run, device by device. -/
def QY (c : Dev nD) (s : MemSt nD τ sig (Elt F)) : Prop :=
  s.mem ((c : Thread nD τ).loc main_v4) = tailOf (finalOut m ρ c)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

set_option backward.isDefEq.respectTransparency.types false in
set_option maxHeartbeats 1600000 in
theorem run_main : θ_run defs (onTc (τ := τ) (main (F := F))) (s₀ m ρ) (fun r => ∀ c : Dev nD, QY m ρ c r.2) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := QY m ρ)
    (hfin := fun c s' => by
      show iprop((bigSep (Pipeline.ucRefs τ sig) fun b : DevRef τ sig => ((((c : Dev nD), b) : Loc nD τ sig) ↦{fullShare} StableHlo.after hostOps1 (V₁ m ρ c) b : sProp 𝕄)) ∗ SI s') ⊢ _
      iintro ⟨Hh, HSI⟩
      ihave Hr := (pointsTo_read_all (Pipeline.ucRefs τ sig) (fun b => ((c : Dev nD), b)) (fun b => StableHlo.after hostOps1 (V₁ m ρ c) b) s') $$ [Hh HSI]
      · isplitl [Hh]
        · iexact Hh
        · iexact HSI
      icases Hr with ⟨%ha, HSI⟩
      imodintro
      isplitr
      · ipureintro
        exact ⟨(ha (Proc.devRef .tc main_v4) (by decide)).trans (res_v4 m ρ c),
          (ha (Proc.devRef .tc main_arg0) (by decide)).trans (res_arg0 m ρ c),
          (ha (Proc.devRef .tc main_arg1) (by decide)).trans (res_arg1 m ρ c),
          (ha (Proc.devRef .tc main_arg2) (by decide)).trans (res_arg2 m ρ c),
          (ha (Proc.devRef .tc main_arg3) (by decide)).trans (res_arg3 m ρ c)⟩
      iexact HSI)
    (hQ := fun _ h => h)

/-- The frame: the arguments end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.KPiece.lean ====
/- What each control case of the kernel body leaves in the two scratch columns (and, at a last column tile, in the
   output block), read back as values: the stored pieces are whole-column stores of the body's payloads over the
   point's two input blocks and the columns as the point found them (at a first column tile: the freshly stored
   initial columns; at a last one the output reads the columns just updated). -/
import proofs.«126300_j66795331388029_1_alg».proof.Proof.KData
import Idealize.ShloMosaic.Lib.Pipeline.Value

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl

/-- The new pair of columns a column tile's arithmetic makes of the old pair `prev` and the point's two blocks. -/
def newSt (i : grid0.Coords) (x0 x1 : Vec F S1024x256 .f32) (prev : St F) : St F :=
  (k0_pay3 (k0_pay8 i x0 x1) prev.1, k0_pay2 (k0_pay7 i x0 x1) (k0_pay8 i x0 x1) prev.1 prev.1 prev.2)

/-! ### A middle column tile -/

theorem stepB_fst (c : Dev nD) (t : Fin cfg0.N) (h0 : ¬ t.val % 8 = 0) (h7 : ¬ t.val % 8 = 7) (prev : St F) :
    (stepB m ρ c t h0 h7 prev).1 = k0_pay3 (k0_pay8 (grid0.coords t) (iblk m ρ c 0 t) (iblk m ρ c 1 t)) prev.1 := by
  unfold stepB colOf
  dsimp only
  rw [View.read_writes_eq_canon _ _ _ (coverB_M c _ _ _ _ _ _ _ _ _ _ _ _ _)]
  unfold runB
  dsimp only
  sl_unfold_words
  rw [View.canon_unit_zero hz2]
  simp only [View.readAt_eq_ld, (hsM).read_unread, (hsL).read_unread, (hs0 t).read_unread, (hs1 t).read_unread,
    View.ld_unit_zero (S := S1024x1) hz2, View.ld_unit_zero (S := S1024x256) hz2]

theorem stepB_snd (c : Dev nD) (t : Fin cfg0.N) (h0 : ¬ t.val % 8 = 0) (h7 : ¬ t.val % 8 = 7) (prev : St F) :
    (stepB m ρ c t h0 h7 prev).2
      = k0_pay2 (k0_pay7 (grid0.coords t) (iblk m ρ c 0 t) (iblk m ρ c 1 t))
          (k0_pay8 (grid0.coords t) (iblk m ρ c 0 t) (iblk m ρ c 1 t)) prev.1 prev.1 prev.2 := by
  unfold stepB colOf
  dsimp only
  rw [View.read_writes_eq_canon _ _ _ (coverB_L c _ _ _ _ _ _ _ _ _ _ _ _ _)]
  unfold runB
  dsimp only
  sl_unfold_words
  rw [View.canon_unit_zero hz2]
  simp only [View.readAt_eq_ld, (hsM).read_unread, (hsL).read_unread, (hs0 t).read_unread, (hs1 t).read_unread,
    View.ld_unit_zero (S := S1024x1) hz2, View.ld_unit_zero (S := S1024x256) hz2]

/-- A middle column tile leaves the new pair made of what the point before left. -/
theorem stepB_eq (c : Dev nD) (t : Fin cfg0.N) (h0 : ¬ t.val % 8 = 0) (h7 : ¬ t.val % 8 = 7) (prev : St F) :
    stepB m ρ c t h0 h7 prev = newSt (grid0.coords t) (iblk m ρ c 0 t) (iblk m ρ c 1 t) prev :=
  Prod.ext (stepB_fst m ρ c t h0 h7 prev) (stepB_snd m ρ c t h0 h7 prev)

/-! ### A last column tile -/

theorem stepC_fst (c : Dev nD) (t : Fin cfg0.N) (h0 : ¬ t.val % 8 = 0) (h7 : t.val % 8 = 7) (prev : St F) :
    (stepC m ρ c t h0 h7 prev).1 = k0_pay3 (k0_pay8 (grid0.coords t) (iblk m ρ c 0 t) (iblk m ρ c 1 t)) prev.1 := by
  unfold stepC colOf
  dsimp only
  rw [View.read_writes_eq_canon _ _ _ (coverC_M c _ _ _ _ _ _ _ _ _ _ _ _ _)]
  unfold runC
  dsimp only
  sl_unfold_words
  rw [View.canon_unit_zero hz2]
  simp only [View.readAt_eq_ld, (hsM).read_unread, (hsL).read_unread, (hs0 t).read_unread, (hs1 t).read_unread,
    View.ld_unit_zero (S := S1024x1) hz2, View.ld_unit_zero (S := S1024x256) hz2]

theorem stepC_snd (c : Dev nD) (t : Fin cfg0.N) (h0 : ¬ t.val % 8 = 0) (h7 : t.val % 8 = 7) (prev : St F) :
    (stepC m ρ c t h0 h7 prev).2
      = k0_pay2 (k0_pay7 (grid0.coords t) (iblk m ρ c 0 t) (iblk m ρ c 1 t))
          (k0_pay8 (grid0.coords t) (iblk m ρ c 0 t) (iblk m ρ c 1 t)) prev.1 prev.1 prev.2 := by
  unfold stepC colOf
  dsimp only
  rw [View.read_writes_eq_canon _ _ _ (coverC_L c _ _ _ _ _ _ _ _ _ _ _ _ _)]
  unfold runC
  dsimp only
  sl_unfold_words
  rw [View.canon_unit_zero hz2]
  simp only [View.readAt_eq_ld, (hsM).read_unread, (hsL).read_unread, (hs0 t).read_unread, (hs1 t).read_unread,
    View.ld_unit_zero (S := S1024x1) hz2, View.ld_unit_zero (S := S1024x256) hz2]

/-- A last column tile leaves the same new pair in the scratch columns … -/
theorem stepC_eq (c : Dev nD) (t : Fin cfg0.N) (h0 : ¬ t.val % 8 = 0) (h7 : t.val % 8 = 7) (prev : St F) :
    stepC m ρ c t h0 h7 prev = newSt (grid0.coords t) (iblk m ρ c 0 t) (iblk m ρ c 1 t) prev :=
  Prod.ext (stepC_fst m ρ c t h0 h7 prev) (stepC_snd m ρ c t h0 h7 prev)

/-- … and, in the output block, the new maximum plus the logarithm of the new sum. -/
theorem outC_eq (c : Dev nD) (t : Fin cfg0.N) (h0 : ¬ t.val % 8 = 0) (h7 : t.val % 8 = 7) (prev : St F) :
    outC m ρ c t h0 h7 prev
      = k0_pay4 (newSt (grid0.coords t) (iblk m ρ c 0 t) (iblk m ρ c 1 t) prev).1
          (newSt (grid0.coords t) (iblk m ρ c 0 t) (iblk m ρ c 1 t) prev).2 := by
  unfold outC colOf newSt
  dsimp only
  rw [View.read_writes_eq_canon _ _ _ (coverC_O c _ _ _ _ _ _ _ _ _ _ _ _ _)]
  unfold runC
  dsimp only
  sl_unfold_words
  rw [View.canon_unit_zero hz2, View.readCov_unit_zero (S := S1024x1) _ hz2, View.readCov_unit_zero (S := S1024x1) _ hz2]
  simp only [View.readAt_eq_ld, (hsM).read_unread, (hsL).read_unread, (hs0 t).read_unread, (hs1 t).read_unread,
    View.ld_unit_zero (S := S1024x1) hz2, View.ld_unit_zero (S := S1024x256) hz2]

/-! ### A first column tile -/

theorem stepA_fst (c : Dev nD) (t : Fin cfg0.N) (h0 : t.val % 8 = 0) :
    (stepA m ρ c t h0).1 = k0_pay3 (k0_pay8 (grid0.coords t) (iblk m ρ c 0 t) (iblk m ρ c 1 t)) k0_pay5 := by
  unfold stepA colOf
  dsimp only
  rw [View.read_writes_eq_canon _ _ _ (coverA_M c _ _ _ _ _ _ _ _ _ _ _)]
  unfold runA
  dsimp only
  sl_unfold_words
  rw [View.canon_cons_unit_zero (S := S1024x1) hz2, View.readCov_unit_zero (S := S1024x1) _ hz2]
  simp only [View.readAt_eq_ld, (hsM).read_unread, (hsL).read_unread, (hs0 t).read_unread, (hs1 t).read_unread,
    View.ld_unit_zero (S := S1024x1) hz2, View.ld_unit_zero (S := S1024x256) hz2]

theorem stepA_snd (c : Dev nD) (t : Fin cfg0.N) (h0 : t.val % 8 = 0) :
    (stepA m ρ c t h0).2
      = k0_pay2 (k0_pay7 (grid0.coords t) (iblk m ρ c 0 t) (iblk m ρ c 1 t))
          (k0_pay8 (grid0.coords t) (iblk m ρ c 0 t) (iblk m ρ c 1 t)) k0_pay5 k0_pay5 k0_pay6 := by
  unfold stepA colOf
  dsimp only
  rw [View.read_writes_eq_canon _ _ _ (coverA_L c _ _ _ _ _ _ _ _ _ _ _)]
  unfold runA
  dsimp only
  sl_unfold_words
  rw [View.canon_cons_unit_zero (S := S1024x1) hz2, View.readCov_unit_zero (S := S1024x1) _ hz2,
    View.readCov_unit_zero (S := S1024x1) _ hz2]
  simp only [View.readAt_eq_ld, (hsM).read_unread, (hsL).read_unread, (hs0 t).read_unread, (hs1 t).read_unread,
    View.ld_unit_zero (S := S1024x1) hz2, View.ld_unit_zero (S := S1024x256) hz2]

/-- A first column tile leaves the new pair made of the initial columns. -/
theorem stepA_eq (c : Dev nD) (t : Fin cfg0.N) (h0 : t.val % 8 = 0) :
    stepA m ρ c t h0 = newSt (grid0.coords t) (iblk m ρ c 0 t) (iblk m ρ c 1 t) (k0_pay5, k0_pay6) :=
  Prod.ext (stepA_fst m ρ c t h0) (stepA_snd m ρ c t h0)

end Cert.KernelIdeal.Hand
-- ==== Proof.Spec.lean ====
/- The real-valued statement both programs are compared with: for the concatenated projections
   p (8192 rows of 256 features), x r s is twice the masked cosine similarity of rows r and s
   (the diagonal replaced by -1e9, the product of the norms bounded below by a small eps), and
   loss p = 2e9 + (1/8192) * sum over rows r of (max_s x r s + log (sum_s exp (x r s - max_s x r s))).
   Also: the real numbers (or the bottom element) that the f32 words of the two programs denote
   at the extended reals. -/
import Mathlib
import Idealize.ShloMosaic.PureOps.Ideal

noncomputable section

namespace Cert.Spec

open Idealize.ShloMosaic

/-- The real number the f32 word 0x322BCC77 denotes: 11258999 * 2^(-50), about 1e-8. -/
def epsR : ℝ := 11258999 / 2 ^ 50

theorem eps_pos : 0 < epsR := by unfold epsR; positivity

/-- The inner product of rows r and s. -/
def dotR (p : Fin 8192 → Fin 256 → ℝ) (r s : Fin 8192) : ℝ := ∑ k, p r k * p s k

/-- The Euclidean norm of row r. -/
def nrmR (p : Fin 8192 → Fin 256 → ℝ) (r : Fin 8192) : ℝ := Real.sqrt (∑ k, p r k * p r k)

/-- Twice the masked cosine similarity: the diagonal is -1e9, off it the inner product over the
    product of the norms bounded below by eps. -/
def x (p : Fin 8192 → Fin 256 → ℝ) (r s : Fin 8192) : ℝ :=
  (if r = s then (-1000000000 : ℝ) else dotR p r s / max (nrmR p r * nrmR p s) epsR) * 2

/-- The maximum of row r of x. -/
def M (p : Fin 8192 → Fin 256 → ℝ) (r : Fin 8192) : ℝ :=
  Finset.univ.sup' Finset.univ_nonempty (x p r)

/-- The sum of the exponentials of row r of x, shifted by the row's maximum. -/
def S (p : Fin 8192 → Fin 256 → ℝ) (r : Fin 8192) : ℝ := ∑ s, Real.exp (x p r s - M p r)

/-- The log-sum-exp of row r of x. -/
def lse (p : Fin 8192 → Fin 256 → ℝ) (r : Fin 8192) : ℝ := M p r + Real.log (S p r)

/-- The loss: 2e9 plus the mean over the rows of the log-sum-exp. -/
def loss (p : Fin 8192 → Fin 256 → ℝ) : ℝ := 2000000000 + (∑ r, lse p r) / 8192

/-! ### The f32 words of the two programs, at the extended reals -/

theorem eps_coe : Ideal.ofBits .f32 0x322BCC77#32 = ((epsR : ℝ) : EReal) := by
  simp [Ideal.ofBits, Ideal.ieee, -EReal.coe_mul, epsR]; norm_num

theorem negInf_coe : Ideal.ofBits .f32 0xFF800000#32 = (⊥ : EReal) := by
  simp [Ideal.ofBits, Ideal.ieee]

theorem posInf_coe : Ideal.ofBits .f32 0x7F800000#32 = (⊤ : EReal) := by
  simp [Ideal.ofBits, Ideal.ieee]

theorem mask_coe : Ideal.ofBits .f32 0xCE6E6B28#32 = (((-1000000000 : ℝ)) : EReal) := by
  simp [Ideal.ofBits, Ideal.ieee, -EReal.coe_mul]; norm_num

theorem two_coe : Ideal.ofBits .f32 0x40000000#32 = ((2 : ℝ) : EReal) := by
  simp [Ideal.ofBits, Ideal.ieee, -EReal.coe_mul]; norm_num

theorem half_coe : Ideal.ofBits .f32 0x3F000000#32 = (((1 / 2 : ℝ)) : EReal) := by
  simp [Ideal.ofBits, Ideal.ieee, -EReal.coe_mul]; norm_num

theorem n_coe : Ideal.ofBits .f32 0x46000000#32 = ((8192 : ℝ) : EReal) := by
  simp [Ideal.ofBits, Ideal.ieee, -EReal.coe_mul]; norm_num

theorem shift_coe : Ideal.ofBits .f32 0x4EEE6B28#32 = ((2000000000 : ℝ) : EReal) := by
  simp [Ideal.ofBits, Ideal.ieee, -EReal.coe_mul]; norm_num

end Cert.Spec
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.LibFoldBlocks.lean ====
/-
  Maxima and minima taken block by block.

  A maximum from the least element over a finite index set that is a product of blocks — here the columns
  `Fin n` cut into `A` runs of `B` consecutive columns, `n = A · B` — is the maximum over the blocks of each block's
  own maximum; dually for a minimum from the greatest element. A running value that starts at the least element and
  at step `k` becomes the larger of itself and block `k`'s maximum holds, after step `k`, the maximum of the blocks
  `0 … k`, and after the last step the maximum over everything. Nothing here depends on what is maximised.

  On the extended reals the least and greatest elements are the words `0xFF800000` and `0x7F800000` read as floats.
-/
import Mathlib.Order.Fin.Basic
import Mathlib.Data.Finset.Lattice.Fold
import Mathlib.Data.Fintype.Prod
import Mathlib.Logic.Equiv.Fin.Basic
import Idealize.ShloMosaic.PureOps.Ideal

namespace Cert.FoldBlocks

open Finset

/-! ## The columns as blocks -/

/-- Column `b + B · a` of `n = A · B` columns is column `b` of block `a`. -/
def blockEquiv {A B n : ℕ} (h : A * B = n) : Fin A × Fin B ≃ Fin n := finProdFinEquiv.trans (finCongr h)

theorem blockEquiv_val {A B n : ℕ} (h : A * B = n) (a : Fin A) (b : Fin B) :
    (blockEquiv h (a, b)).val = b.val + B * a.val := rfl

/-! ## Folds of `max` and `min` are suprema and infima -/

section Lattice

variable {α : Type*} [LinearOrder α]

theorem fold_max_eq_sup [OrderBot α] {ι : Type*} (s : Finset ι) (f : ι → α) : s.fold max ⊥ f = s.sup f := rfl

theorem fold_min_eq_inf [OrderTop α] {ι : Type*} (s : Finset ι) (f : ι → α) : s.fold min ⊤ f = s.inf f := rfl

/-- A supremum over everything, taken block by block. -/
theorem sup_univ_blocks [OrderBot α] {ι κ γ : Type*} [Fintype ι] [Fintype κ] [Fintype γ] (e : ι × κ ≃ γ) (f : γ → α) :
    (univ : Finset γ).sup f = (univ : Finset ι).sup fun a => (univ : Finset κ).sup fun b => f (e (a, b)) := by
  rw [← Finset.map_univ_equiv e, Finset.sup_map, ← Finset.univ_product_univ, Finset.sup_product_left]
  rfl

/-- An infimum over everything, taken block by block. -/
theorem inf_univ_blocks [OrderTop α] {ι κ γ : Type*} [Fintype ι] [Fintype κ] [Fintype γ] (e : ι × κ ≃ γ) (f : γ → α) :
    (univ : Finset γ).inf f = (univ : Finset ι).inf fun a => (univ : Finset κ).inf fun b => f (e (a, b)) := by
  rw [← Finset.map_univ_equiv e, Finset.inf_map, ← Finset.univ_product_univ, Finset.inf_product_left]
  rfl

/-- The fold of `max` from the least element over everything is the fold over the blocks of each block's fold. -/
theorem fold_max_blocks [OrderBot α] {ι κ γ : Type*} [Fintype ι] [Fintype κ] [Fintype γ] (e : ι × κ ≃ γ) (f : γ → α) :
    (univ : Finset γ).fold max ⊥ f
      = (univ : Finset ι).fold max ⊥ fun a => (univ : Finset κ).fold max ⊥ fun b => f (e (a, b)) :=
  sup_univ_blocks e f

/-- The fold of `min` from the greatest element likewise. -/
theorem fold_min_blocks [OrderTop α] {ι κ γ : Type*} [Fintype ι] [Fintype κ] [Fintype γ] (e : ι × κ ≃ γ) (f : γ → α) :
    (univ : Finset γ).fold min ⊤ f
      = (univ : Finset ι).fold min ⊤ fun a => (univ : Finset κ).fold min ⊤ fun b => f (e (a, b)) :=
  inf_univ_blocks e f

/-! ## The blocks done so far -/

/-- The blocks `0 … k`. -/
def upto (A k : ℕ) : Finset (Fin A) := univ.filter fun a => a.val ≤ k

theorem upto_zero {A : ℕ} (h : 0 < A) : upto A 0 = {⟨0, h⟩} := by
  ext a; simp only [upto, mem_filter, mem_univ, true_and, mem_singleton, Fin.ext_iff]; omega

theorem upto_succ {A : ℕ} (k : ℕ) (h : k + 1 < A) : upto A (k + 1) = insert ⟨k + 1, h⟩ (upto A k) := by
  ext a; simp only [upto, mem_filter, mem_univ, true_and, mem_insert, Fin.ext_iff]; omega

theorem upto_last {A : ℕ} (k : ℕ) (h : A ≤ k + 1) : upto A k = univ := by
  ext a; simp only [upto, mem_filter, mem_univ, true_and, iff_true]; have := a.isLt; omega

/-- After the first step the running maximum, started at the least element, is block 0's. -/
theorem sup_upto_zero [OrderBot α] {A : ℕ} (h : 0 < A) (blk : Fin A → α) :
    max ⊥ (blk ⟨0, h⟩) = (upto A 0).sup blk := by
  rw [upto_zero h, Finset.sup_singleton]; exact bot_sup_eq _

/-- A further step takes in the next block. -/
theorem sup_upto_succ [OrderBot α] {A : ℕ} (k : ℕ) (h : k + 1 < A) (blk : Fin A → α) :
    max ((upto A k).sup blk) (blk ⟨k + 1, h⟩) = (upto A (k + 1)).sup blk := by
  rw [upto_succ k h, Finset.sup_insert]; exact sup_comm _ _

/-- After the first step the running minimum, started at the greatest element, is block 0's. -/
theorem inf_upto_zero [OrderTop α] {A : ℕ} (h : 0 < A) (blk : Fin A → α) :
    min ⊤ (blk ⟨0, h⟩) = (upto A 0).inf blk := by
  rw [upto_zero h, Finset.inf_singleton]; exact top_inf_eq _

/-- A further step takes in the next block. -/
theorem inf_upto_succ [OrderTop α] {A : ℕ} (k : ℕ) (h : k + 1 < A) (blk : Fin A → α) :
    min ((upto A k).inf blk) (blk ⟨k + 1, h⟩) = (upto A (k + 1)).inf blk := by
  rw [upto_succ k h, Finset.inf_insert]; exact inf_comm _ _

/-- After the last step the running maximum of the blocks' maxima is the maximum over all `n = A · B` columns. -/
theorem sup_upto_last_blocks [OrderBot α] {A B n : ℕ} (hn : A * B = n) (k : ℕ) (h : A ≤ k + 1) (f : Fin n → α) :
    (upto A k).sup (fun a => (univ : Finset (Fin B)).fold max ⊥ fun b => f (blockEquiv hn (a, b)))
      = (univ : Finset (Fin n)).fold max ⊥ f := by
  rw [upto_last k h]; exact (fold_max_blocks (blockEquiv hn) f).symm

/-- … and the running minimum of the blocks' minima the minimum over all columns. -/
theorem inf_upto_last_blocks [OrderTop α] {A B n : ℕ} (hn : A * B = n) (k : ℕ) (h : A ≤ k + 1) (f : Fin n → α) :
    (upto A k).inf (fun a => (univ : Finset (Fin B)).fold min ⊤ fun b => f (blockEquiv hn (a, b)))
      = (univ : Finset (Fin n)).fold min ⊤ f := by
  rw [upto_last k h]; exact (fold_min_blocks (blockEquiv hn) f).symm

end Lattice

/-! ## The two infinities as floats -/

open Idealize.ShloMosaic

theorem negInf_eq_bot : Ideal.ofBits .f32 0xFF800000#32 = (⊥ : EReal) := by simp [Ideal.ofBits, Ideal.ieee]

theorem posInf_eq_top : Ideal.ofBits .f32 0x7F800000#32 = (⊤ : EReal) := by simp [Ideal.ofBits, Ideal.ieee]

end Cert.FoldBlocks
-- ==== Proof.LibOnlineLse.lean ====
/-
  The online log-sum-exp: a maximum and a sum of exponentials carried block by block.

  For real numbers y j b (A blocks j of B entries b; A and B positive) a running pair (m, l) of extended reals
  starts at (⊥, 0) and, at block j, becomes

      m' = max m (cur j),      l' = exp (m - m') * l + (0 + ∑ b, exp (y j b - m')),

  where cur j is the fold of max from ⊥ over the block's entries. After the A blocks

      m = M := the maximum of all y j b,      l = S := ∑ j, ∑ b, Real.exp (y j b - M),

  both real numbers, S ≥ 1, and hence  m + log l = M + Real.log S,  the log-sum-exp of all the entries.
  (At the first block exp (⊥ - m') = 0 wipes the empty sum; afterwards the factor exp (M_old - M_new)
  re-bases the old sum on the new maximum: exp (M_old - M_new) * exp (y - M_old) = exp (y - M_new).)

  How the pieces are written, so that a term can be rewritten into this form:
  • a block's maximum is  `(Finset.univ : Finset (Fin B)).fold max ⊥ fun b => ((y j b : ℝ) : EReal)`  (`cur`) — the form in
    which the library reads a max-reduction over one axis from -∞; `fold_max_coe` / `cur_eq_coe` say it is the
    coercion of `Finset.sup'` (for any nonempty finite set of indices);
  • the operations are the extended reals' own `max`, `-`, `*`, `+` and the library's `Ideal.exp`, `Ideal.log`
    (what `maximumf_def`, `subf_def`, `mulf_def`, `addf_def`, `exp_def`, `log_def` rewrite the float operations to);
    used about them: `Ideal.exp_bot`, `Ideal.exp_coe`, `Ideal.log_coe`, `EReal.bot_sub`, `EReal.coe_sub`,
    `EReal.coe_mul`, `EReal.coe_add`, and the coercion of a finite sum;
  • `step y j (m, l)` is one block's update, `run y k` the pair after the first k blocks (`run_zero`, `run_succ`);
    `of_recurrence` identifies any two sequences that satisfy the recurrence with `run`.

  The results: `run_fst`, `run_snd`, `run_lse` (after all A blocks, against `Mtot` and `Stot`), `one_le_Stot`;
  and, for the entries of one row f : Fin n → ℝ cut into A blocks of B consecutive entries (n = A * B, entry
  b + B * j is entry b of block j), `Mtot_flat`, `Stot_flat` and `run_blocks_fst`, `run_blocks_snd`, `run_blocks_lse`:
  the pair ends at the row's maximum and at its sum of shifted exponentials.
-/
import Mathlib.Analysis.SpecialFunctions.Log.Basic
import Mathlib.Data.EReal.Operations
import Mathlib.Data.Finset.Lattice.Fold
import Mathlib.Algebra.Order.BigOperators.Group.Finset
import Idealize.ShloMosaic.PureOps.Ideal
import proofs.«126300_j66795331388029_1_alg».proof.Proof.LibERealSum
import proofs.«126300_j66795331388029_1_alg».proof.Proof.LibFoldBlocks

noncomputable section

namespace Cert.Lib.OnlineLse

open Idealize.ShloMosaic Finset

/-! ## A fold of max from ⊥ over real numbers -/

/-- The fold of `max` from `⊥` over a nonempty finite set of real numbers, taken in the extended reals, is their
    (real) maximum. -/
theorem fold_max_coe {ι : Type*} (s : Finset ι) (hs : s.Nonempty) (f : ι → ℝ) :
    s.fold max (⊥ : EReal) (fun i => ((f i : ℝ) : EReal)) = ((s.sup' hs f : ℝ) : EReal) := by
  change s.sup (fun i => ((f i : ℝ) : EReal)) = _
  apply le_antisymm
  · exact Finset.sup_le fun i hi => EReal.coe_le_coe_iff.2 (Finset.le_sup' f hi)
  · obtain ⟨i, hi, h⟩ := Finset.exists_mem_eq_sup' hs f
    rw [h]
    exact Finset.le_sup (f := fun i => ((f i : ℝ) : EReal)) hi

theorem coe_max (a b : ℝ) : ((max a b : ℝ) : EReal) = max (a : EReal) (b : EReal) :=
  Monotone.map_max EReal.coe_strictMono.monotone

variable {A B : ℕ}

/-! ## The recurrence -/

/-- The maximum of block `j`: the fold of `max` from `⊥` over its entries. -/
def cur (y : Fin A → Fin B → ℝ) (j : Fin A) : EReal :=
  (univ : Finset (Fin B)).fold max ⊥ fun b => ((y j b : ℝ) : EReal)

/-- One block's update of the running maximum and the running sum. -/
def step (y : Fin A → Fin B → ℝ) (j : Fin A) (s : EReal × EReal) : EReal × EReal :=
  (max s.1 (cur y j),
   Ideal.exp (s.1 - max s.1 (cur y j)) * s.2
     + (0 + ∑ b, Ideal.exp (((y j b : ℝ) : EReal) - max s.1 (cur y j))))

/-- The running pair after the first `k` blocks. -/
def run (y : Fin A → Fin B → ℝ) : ℕ → EReal × EReal
  | 0 => (⊥, 0)
  | k + 1 => if h : k < A then step y ⟨k, h⟩ (run y k) else run y k

@[simp] theorem run_zero (y : Fin A → Fin B → ℝ) : run y 0 = (⊥, 0) := rfl

theorem run_succ (y : Fin A → Fin B → ℝ) {k : ℕ} (h : k < A) : run y (k + 1) = step y ⟨k, h⟩ (run y k) :=
  dif_pos h

/-- Two sequences that satisfy the recurrence are the components of `run`. -/
theorem of_recurrence (y : Fin A → Fin B → ℝ) (m l : ℕ → EReal) (hm0 : m 0 = ⊥) (hl0 : l 0 = 0)
    (hm : ∀ (k : ℕ) (h : k < A), m (k + 1) = max (m k) (cur y ⟨k, h⟩))
    (hl : ∀ (k : ℕ) (h : k < A), l (k + 1) = Ideal.exp (m k - m (k + 1)) * l k
      + (0 + ∑ b, Ideal.exp (((y ⟨k, h⟩ b : ℝ) : EReal) - m (k + 1)))) :
    ∀ k, k ≤ A → (m k, l k) = run y k := by
  intro k
  induction k with
  | zero => intro _; rw [hm0, hl0]; rfl
  | succ k ih =>
    intro hk
    have hk' : k < A := hk
    have e := ih hk'.le
    rw [run_succ y hk', ← e, hl k hk', hm k hk']
    rfl

variable [NeZero B]

theorem cur_eq_coe (y : Fin A → Fin B → ℝ) (j : Fin A) :
    cur y j = (((univ : Finset (Fin B)).sup' univ_nonempty (y j) : ℝ) : EReal) :=
  fold_max_coe univ univ_nonempty (y j)

/-- The first block: from `(⊥, 0)` to the block's maximum and its sum of shifted exponentials. -/
theorem step_bot (y : Fin A → Fin B → ℝ) (j : Fin A) :
    step y j (⊥, 0) = ((((univ : Finset (Fin B)).sup' univ_nonempty (y j) : ℝ) : EReal),
      ((∑ b, Real.exp (y j b - (univ : Finset (Fin B)).sup' univ_nonempty (y j)) : ℝ) : EReal)) := by
  unfold step
  simp only [cur_eq_coe, bot_le, max_eq_right, EReal.bot_sub, Ideal.exp_bot, mul_zero, zero_add,
    ← EReal.coe_sub, Ideal.exp_coe, ← Cert.Lib.ERealSum.coe_sum]

/-- A later block: from real `(M, L)` to `(max M c, exp (M - max M c) * L + ∑ b, exp (y j b - max M c))`, `c` the block's maximum. -/
theorem step_coe (y : Fin A → Fin B → ℝ) (j : Fin A) (M L : ℝ) :
    step y j ((M : EReal), (L : EReal))
      = (((max M ((univ : Finset (Fin B)).sup' univ_nonempty (y j)) : ℝ) : EReal),
         ((Real.exp (M - max M ((univ : Finset (Fin B)).sup' univ_nonempty (y j))) * L
            + ∑ b, Real.exp (y j b - max M ((univ : Finset (Fin B)).sup' univ_nonempty (y j))) : ℝ) : EReal)) := by
  unfold step
  simp only [cur_eq_coe, ← coe_max, zero_add, ← EReal.coe_sub, Ideal.exp_coe, ← Cert.Lib.ERealSum.coe_sum,
    ← EReal.coe_mul, ← EReal.coe_add]

/-! ## The invariant -/

/-- The blocks before block `k`. -/
def before (A k : ℕ) : Finset (Fin A) := univ.filter fun i => i.val < k

theorem before_succ (j : Fin A) : before A (j.val + 1) = insert j (before A j.val) := by
  ext i; simp only [before, mem_filter, mem_univ, true_and, mem_insert, Fin.ext_iff]; omega

theorem not_mem_before (j : Fin A) : j ∉ before A j.val := by
  simp [before]

theorem before_zero : before A 0 = ∅ := by
  ext i; simp [before]

theorem before_all : before A A = univ := by
  ext i; simp [before]

/-- After `k ≥ 1` blocks the running maximum is the real maximum `Mk` of the entries seen so far and the running
    sum is the sum of their exponentials shifted by `Mk`. -/
def Inv (y : Fin A → Fin B → ℝ) (k : ℕ) (s : EReal × EReal) : Prop :=
  ∃ Mk : ℝ, (∀ i b, i.val < k → y i b ≤ Mk) ∧ (∃ i b, i.val < k ∧ y i b = Mk) ∧ s.1 = (Mk : EReal) ∧
    s.2 = ((∑ i ∈ before A k, ∑ b, Real.exp (y i b - Mk) : ℝ) : EReal)

/-- The invariant is established by the first block and kept by every later one. -/
theorem inv_succ (y : Fin A → Fin B → ℝ) (j : Fin A) (s : EReal × EReal)
    (h : (j.val = 0 ∧ s = (⊥, 0)) ∨ (0 < j.val ∧ Inv y j.val s)) : Inv y (j.val + 1) (step y j s) := by
  obtain ⟨bs, -, hbs⟩ := Finset.exists_mem_eq_sup' (univ_nonempty (α := Fin B)) (y j)
  rcases h with ⟨h0, rfl⟩ | ⟨_, Mk, hub, ⟨i0, b0, hi0, hb0⟩, hm, hl⟩
  · rw [step_bot]
    refine ⟨_, ?_, ⟨j, bs, Nat.lt_succ_self _, hbs.symm⟩, rfl, ?_⟩
    · intro i b hi
      have : i = j := Fin.ext (by omega)
      subst this
      exact Finset.le_sup' (y i) (mem_univ b)
    · rw [before_succ, Finset.sum_insert (not_mem_before j), h0, before_zero, Finset.sum_empty, add_zero]
  · obtain ⟨m, l⟩ := s
    simp only at hm hl
    subst hm hl
    rw [step_coe]
    set c := (univ : Finset (Fin B)).sup' univ_nonempty (y j) with hc
    refine ⟨max Mk c, ?_, ?_, rfl, ?_⟩
    · intro i b hi
      rcases Nat.lt_succ_iff_lt_or_eq.1 hi with hlt | heq
      · exact (hub i b hlt).trans (le_max_left _ _)
      · have : i = j := Fin.ext heq
        subst this
        exact (Finset.le_sup' (y i) (mem_univ b)).trans (le_max_right _ _)
    · rcases le_total c Mk with hle | hle
      · exact ⟨i0, b0, Nat.lt_succ_of_lt hi0, by rw [hb0, max_eq_left hle]⟩
      · exact ⟨j, bs, Nat.lt_succ_self _, by rw [max_eq_right hle, hbs]⟩
    · have key : ∀ i : Fin A, Real.exp (Mk - max Mk c) * ∑ b, Real.exp (y i b - Mk)
          = ∑ b, Real.exp (y i b - max Mk c) := by
        intro i
        rw [Finset.mul_sum]
        refine Finset.sum_congr rfl fun b _ => ?_
        rw [← Real.exp_add]
        congr 1
        ring
      congr 1
      rw [before_succ, Finset.sum_insert (not_mem_before j), Finset.mul_sum,
        Finset.sum_congr rfl (fun i _ => key i), add_comm]

/-- The running pair: `(⊥, 0)` before the first block, the invariant after `k ≥ 1` blocks. -/
theorem run_inv (y : Fin A → Fin B → ℝ) :
    ∀ k, k ≤ A → (k = 0 ∧ run y k = (⊥, 0)) ∨ (0 < k ∧ Inv y k (run y k)) := by
  intro k
  induction k with
  | zero => intro _; exact Or.inl ⟨rfl, rfl⟩
  | succ k ih =>
    intro hk
    have hk' : k < A := hk
    rw [run_succ y hk']
    exact Or.inr ⟨Nat.succ_pos k, inv_succ y ⟨k, hk'⟩ (run y k) (ih hk'.le)⟩

/-! ## After the last block -/

variable [NeZero A]

/-- The maximum of all the entries. -/
def Mtot (y : Fin A → Fin B → ℝ) : ℝ :=
  (univ : Finset (Fin A × Fin B)).sup' univ_nonempty fun p => y p.1 p.2

/-- The sum of the exponentials of all the entries, shifted by their maximum. -/
def Stot (y : Fin A → Fin B → ℝ) : ℝ := ∑ j, ∑ b, Real.exp (y j b - Mtot y)

theorem le_Mtot (y : Fin A → Fin B → ℝ) (j : Fin A) (b : Fin B) : y j b ≤ Mtot y :=
  Finset.le_sup' (fun p : Fin A × Fin B => y p.1 p.2) (mem_univ (j, b))

theorem exists_eq_Mtot (y : Fin A → Fin B → ℝ) : ∃ j b, y j b = Mtot y := by
  obtain ⟨p, -, hp⟩ := Finset.exists_mem_eq_sup' (univ_nonempty (α := Fin A × Fin B)) fun p => y p.1 p.2
  exact ⟨p.1, p.2, hp.symm⟩

/-- The sum of shifted exponentials is at least 1: the term of a largest entry is `exp 0`. -/
theorem one_le_Stot (y : Fin A → Fin B → ℝ) : 1 ≤ Stot y := by
  obtain ⟨j, b, h⟩ := exists_eq_Mtot y
  have h1 : Real.exp (y j b - Mtot y) = 1 := by rw [h, sub_self, Real.exp_zero]
  calc (1 : ℝ) = Real.exp (y j b - Mtot y) := h1.symm
    _ ≤ ∑ b', Real.exp (y j b' - Mtot y) :=
        Finset.single_le_sum (f := fun b' => Real.exp (y j b' - Mtot y)) (fun _ _ => (Real.exp_pos _).le) (mem_univ b)
    _ ≤ Stot y :=
        Finset.single_le_sum (f := fun j' => ∑ b', Real.exp (y j' b' - Mtot y))
          (fun _ _ => Finset.sum_nonneg fun _ _ => (Real.exp_pos _).le) (mem_univ j)

theorem Stot_pos (y : Fin A → Fin B → ℝ) : 0 < Stot y := lt_of_lt_of_le one_pos (one_le_Stot y)

/-- After all `A` blocks: the running maximum is the maximum of all entries, the running sum their sum of shifted
    exponentials. -/
theorem run_final (y : Fin A → Fin B → ℝ) : run y A = ((Mtot y : EReal), (Stot y : EReal)) := by
  rcases run_inv y A le_rfl with ⟨h0, -⟩ | ⟨_, Mk, hub, ⟨i0, b0, _, hb0⟩, hm, hl⟩
  · exact absurd h0 (NeZero.ne A)
  · have hM : Mk = Mtot y := le_antisymm (hb0 ▸ le_Mtot y i0 b0)
      (Finset.sup'_le _ _ fun p _ => hub p.1 p.2 p.1.isLt)
    rw [before_all, hM] at hl
    rw [hM] at hm
    exact Prod.ext hm hl

theorem run_fst (y : Fin A → Fin B → ℝ) : (run y A).1 = (Mtot y : EReal) := by rw [run_final]

theorem run_snd (y : Fin A → Fin B → ℝ) : (run y A).2 = (Stot y : EReal) := by rw [run_final]

/-- The logarithm of the final sum is the real logarithm. -/
theorem log_Stot (y : Fin A → Fin B → ℝ) : Ideal.log (Stot y : EReal) = ((Real.log (Stot y) : ℝ) : EReal) := by
  rw [Ideal.log_coe, if_neg (not_le.2 (Stot_pos y))]

/-- The final maximum plus the logarithm of the final sum is the log-sum-exp of all the entries. -/
theorem run_lse (y : Fin A → Fin B → ℝ) :
    (run y A).1 + Ideal.log (run y A).2 = ((Mtot y + Real.log (Stot y) : ℝ) : EReal) := by
  rw [run_final, log_Stot, EReal.coe_add]

/-! ## One row cut into blocks -/

section Flat

variable {A B n : ℕ} [NeZero A] [NeZero B]

/-- The maximum over the blocks' entries is the maximum over the row. -/
theorem Mtot_flat (e : Fin A × Fin B ≃ Fin n) (f : Fin n → ℝ) (hne : (univ : Finset (Fin n)).Nonempty) :
    Mtot (fun j b => f (e (j, b))) = (univ : Finset (Fin n)).sup' hne f := by
  apply le_antisymm
  · exact Finset.sup'_le _ _ fun p _ => Finset.le_sup' f (mem_univ (e (p.1, p.2)))
  · refine Finset.sup'_le _ _ fun s _ => ?_
    have h := le_Mtot (fun j b => f (e (j, b))) (e.symm s).1 (e.symm s).2
    simpa using h

/-- The sum over the blocks' entries of the shifted exponentials is the sum over the row. -/
theorem Stot_flat (e : Fin A × Fin B ≃ Fin n) (f : Fin n → ℝ) (hne : (univ : Finset (Fin n)).Nonempty) :
    Stot (fun j b => f (e (j, b))) = ∑ s, Real.exp (f s - (univ : Finset (Fin n)).sup' hne f) := by
  unfold Stot
  rw [Mtot_flat e f hne, ← Equiv.sum_comp e fun s => Real.exp (f s - (univ : Finset (Fin n)).sup' hne f),
    Fintype.sum_prod_type]

/-- An index whose value is `b + B * j` is entry `b` of block `j`. -/
theorem eq_blockEquiv (hn : A * B = n) (j : Fin A) (b : Fin B) (s : Fin n) (hs : s.val = b.val + B * j.val) :
    s = Cert.FoldBlocks.blockEquiv hn (j, b) :=
  Fin.ext (hs.trans (Cert.FoldBlocks.blockEquiv_val hn j b).symm)

variable (hn : A * B = n) (f : Fin n → ℝ) (hne : (univ : Finset (Fin n)).Nonempty)

/-- Over a row of `n = A * B` entries taken in `A` blocks of `B` consecutive entries, the running maximum ends at the
    row's maximum … -/
theorem run_blocks_fst :
    (run (fun j b => f (Cert.FoldBlocks.blockEquiv hn (j, b))) A).1 = (((univ : Finset (Fin n)).sup' hne f : ℝ) : EReal) := by
  rw [run_fst, Mtot_flat _ f hne]

/-- … the running sum at the row's sum of exponentials shifted by its maximum … -/
theorem run_blocks_snd :
    (run (fun j b => f (Cert.FoldBlocks.blockEquiv hn (j, b))) A).2
      = ((∑ s, Real.exp (f s - (univ : Finset (Fin n)).sup' hne f) : ℝ) : EReal) := by
  rw [run_snd, Stot_flat _ f hne]

/-- … and the final maximum plus the logarithm of the final sum at the row's log-sum-exp. -/
theorem run_blocks_lse :
    (run (fun j b => f (Cert.FoldBlocks.blockEquiv hn (j, b))) A).1
        + Ideal.log (run (fun j b => f (Cert.FoldBlocks.blockEquiv hn (j, b))) A).2
      = (((univ : Finset (Fin n)).sup' hne f
          + Real.log (∑ s, Real.exp (f s - (univ : Finset (Fin n)).sup' hne f)) : ℝ) : EReal) := by
  rw [run_lse, Mtot_flat _ f hne, Stot_flat _ f hne]

/-- The row's sum of shifted exponentials is at least 1. -/
theorem one_le_sum_exp : 1 ≤ ∑ s, Real.exp (f s - (univ : Finset (Fin n)).sup' hne f) := by
  obtain ⟨s, -, hs⟩ := Finset.exists_mem_eq_sup' hne f
  have h1 : Real.exp (f s - (univ : Finset (Fin n)).sup' hne f) = 1 := by rw [hs, sub_self, Real.exp_zero]
  rw [← h1]
  exact Finset.single_le_sum (f := fun s' => Real.exp (f s' - (univ : Finset (Fin n)).sup' hne f))
    (fun _ _ => (Real.exp_pos _).le) (mem_univ s)

end Flat

end Cert.Lib.OnlineLse
-- ==== Proof.SpecLaws.lean ====
/- Facts about the real-valued statement (Spec) read at the extended reals: every operation the two programs apply
   to real numbers — products, sums, differences, maxima, a square root of a nonnegative number, a quotient by a
   nonzero number, an exponential, a logarithm of a positive number — is the coercion of the real operation;
   hence an entry of the similarity matrix computed from real inputs is the coercion of x p r s, a row's
   running (or whole) maximum and sum of exponentials are the coercions of M p r and S p r, and both programs'
   final means are the coercion of loss p. -/
import proofs.«126300_j66795331388029_1_alg».proof.Proof.Spec
import proofs.«126300_j66795331388029_1_alg».proof.Proof.LibOnlineLse

noncomputable section

namespace Cert.Spec

open Idealize.ShloMosaic Finset

/-! ### (i) The operations on real numbers -/

theorem mul_coe (a b : ℝ) : (a : EReal) * (b : EReal) = ((a * b : ℝ) : EReal) := (EReal.coe_mul a b).symm

theorem add_coe (a b : ℝ) : (a : EReal) + (b : EReal) = ((a + b : ℝ) : EReal) := (EReal.coe_add a b).symm

theorem sub_coe (a b : ℝ) : (a : EReal) - (b : EReal) = ((a - b : ℝ) : EReal) := (EReal.coe_sub a b).symm

theorem neg_coe (a : ℝ) : -(a : EReal) = ((-a : ℝ) : EReal) := (EReal.coe_neg a).symm

theorem max_coe (a b : ℝ) : max (a : EReal) (b : EReal) = ((max a b : ℝ) : EReal) :=
  (Cert.Lib.OnlineLse.coe_max a b).symm

theorem max_bot_coe (a : ℝ) : max (⊥ : EReal) (a : EReal) = (a : EReal) := max_eq_right bot_le

theorem sqrt_coe {a : ℝ} (h : 0 ≤ a) : Ideal.sqrt (a : EReal) = ((Real.sqrt a : ℝ) : EReal) := by
  rw [Ideal.sqrt_coe, if_neg (not_lt.2 h)]

theorem div_coe (a : ℝ) {b : ℝ} (h : b ≠ 0) : Ideal.div (a : EReal) (b : EReal) = ((a / b : ℝ) : EReal) := by
  rw [Ideal.div_coe h, ← EReal.coe_mul, one_div, div_eq_mul_inv]

theorem exp_coe (a : ℝ) : Ideal.exp (a : EReal) = ((Real.exp a : ℝ) : EReal) := Ideal.exp_coe a

theorem log_coe {a : ℝ} (h : 0 < a) : Ideal.log (a : EReal) = ((Real.log a : ℝ) : EReal) := by
  rw [Ideal.log_coe, if_neg (not_le.2 h)]

theorem sum_coe {ι : Type*} (s : Finset ι) (f : ι → ℝ) : ∑ i ∈ s, ((f i : ℝ) : EReal) = ((∑ i ∈ s, f i : ℝ) : EReal) :=
  (Cert.Lib.ERealSum.coe_sum s f).symm

theorem zero_add_coe (a : ℝ) : (0 : EReal) + (a : EReal) = (a : EReal) := zero_add _

theorem zero_coe : ((0 : ℝ) : EReal) = 0 := EReal.coe_zero

/-! ### (ii) Doubling is the quotient by one half -/

/-- In the library's division, `x / (1/2) = x * 2`, at the infinities too. -/
theorem div_half (x : EReal) : Ideal.div x (((1 / 2 : ℝ)) : EReal) = x * ((2 : ℝ) : EReal) := by
  rw [Ideal.div_coe (by norm_num)]; norm_num

theorem mul_two_eq_div_half (a : ℝ) :
    (a : EReal) * ((2 : ℝ) : EReal) = Ideal.div (a : EReal) (((1 / 2 : ℝ)) : EReal) := (div_half _).symm

/-! ### The entries of the similarity matrix -/

section Entries

variable (p : Fin 8192 → Fin 256 → ℝ)

/-- The denominator is at least eps, so positive. -/
theorem den_pos (r s : Fin 8192) : 0 < max (nrmR p r * nrmR p s) epsR := lt_max_of_lt_right eps_pos

theorem den_ne (r s : Fin 8192) : max (nrmR p r * nrmR p s) epsR ≠ 0 := (den_pos p r s).ne'

theorem sumsq_nonneg (r : Fin 8192) : 0 ≤ ∑ k, p r k * p r k := Finset.sum_nonneg fun k _ => mul_self_nonneg _

/-- The inner product of two rows of real numbers. -/
theorem dot_coe (r s : Fin 8192) :
    ∑ k, ((p r k : ℝ) : EReal) * ((p s k : ℝ) : EReal) = ((dotR p r s : ℝ) : EReal) := by
  unfold dotR; simp only [mul_coe, sum_coe]

/-- The sum of the squares of a row of real numbers. -/
theorem sumsq_coe (r : Fin 8192) :
    ∑ k, ((p r k : ℝ) : EReal) * ((p r k : ℝ) : EReal) = ((∑ k, p r k * p r k : ℝ) : EReal) := by
  simp only [mul_coe, sum_coe]

/-- The norm of a row of real numbers. -/
theorem nrm_coe (r : Fin 8192) :
    Ideal.sqrt (∑ k, ((p r k : ℝ) : EReal) * ((p r k : ℝ) : EReal)) = ((nrmR p r : ℝ) : EReal) := by
  rw [sumsq_coe, sqrt_coe (sumsq_nonneg p r)]; rfl

theorem nrm_coe' (r : Fin 8192) :
    Ideal.sqrt (((∑ k, p r k * p r k : ℝ)) : EReal) = ((nrmR p r : ℝ) : EReal) := by
  rw [sqrt_coe (sumsq_nonneg p r)]; rfl

/-- The denominator: the product of the norms bounded below by eps. -/
theorem den_coe (r s : Fin 8192) :
    max (((nrmR p r : ℝ) : EReal) * ((nrmR p s : ℝ) : EReal)) ((epsR : ℝ) : EReal)
      = ((max (nrmR p r * nrmR p s) epsR : ℝ) : EReal) := by
  rw [mul_coe, max_coe]

/-- The cosine similarity off the diagonal. -/
theorem cos_coe (r s : Fin 8192) :
    Ideal.div ((dotR p r s : ℝ) : EReal) ((max (nrmR p r * nrmR p s) epsR : ℝ) : EReal)
      = ((dotR p r s / max (nrmR p r * nrmR p s) epsR : ℝ) : EReal) :=
  div_coe _ (den_ne p r s)

theorem x_diag (r : Fin 8192) : x p r r = -2000000000 := by
  unfold x; rw [if_pos rfl]; norm_num

theorem x_off {r s : Fin 8192} (h : r ≠ s) : x p r s = dotR p r s / max (nrmR p r * nrmR p s) epsR * 2 := by
  unfold x; rw [if_neg h]

/-- An entry as the kernel forms it: the masked cosine similarity times 2. -/
theorem entry_mul (r s : Fin 8192) :
    (if r = s then (((-1000000000 : ℝ)) : EReal)
      else Ideal.div ((dotR p r s : ℝ) : EReal) ((max (nrmR p r * nrmR p s) epsR : ℝ) : EReal)) * ((2 : ℝ) : EReal)
      = ((x p r s : ℝ) : EReal) := by
  unfold x
  split_ifs with h
  · rw [mul_coe]
  · rw [cos_coe, mul_coe]

/-- An entry as the reference forms it: the masked cosine similarity over one half. -/
theorem entry_div (r s : Fin 8192) :
    Ideal.div (if r = s then (((-1000000000 : ℝ)) : EReal)
      else Ideal.div ((dotR p r s : ℝ) : EReal) ((max (nrmR p r * nrmR p s) epsR : ℝ) : EReal)) (((1 / 2 : ℝ)) : EReal)
      = ((x p r s : ℝ) : EReal) := by
  rw [div_half, entry_mul]

end Entries

/-! ### (v) A row's maximum and its sum of exponentials -/

section Rows

variable (p : Fin 8192 → Fin 256 → ℝ)

theorem le_M (r s : Fin 8192) : x p r s ≤ M p r := Finset.le_sup' (x p r) (mem_univ s)

/-- The row's maximum is attained. -/
theorem M_attained (r : Fin 8192) : ∃ s, x p r s = M p r := by
  obtain ⟨s, -, hs⟩ := Finset.exists_mem_eq_sup' (univ_nonempty (α := Fin 8192)) (x p r)
  exact ⟨s, hs.symm⟩

/-- The sum of the shifted exponentials is at least 1, so its logarithm is a real number. -/
theorem one_le_S (r : Fin 8192) : 1 ≤ S p r := Cert.Lib.OnlineLse.one_le_sum_exp (x p r) univ_nonempty

theorem S_pos (r : Fin 8192) : 0 < S p r := lt_of_lt_of_le one_pos (one_le_S p r)

theorem log_S_coe (r : Fin 8192) : Ideal.log ((S p r : ℝ) : EReal) = ((Real.log (S p r) : ℝ) : EReal) :=
  log_coe (S_pos p r)

/-- The fold of max from ⊥ over a whole row is the row's maximum. -/
theorem fold_max_row (r : Fin 8192) :
    (univ : Finset (Fin 8192)).fold max ⊥ (fun s => ((x p r s : ℝ) : EReal)) = ((M p r : ℝ) : EReal) :=
  Cert.Lib.OnlineLse.fold_max_coe univ univ_nonempty (x p r)

/-- A row's sum of exponentials shifted by its maximum. -/
theorem sum_exp_row (r : Fin 8192) :
    ∑ s, Ideal.exp (((x p r s : ℝ) : EReal) - ((M p r : ℝ) : EReal)) = ((S p r : ℝ) : EReal) := by
  unfold S; simp only [sub_coe, exp_coe, sum_coe]

end Rows

/-! ### (iii) The reference's row -/

section Reference

variable (p : Fin 8192 → Fin 256 → ℝ)

/-- The reference's row maximum: `max ⊥` of the fold of max from ⊥ over the whole row. -/
theorem ref_max (r : Fin 8192) :
    max ⊥ ((univ : Finset (Fin 8192)).fold max ⊥ fun s => ((x p r s : ℝ) : EReal)) = ((M p r : ℝ) : EReal) := by
  rw [fold_max_row, max_bot_coe]

/-- The reference's shifted entry. -/
theorem ref_shift (r s : Fin 8192) :
    ((x p r s : ℝ) : EReal) - ((M p r : ℝ) : EReal) = ((x p r s - M p r : ℝ) : EReal) := sub_coe _ _

/-- The reference's row sum: `0 +` the sum of the exponentials of the shifted entries. -/
theorem ref_sum (r : Fin 8192) :
    (0 : EReal) + ∑ s, Ideal.exp (((x p r s : ℝ) : EReal) - ((M p r : ℝ) : EReal)) = ((S p r : ℝ) : EReal) := by
  rw [sum_exp_row, zero_add]

theorem ref_sum' (r : Fin 8192) :
    (0 : EReal) + ∑ s, Ideal.exp (((x p r s - M p r : ℝ)) : EReal) = ((S p r : ℝ) : EReal) := by
  simp only [← ref_shift]; exact ref_sum p r

/-- The reference's log-probability at `(r, s)`. -/
theorem ref_logp (r s : Fin 8192) :
    (((x p r s : ℝ) : EReal) - ((M p r : ℝ) : EReal)) - Ideal.log ((S p r : ℝ) : EReal)
      = ((x p r s - M p r - Real.log (S p r) : ℝ) : EReal) := by
  rw [log_S_coe, sub_coe, sub_coe]

/-- … and on the diagonal, where `x p r r = -2e9`. -/
theorem ref_logp_diag (r : Fin 8192) :
    (((x p r r : ℝ) : EReal) - ((M p r : ℝ) : EReal)) - Ideal.log ((S p r : ℝ) : EReal)
      = (((-2000000000 - M p r) - Real.log (S p r) : ℝ) : EReal) := by
  rw [ref_logp, x_diag]

/-- The reference's row, from the entries to the diagonal log-probability, in one statement. -/
theorem ref_row (r : Fin 8192) :
    (((x p r r : ℝ) : EReal) - max ⊥ ((univ : Finset (Fin 8192)).fold max ⊥ fun s => ((x p r s : ℝ) : EReal)))
        - Ideal.log ((0 : EReal) + ∑ s, Ideal.exp (((x p r s : ℝ) : EReal)
            - max ⊥ ((univ : Finset (Fin 8192)).fold max ⊥ fun s' => ((x p r s' : ℝ) : EReal))))
      = (((-2000000000 - M p r) - Real.log (S p r) : ℝ) : EReal) := by
  rw [ref_max, ref_sum, ref_logp_diag]

end Reference

/-! ### The kernel's row -/

section Kernel

variable (p : Fin 8192 → Fin 256 → ℝ)

/-- Entry `b` of block `j` of row `r`: column `b + 1024 * j`. -/
def tile (r : Fin 8192) (j : Fin 8) (b : Fin 1024) : ℝ :=
  x p r (Cert.FoldBlocks.blockEquiv (show 8 * 1024 = 8192 by norm_num) (j, b))

theorem tile_eq (r : Fin 8192) (j : Fin 8) (b : Fin 1024) (s : Fin 8192) (hs : s.val = b.val + 1024 * j.val) :
    tile p r j b = x p r s := by
  unfold tile; rw [← Cert.Lib.OnlineLse.eq_blockEquiv _ j b s hs]

/-- After the 8 tiles the running maximum is the row's maximum … -/
theorem kernel_row_max (r : Fin 8192) : (Cert.Lib.OnlineLse.run (tile p r) 8).1 = ((M p r : ℝ) : EReal) :=
  Cert.Lib.OnlineLse.run_blocks_fst _ (x p r) univ_nonempty

/-- … the running sum is the row's sum of shifted exponentials … -/
theorem kernel_row_sum (r : Fin 8192) : (Cert.Lib.OnlineLse.run (tile p r) 8).2 = ((S p r : ℝ) : EReal) :=
  Cert.Lib.OnlineLse.run_blocks_snd _ (x p r) univ_nonempty

/-- … and the row's output, the final maximum plus the logarithm of the final sum, its log-sum-exp. -/
theorem kernel_row (r : Fin 8192) :
    (Cert.Lib.OnlineLse.run (tile p r) 8).1 + Ideal.log (Cert.Lib.OnlineLse.run (tile p r) 8).2
      = ((lse p r : ℝ) : EReal) :=
  Cert.Lib.OnlineLse.run_blocks_lse _ (x p r) univ_nonempty

theorem lse_coe (r : Fin 8192) :
    ((M p r : ℝ) : EReal) + Ideal.log ((S p r : ℝ) : EReal) = ((lse p r : ℝ) : EReal) := by
  rw [log_S_coe, add_coe]; rfl

end Kernel

/-! ### (iv) The means -/

section Mean

variable (p : Fin 8192 → Fin 256 → ℝ)

/-- Over the real numbers the reference's mean is the loss. -/
theorem mean_identity : -((∑ r, ((-2000000000 - M p r) - Real.log (S p r))) / 8192) = loss p := by
  unfold loss lse
  simp only [Finset.sum_sub_distrib, Finset.sum_add_distrib, Finset.sum_const, Finset.card_univ, Fintype.card_fin,
    nsmul_eq_mul]
  push_cast
  ring

/-- The reference's result: minus the mean of the diagonal log-probabilities. -/
theorem ref_result :
    -(Ideal.div ((0 : EReal) + ∑ r, (((-2000000000 - M p r) - Real.log (S p r) : ℝ) : EReal)) ((8192 : ℝ) : EReal))
      = ((loss p : ℝ) : EReal) := by
  rw [sum_coe, zero_add, div_coe _ (by norm_num), neg_coe, mean_identity]

/-- The kernel's result: 2e9 plus the mean of the rows' outputs. -/
theorem kernel_result :
    ((2000000000 : ℝ) : EReal) + Ideal.div ((0 : EReal) + ∑ r, ((lse p r : ℝ) : EReal)) ((8192 : ℝ) : EReal)
      = ((loss p : ℝ) : EReal) := by
  rw [sum_coe, zero_add, div_coe _ (by norm_num), add_coe]; rfl

end Mean

end Cert.Spec
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.KPay.lean ====
/- The kernel body's arithmetic read at an index, on the extended reals: each of the eight pure terms of the
   body (the tile of logits, its row maxima, the new running maximum, the new running sum, the row's output,
   and the two initial columns) as a plain expression of its operands at explicit coordinates; then one
   column tile's update of the running pair as one step of the online log-sum-exp recurrence. -/
import proofs.«126300_j66795331388029_1_alg».proof.Proof.Gen.KernelIdeal.Skeleton
import proofs.«126300_j66795331388029_1_alg».proof.Proof.SpecLaws
import proofs.«126300_j66795331388029_1_alg».proof.Proof.LibKeepdims
import proofs.«126300_j66795331388029_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KPay

open Idealize.ShloMosaic Idealize.ShloMosaic.ValueIdx Cert.KernelIdeal Cert.KernelIdeal.Gen

/-! ### The running pair's update, the output and the initial columns, at a row -/

/-- The new running maximum at row `a`: the larger of the old one and the tile's row maximum. -/
theorem pay1_apply (v41 : FVec Ideal S1024 .f32) (v43 : Vec Ideal S1024x1 .f32) (a : Fin 1024) (u : Fin 1) :
    k0_pay1 (F := Ideal) v41 v43 (ix2 a u) = max (v43 (ix2 a u)) (v41 (ix1 a)) := by
  unfold k0_pay1
  exact congrArg (max (v43 (ix2 a u))) (ValueKeepdims.shapeCast_a_a1_apply v41 _ a u)

/-- The stored running maximum is the same column. -/
theorem pay3_apply (v41 : FVec Ideal S1024 .f32) (v43 : Vec Ideal S1024x1 .f32) (a : Fin 1024) (u : Fin 1) :
    k0_pay3 (F := Ideal) v41 v43 (ix2 a u) = max (v43 (ix2 a u)) (v41 (ix1 a)) := by
  unfold k0_pay3
  exact (congrFun (shapeCast_self _ _) _).trans (pay1_apply v41 v43 a u)

/-- The new running sum at row `a`: the old one re-based on the new maximum, plus the tile's row sum of the
    exponentials of the logits shifted by the new maximum. -/
theorem pay2_apply (v40 : FVec Ideal S1024x1024 .f32) (v41 : FVec Ideal S1024 .f32) (v43 v45 v51 : Vec Ideal S1024x1 .f32)
    (a : Fin 1024) :
    k0_pay2 (F := Ideal) v40 v41 v43 v45 v51 (ix2 a (0 : Fin 1))
      = Ideal.exp (v45 (ix2 a (0 : Fin 1)) - max (v43 (ix2 a (0 : Fin 1))) (v41 (ix1 a))) * v51 (ix2 a (0 : Fin 1))
        + ∑ b : Fin 1024, Ideal.exp (v40 (ix2 a b) - max (v43 (ix2 a (0 : Fin 1))) (v41 (ix1 a))) := by
  unfold k0_pay2
  refine (congrFun (shapeCast_self _ _) _).trans ?_
  refine congrArg₂ (fun p q : EReal => p + q) ?_ ?_
  · show Ideal.exp (v45 (ix2 a (0 : Fin 1)) - k0_pay1 v41 v43 (ix2 a (0 : Fin 1))) * v51 (ix2 a (0 : Fin 1)) = _
    rw [pay1_apply]
  · refine (ValueKeepdims.shapeCast_a_a1_apply _ _ a (0 : Fin 1)).trans ?_
    refine (ValueKeepdims.multiReduction_add_row _ _ _ _ _ a).trans ?_
    refine Finset.sum_congr rfl fun b _ => ?_
    show Ideal.exp (v40 (ix2 a b) - broadcastTo S1024x1024 (k0_pay1 v41 v43) _ (ix2 a b)) = _
    rw [ValueKeepdims.broadcastTo_a1_ab_apply, pay1_apply]

/-- The row's output: the final maximum plus the logarithm of the final sum. -/
theorem pay4_apply (v65 v66 : Vec Ideal S1024x1 .f32) (a : Fin 1024) (u : Fin 1) :
    k0_pay4 (F := Ideal) v65 v66 (ix2 a u) = v65 (ix2 a u) + Ideal.log (v66 (ix2 a u)) := rfl

/-- The initial running maximum is `⊥` … -/
theorem pay5_apply (a : Fin 1024) (u : Fin 1) : k0_pay5 (F := Ideal) (ix2 a u) = (⊥ : EReal) := by
  unfold k0_pay5
  exact (congrFun (shapeCast_self _ _) _).trans Cert.Spec.negInf_coe

/-- … and the initial running sum is `0`. -/
theorem pay6_apply (a : Fin 1024) (u : Fin 1) : k0_pay6 (F := Ideal) (ix2 a u) = (0 : EReal) := by
  unfold k0_pay6
  exact (congrFun (shapeCast_self _ _) _).trans Ideal.ofBits_zero_f32

/-! ### Layout steps not in the library: a column read as a row -/

/-- An `[a, 1]` column cast to the row `[1, a]` reads, at `(u, i)`, the column at `(i, u')`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) (u' : Fin 1) :
    shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-! ### The pieces of the tile of logits -/

/-- The norm of row `a` of a block, kept as a column: the square root of the row's sum of squares. -/
theorem norm_col_apply (x : Vec Ideal S1024x256 .f32) (hc : S1024x256.ShapeCasts S1024x256)
    (hr : S1024x256.Reduces [1] S1024) (hφ : FKind.Formats .f32)
    (hacc : (0x00000000#32 : BitVec 32) = FKind.add.neutral .f32 hφ) (hc1 : S1024.ShapeCasts S1024x1)
    (a : Fin 1024) (u : Fin 1) :
    sqrt (F := Ideal) (shapeCast S1024x1 (multiReduction (F := Ideal) .add [1] S1024
        (mulf (shapeCast S1024x256 x hc) (shapeCast S1024x256 x hc)) 0x00000000#32 hr hφ hacc) hc1) (ix2 a u)
      = Ideal.sqrt (∑ k : Fin 256, x (ix2 a k) * x (ix2 a k)) := by
  show Ideal.sqrt (shapeCast S1024x1 (multiReduction (F := Ideal) .add [1] S1024
        (mulf (shapeCast S1024x256 x hc) (shapeCast S1024x256 x hc)) 0x00000000#32 hr hφ hacc) hc1 (ix2 a u)) = _
  refine congrArg Ideal.sqrt ?_
  refine (ValueKeepdims.shapeCast_a_a1_apply _ hc1 a u).trans ?_
  refine (ValueKeepdims.multiReduction_add_row _ _ hr hφ hacc a).trans ?_
  refine Finset.sum_congr rfl fun k _ => ?_
  show shapeCast S1024x256 x hc (ix2 a k) * shapeCast S1024x256 x hc (ix2 a k) = _
  rw [shapeCast_self]

/-- The row block's norms spread along the rows of the tile: at `(a, b)`, the norm of row `a`. -/
theorem norm_rows_apply (x : Vec Ideal S1024x256 .f32) (hc : S1024x256.ShapeCasts S1024x256)
    (hr : S1024x256.Reduces [1] S1024) (hφ : FKind.Formats .f32)
    (hacc : (0x00000000#32 : BitVec 32) = FKind.add.neutral .f32 hφ) (hc1 : S1024.ShapeCasts S1024x1)
    (hb : S1024x1.Broadcasts S1024x1024) (a b : Fin 1024) :
    broadcastTo S1024x1024 (sqrt (F := Ideal) (shapeCast S1024x1 (multiReduction (F := Ideal) .add [1] S1024
        (mulf (shapeCast S1024x256 x hc) (shapeCast S1024x256 x hc)) 0x00000000#32 hr hφ hacc) hc1)) hb (ix2 a b)
      = Ideal.sqrt (∑ k : Fin 256, x (ix2 a k) * x (ix2 a k)) :=
  (ValueKeepdims.broadcastTo_a1_ab_apply _ hb a b).trans (norm_col_apply x hc hr hφ hacc hc1 a 0)

/-- The column block's norms, turned into a row and spread along the columns of the tile: at `(a, b)`, the norm
    of the column block's row `b`. -/
theorem norm_cols_apply (x : Vec Ideal S1024x256 .f32) (hc : S1024x256.ShapeCasts S1024x256)
    (hr : S1024x256.Reduces [1] S1024) (hφ : FKind.Formats .f32)
    (hacc : (0x00000000#32 : BitVec 32) = FKind.add.neutral .f32 hφ) (hc1 : S1024.ShapeCasts S1024x1)
    (hc2 : S1024x1.ShapeCasts S1x1024) (hb : S1x1024.Broadcasts S1024x1024) (a b : Fin 1024) :
    broadcastTo S1024x1024 (shapeCast S1x1024 (sqrt (F := Ideal) (shapeCast S1024x1 (multiReduction (F := Ideal) .add [1] S1024
        (mulf (shapeCast S1024x256 x hc) (shapeCast S1024x256 x hc)) 0x00000000#32 hr hφ hacc) hc1)) hc2) hb (ix2 a b)
      = Ideal.sqrt (∑ k : Fin 256, x (ix2 b k) * x (ix2 b k)) :=
  (broadcastTo_1b_ab_apply _ hb a b).trans
    ((shapeCast_a1_1a_apply _ hc2 0 b 0).trans (norm_col_apply x hc hr hφ hacc hc1 b 0))

/-- The matrix product of the row block with the transposed column block: at `(a, b)`, the inner product of the
    row block's row `a` and the column block's row `b`. -/
theorem dot_apply (x0 x1 : Vec Ideal S1024x256 .f32) (hc : S1024x256.ShapeCasts S1024x256)
    (hlt : FTy.bits .bf16 < FTy.bits .f32) (ht : S1024x256.Transposes [1, 0] S256x1024) (a b : Fin 1024) :
    matmul (F := Ideal) dot_S1024x256_S256x1024_S1024x1024_1_0_0_1_n_n none
        (truncf .bf16 (shapeCast S1024x256 x0 hc) hlt)
        (transpose S256x1024 [1, 0] (truncf .bf16 (shapeCast S1024x256 x1 hc) hlt) ht)
        (constant S1024x1024 .f32 0x00000000#32) (ix2 a b)
      = ∑ k : Fin 256, x0 (ix2 a k) * x1 (ix2 b k) := by
  refine (Cert.Lib.PlainDot.matmul_zero_apply (M := 1024) (K := 256) (N := 1024) none _ _ a b).trans ?_
  refine Finset.sum_congr rfl fun k _ => ?_
  refine congrArg₂ (fun p q : EReal => p * q) ?_ ?_
  · show shapeCast S1024x256 x0 hc (ix2 a k) = _
    rw [shapeCast_self]
  · refine (transpose_ix2_apply _ ht k b).trans ?_
    show shapeCast S1024x256 x1 hc (ix2 b k) = _
    rw [shapeCast_self]

/-- Two global indices `1024 * I + a` (`I < 8`, `a < 1024`), as 32-bit words, are equal exactly when the numbers are. -/
theorem word_index_eq_iff (I J : ℕ) (hI : I < 8) (hJ : J < 8) (a b : Fin 1024) :
    BitVec.ofNat 32 I * 1024#32 + BitVec.ofNat 32 a.val = BitVec.ofNat 32 J * 1024#32 + BitVec.ofNat 32 b.val
      ↔ 1024 * I + a.val = 1024 * J + b.val := by
  have ha := a.isLt
  have hb := b.isLt
  rw [← BitVec.toNat_inj]
  simp only [BitVec.toNat_add, BitVec.toNat_mul, BitVec.toNat_ofNat]
  omega

/-- The diagonal mask: at `(a, b)` of tile `(i 0, i 1)` the comparison of the global row and column indices. -/
theorem mask_apply (w0 w1 : BitVec 32) (hi0 : S1024x1.Iotas .tc 32 [0]) (hi1 : S1x1024.Iotas .tc 32 [1])
    (hb0 : S1024x1.Broadcasts S1024x1024) (hb1 : S1x1024.Broadcasts S1024x1024) (a b : Fin 1024) :
    cmpi .eq (broadcastTo S1024x1024 (addi (broadcast S1024x1 w0) (iota .tc S1024x1 32 [0] hi0)) hb0)
        (broadcastTo S1024x1024 (addi (broadcast S1x1024 w1) (iota .tc S1x1024 32 [1] hi1)) hb1) (ix2 a b)
      = IntOp.cmpi .eq (w0 + BitVec.ofNat 32 a.val) (w1 + BitVec.ofNat 32 b.val) := by
  show IntOp.cmpi .eq (broadcastTo S1024x1024 (addi (broadcast S1024x1 w0) (iota .tc S1024x1 32 [0] hi0)) hb0 (ix2 a b))
      (broadcastTo S1024x1024 (addi (broadcast S1x1024 w1) (iota .tc S1x1024 32 [1] hi1)) hb1 (ix2 a b)) = _
  rw [ValueKeepdims.broadcastTo_a1_ab_apply, broadcastTo_1b_ab_apply]
  show IntOp.cmpi .eq (w0 + BitVec.ofNat 32 (0 * 1024 + a.val)) (w1 + BitVec.ofNat 32 (0 * 1024 + b.val)) = _
  rw [Nat.zero_mul, Nat.zero_add, Nat.zero_add]

/-! ### (1) The tile of logits at an entry -/

/-- The tile of logits at `(a, b)`, for arbitrary blocks: the masked quotient of the rows' inner product by the
    bounded product of their norms, times the word for 2. -/
theorem pay7_raw (i : grid0.Coords) (x0 x1 : Vec Ideal S1024x256 .f32) (a b : Fin 1024) :
    k0_pay7 (F := Ideal) i x0 x1 (ix2 a b)
      = Scalar.select (IntOp.cmpi .eq (BitVec.ofNat 32 (i 0).val * 1024#32 + BitVec.ofNat 32 a.val)
            (BitVec.ofNat 32 (i 1).val * 1024#32 + BitVec.ofNat 32 b.val))
          (Ideal.ofBits .f32 0xCE6E6B28#32)
          (Ideal.div (∑ k : Fin 256, x0 (ix2 a k) * x1 (ix2 b k))
            (max (Ideal.sqrt (∑ k : Fin 256, x0 (ix2 a k) * x0 (ix2 a k))
                * Ideal.sqrt (∑ k : Fin 256, x1 (ix2 b k) * x1 (ix2 b k)))
              (Ideal.ofBits .f32 0x322BCC77#32)))
        * Ideal.ofBits .f32 0x40000000#32 := by
  unfold k0_pay7
  refine congrArg₂ (fun p q : EReal => p * q) ?_ rfl
  refine congrArg₂ (fun (c : BitVec 1) (v : EReal) => Scalar.select c (Ideal.ofBits .f32 0xCE6E6B28#32) v) ?_ ?_
  · exact mask_apply _ _ _ _ _ _ a b
  · refine congrArg₂ Ideal.div ?_ ?_
    · exact dot_apply x0 x1 _ _ _ a b
    · refine congrArg₂ (fun p q : EReal => max p q) ?_ rfl
      refine congrArg₂ (fun p q : EReal => p * q) ?_ ?_
      · exact norm_rows_apply x0 _ _ _ _ _ _ a b
      · exact norm_cols_apply x1 _ _ _ _ _ _ _ a b

/-- The mask chooses the first value exactly on the diagonal of the whole matrix. -/
theorem select_index {α : Type} (I J : ℕ) (hI : I < 8) (hJ : J < 8) (a b : Fin 1024) (r s : Fin 8192)
    (hr : r.val = 1024 * I + a.val) (hs : s.val = 1024 * J + b.val) (A B : α) :
    Scalar.select (IntOp.cmpi .eq (BitVec.ofNat 32 I * 1024#32 + BitVec.ofNat 32 a.val)
        (BitVec.ofNat 32 J * 1024#32 + BitVec.ofNat 32 b.val)) A B = if r = s then A else B := by
  have hiff := word_index_eq_iff I J hI hJ a b
  by_cases h : r = s
  · have hw : BitVec.ofNat 32 I * 1024#32 + BitVec.ofNat 32 a.val = BitVec.ofNat 32 J * 1024#32 + BitVec.ofNat 32 b.val :=
      hiff.2 (by rw [← hr, ← hs, h])
    rw [if_pos h, hw]
    show Scalar.select (BitVec.ofBool (_ == _)) A B = A
    rw [beq_self_eq_true]
    exact select_one A B
  · have hw : BitVec.ofNat 32 I * 1024#32 + BitVec.ofNat 32 a.val ≠ BitVec.ofNat 32 J * 1024#32 + BitVec.ofNat 32 b.val :=
      fun e => h (Fin.ext (by rw [hr, hs]; exact hiff.1 e))
    rw [if_neg h]
    show Scalar.select (BitVec.ofBool (_ == _)) A B = B
    rw [beq_eq_false_iff_ne.2 hw]
    exact select_zero A B

/-- Global row `1024 * (i 0) + a` of the row block's row `a` at grid point `i`. -/
def rowIdx (i : grid0.Coords) (a : Fin 1024) : Fin 8192 :=
  ⟨1024 * (i 0).val + a.val, by have h : (i 0).val < 8 := (i 0).isLt; have := a.isLt; omega⟩

/-- Global row `1024 * (i 1) + b` of the column block's row `b` at grid point `i`. -/
def colIdx (i : grid0.Coords) (b : Fin 1024) : Fin 8192 :=
  ⟨1024 * (i 1).val + b.val, by have h : (i 1).val < 8 := (i 1).isLt; have := b.isLt; omega⟩

/-- The column tile of grid point `i`. -/
def colTile (i : grid0.Coords) : Fin 8 := ⟨(i 1).val, (i 1).isLt⟩

/-- The tile of logits at `(a, b)`, when the two blocks hold real numbers: the entry of the similarity matrix at the
    global row and column. -/
theorem pay7_apply (p : Fin 8192 → Fin 256 → ℝ) (i : grid0.Coords) (x0 x1 : Vec Ideal S1024x256 .f32) (a b : Fin 1024)
    (r s : Fin 8192) (hr : r.val = 1024 * (i 0).val + a.val) (hs : s.val = 1024 * (i 1).val + b.val)
    (h0 : ∀ k : Fin 256, x0 (ix2 a k) = ((p r k : ℝ) : EReal)) (h1 : ∀ k : Fin 256, x1 (ix2 b k) = ((p s k : ℝ) : EReal)) :
    k0_pay7 (F := Ideal) i x0 x1 (ix2 a b) = ((Cert.Spec.x p r s : ℝ) : EReal) := by
  rw [pay7_raw, select_index (i 0).val (i 1).val (i 0).isLt (i 1).isLt a b r s hr hs]
  simp only [h0, h1]
  rw [Cert.Spec.dot_coe, Cert.Spec.nrm_coe, Cert.Spec.nrm_coe, Cert.Spec.eps_coe, Cert.Spec.den_coe, Cert.Spec.mask_coe,
    Cert.Spec.two_coe]
  exact Cert.Spec.entry_mul p r s

/-! ### (2) The tile's row maxima -/

/-- The tile's row maximum at row `a`: the fold of max from `⊥` over the row's entries. -/
theorem pay8_raw (i : grid0.Coords) (x0 x1 : Vec Ideal S1024x256 .f32) (a : Fin 1024) :
    k0_pay8 (F := Ideal) i x0 x1 (ix1 a)
      = (Finset.univ : Finset (Fin 1024)).fold max ⊥ (fun b => k0_pay7 (F := Ideal) i x0 x1 (ix2 a b)) := by
  unfold k0_pay8
  refine (ValueKeepdims.multiReduction_maximumf_row _ _ _ _ _ a).trans ?_
  rw [Cert.Spec.negInf_coe]

/-- With real blocks: the maximum of column tile `i 1` of row `r` of the similarity matrix, in the recurrence's form. -/
theorem pay8_apply (p : Fin 8192 → Fin 256 → ℝ) (i : grid0.Coords) (x0 x1 : Vec Ideal S1024x256 .f32) (a : Fin 1024)
    (h0 : ∀ k : Fin 256, x0 (ix2 a k) = ((p (rowIdx i a) k : ℝ) : EReal))
    (h1 : ∀ (b : Fin 1024) (k : Fin 256), x1 (ix2 b k) = ((p (colIdx i b) k : ℝ) : EReal)) :
    k0_pay8 (F := Ideal) i x0 x1 (ix1 a) = Cert.Lib.OnlineLse.cur (Cert.Spec.tile p (rowIdx i a)) (colTile i) := by
  rw [pay8_raw]
  unfold Cert.Lib.OnlineLse.cur
  refine congrArg (fun f => Finset.fold max (⊥ : EReal) f (Finset.univ : Finset (Fin 1024))) (funext fun b => ?_)
  rw [Cert.Spec.tile_eq p (rowIdx i a) (colTile i) b (colIdx i b)
    (show 1024 * (i 1).val + b.val = b.val + 1024 * (i 1).val from Nat.add_comm _ _)]
  exact pay7_apply p i x0 x1 a b (rowIdx i a) (colIdx i b) rfl rfl h0 (h1 b)

/-! ### (4) One column tile's update is one step of the recurrence -/

section Step

open Cert.Lib.OnlineLse

variable (p : Fin 8192 → Fin 256 → ℝ) (i : grid0.Coords) (x0 x1 : Vec Ideal S1024x256 .f32) (a : Fin 1024)

/-- The initial columns read the recurrence's start `(⊥, 0)`. -/
theorem init_apply (y : Fin 8 → Fin 1024 → ℝ) :
    k0_pay5 (F := Ideal) (ix2 a (0 : Fin 1)) = (run y 0).1 ∧ k0_pay6 (F := Ideal) (ix2 a (0 : Fin 1)) = (run y 0).2 :=
  ⟨pay5_apply a 0, pay6_apply a 0⟩

/-- The tile's logits at row `a`, in the recurrence's form. -/
theorem pay7_tile (h0 : ∀ k : Fin 256, x0 (ix2 a k) = ((p (rowIdx i a) k : ℝ) : EReal))
    (h1 : ∀ (b : Fin 1024) (k : Fin 256), x1 (ix2 b k) = ((p (colIdx i b) k : ℝ) : EReal)) (b : Fin 1024) :
    k0_pay7 (F := Ideal) i x0 x1 (ix2 a b) = ((Cert.Spec.tile p (rowIdx i a) (colTile i) b : ℝ) : EReal) := by
  rw [Cert.Spec.tile_eq p (rowIdx i a) (colTile i) b (colIdx i b)
    (show 1024 * (i 1).val + b.val = b.val + 1024 * (i 1).val from Nat.add_comm _ _)]
  exact pay7_apply p i x0 x1 a b (rowIdx i a) (colIdx i b) rfl rfl h0 (h1 b)

/-- If the two scratch columns read, at row `a`, the running pair of row `rowIdx i a` after the column tiles before
    `i 1`, then the stored new maximum and new sum read the pair after column tile `i 1` too. -/
theorem step_apply (vm vl : Vec Ideal S1024x1 .f32)
    (h0 : ∀ k : Fin 256, x0 (ix2 a k) = ((p (rowIdx i a) k : ℝ) : EReal))
    (h1 : ∀ (b : Fin 1024) (k : Fin 256), x1 (ix2 b k) = ((p (colIdx i b) k : ℝ) : EReal))
    (hm : vm (ix2 a (0 : Fin 1)) = (run (Cert.Spec.tile p (rowIdx i a)) (i 1).val).1)
    (hl : vl (ix2 a (0 : Fin 1)) = (run (Cert.Spec.tile p (rowIdx i a)) (i 1).val).2) :
    k0_pay3 (F := Ideal) (k0_pay8 i x0 x1) vm (ix2 a (0 : Fin 1))
        = (run (Cert.Spec.tile p (rowIdx i a)) ((i 1).val + 1)).1
      ∧ k0_pay2 (F := Ideal) (k0_pay7 i x0 x1) (k0_pay8 i x0 x1) vm vm vl (ix2 a (0 : Fin 1))
        = (run (Cert.Spec.tile p (rowIdx i a)) ((i 1).val + 1)).2 := by
  have hlt : (i 1).val < 8 := (i 1).isLt
  have hrun : run (Cert.Spec.tile p (rowIdx i a)) ((i 1).val + 1)
      = step (Cert.Spec.tile p (rowIdx i a)) (colTile i) (run (Cert.Spec.tile p (rowIdx i a)) (i 1).val) :=
    run_succ _ hlt
  rw [hrun, pay3_apply, pay2_apply, hm, hl, pay8_apply p i x0 x1 a h0 h1]
  refine ⟨rfl, ?_⟩
  simp only [pay7_tile p i x0 x1 a h0 h1]
  unfold step
  simp only [zero_add]

/-- After the last column tile the output column reads the row's log-sum-exp. -/
theorem out_apply (vm vl : Vec Ideal S1024x1 .f32)
    (hm : vm (ix2 a (0 : Fin 1)) = (run (Cert.Spec.tile p (rowIdx i a)) 8).1)
    (hl : vl (ix2 a (0 : Fin 1)) = (run (Cert.Spec.tile p (rowIdx i a)) 8).2) :
    k0_pay4 (F := Ideal) vm vl (ix2 a (0 : Fin 1)) = ((Cert.Spec.lse p (rowIdx i a) : ℝ) : EReal) := by
  rw [pay4_apply, hm, hl]
  exact Cert.Spec.kernel_row p (rowIdx i a)

end Step

end Cert.KPay
-- ==== Proof.KInduct.lean ====
/- The carried state is the online log-sum-exp recurrence: after the body at grid point t = 8 i + j the two scratch
   columns read, at row a, the running pair of row 1024 i + a of the similarity matrix after its column tiles 0 … j;
   hence at a last column tile (j = 7) the output block reads the row's log-sum-exp. By induction on the point:
   a first column tile starts from the initial columns, every other one from what the point before left, and within
   a row tile stepping from t - 1 to t keeps the row tile and advances the column tile by one. -/
import proofs.«126300_j66795331388029_1_alg».proof.Proof.KPiece
import proofs.«126300_j66795331388029_1_alg».proof.Proof.KOblig
import proofs.«126300_j66795331388029_1_alg».proof.Proof.KPay

set_option maxRecDepth 16384

noncomputable section

namespace Cert.KernelIdeal.Hand

open Cert.KernelIdeal Cert.KernelIdeal.Gen
open Idealize.ShloMosaic Idealize.ShloMosaic.ValueIdx
open Idealize.SL.Sem
open Cert.KPay Cert.Lib.OnlineLse

/-- The grid's coordinates: point `t` is row tile `t / 8`, column tile `t % 8`. -/
theorem coords_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

variable (m : (ℓ : Loc nD τ sig) → Buf (Elt Ideal) ℓ) (ρ : Dev nD → PrngReg) (p : Fin 8192 → Fin 256 → ℝ) (c : Dev nD)

/-- The two input blocks at every point hold the real numbers `p` at the point's global rows. -/
def BlocksReal : Prop :=
  (∀ (t : Fin cfg0.N) (a : Fin 1024) (k : Fin 256),
      (iblk m ρ c 0 t : Vec Ideal S1024x256 .f32) (ix2 a k) = ((p (rowIdx (grid0.coords t) a) k : ℝ) : EReal))
  ∧ (∀ (t : Fin cfg0.N) (b : Fin 1024) (k : Fin 256),
      (iblk m ρ c 1 t : Vec Ideal S1024x256 .f32) (ix2 b k) = ((p (colIdx (grid0.coords t) b) k : ℝ) : EReal))

/-- The running pair of the row at row `a` of point `t`'s row tile, after `k` column tiles. -/
abbrev pairAt (t : Fin cfg0.N) (a : Fin 1024) (k : ℕ) : EReal × EReal :=
  run (Cert.Spec.tile p (rowIdx (grid0.coords t) a)) k

variable {m ρ p c}

/-- One column tile: from a pair of columns reading the running pair before column tile `t % 8` to the new pair of
    columns reading it after. -/
theorem newSt_run (hb : BlocksReal m ρ p c) (t : Fin cfg0.N) (a : Fin 1024) (prev : St Ideal)
    (hm : prev.1 (ix2 a (0 : Fin 1)) = (pairAt p t a ((grid0.coords t) 1).val).1)
    (hl : prev.2 (ix2 a (0 : Fin 1)) = (pairAt p t a ((grid0.coords t) 1).val).2) :
    (newSt (grid0.coords t) (iblk m ρ c 0 t) (iblk m ρ c 1 t) prev).1 (ix2 a (0 : Fin 1))
        = (pairAt p t a (((grid0.coords t) 1).val + 1)).1
      ∧ (newSt (grid0.coords t) (iblk m ρ c 0 t) (iblk m ρ c 1 t) prev).2 (ix2 a (0 : Fin 1))
        = (pairAt p t a (((grid0.coords t) 1).val + 1)).2 :=
  step_apply p (grid0.coords t) (iblk m ρ c 0 t) (iblk m ρ c 1 t) a prev.1 prev.2 (hb.1 t a) (hb.2 t) hm hl

/-- Within a row tile, stepping from point `n` to point `n + 1` keeps the row and advances the column tile by one. -/
theorem pairAt_shift (p : Fin 8192 → Fin 256 → ℝ) (n : ℕ) (hn : n + 1 < cfg0.N) (h0 : ¬ (n + 1) % 8 = 0) (a : Fin 1024) :
    pairAt p ⟨n, Nat.lt_of_succ_lt hn⟩ a (((grid0.coords ⟨n, Nat.lt_of_succ_lt hn⟩) 1).val + 1)
      = pairAt p ⟨n + 1, hn⟩ a ((grid0.coords ⟨n + 1, hn⟩) 1).val := by
  have hc := coords_val ⟨n + 1, hn⟩
  have hc' := coords_val ⟨n, Nat.lt_of_succ_lt hn⟩
  have e1 : rowIdx (grid0.coords ⟨n, Nat.lt_of_succ_lt hn⟩) a = rowIdx (grid0.coords ⟨n + 1, hn⟩) a :=
    Fin.ext (by
      show 1024 * ((grid0.coords ⟨n, Nat.lt_of_succ_lt hn⟩) 0).val + a.val = 1024 * ((grid0.coords ⟨n + 1, hn⟩) 0).val + a.val
      rw [hc'.1, hc.1]
      show 1024 * (n / 8) + a.val = 1024 * ((n + 1) / 8) + a.val
      omega)
  have e2 : ((grid0.coords ⟨n, Nat.lt_of_succ_lt hn⟩) 1).val + 1 = ((grid0.coords ⟨n + 1, hn⟩) 1).val := by
    rw [hc'.2, hc.2]
    show n % 8 + 1 = (n + 1) % 8
    omega
  unfold pairAt
  rw [e1, e2]

/-- After the body at point `t` the scratch columns read, at row `a`, the running pair after column tiles `0 … t % 8`. -/
theorem stAt_run (hb : BlocksReal m ρ p c) : ∀ (n : ℕ) (hn : n < cfg0.N) (a : Fin 1024),
    (stAt m ρ c n hn).1 (ix2 a (0 : Fin 1)) = (pairAt p ⟨n, hn⟩ a (((grid0.coords ⟨n, hn⟩) 1).val + 1)).1
      ∧ (stAt m ρ c n hn).2 (ix2 a (0 : Fin 1)) = (pairAt p ⟨n, hn⟩ a (((grid0.coords ⟨n, hn⟩) 1).val + 1)).2 := by
  intro n
  induction n with
  | zero =>
    intro hn a
    have h1 : ((grid0.coords (⟨0, hn⟩ : Fin cfg0.N)) 1).val = 0 := (coords_val ⟨0, hn⟩).2
    have hA : stAt m ρ c 0 hn = newSt (grid0.coords ⟨0, hn⟩) (iblk m ρ c 0 ⟨0, hn⟩) (iblk m ρ c 1 ⟨0, hn⟩) ((k0_pay5 (F := Ideal), k0_pay6 (F := Ideal)) : St Ideal) :=
      (stAt_A m ρ c ⟨0, hn⟩ (Nat.zero_mod 8)).trans (stepA_eq m ρ c ⟨0, hn⟩ (Nat.zero_mod 8))
    rw [hA]
    exact newSt_run hb ⟨0, hn⟩ a ((k0_pay5 (F := Ideal), k0_pay6 (F := Ideal)) : St Ideal) (by rw [h1]; exact pay5_apply a 0) (by rw [h1]; exact pay6_apply a 0)
  | succ n ih =>
    intro hn a
    have hc := coords_val ⟨n + 1, hn⟩
    by_cases h0 : (n + 1) % 8 = 0
    · have h1 : ((grid0.coords (⟨n + 1, hn⟩ : Fin cfg0.N)) 1).val = 0 := hc.2.trans h0
      have hA : stAt m ρ c (n + 1) hn
          = newSt (grid0.coords ⟨n + 1, hn⟩) (iblk m ρ c 0 ⟨n + 1, hn⟩) (iblk m ρ c 1 ⟨n + 1, hn⟩) ((k0_pay5 (F := Ideal), k0_pay6 (F := Ideal)) : St Ideal) :=
        (stAt_A m ρ c ⟨n + 1, hn⟩ h0).trans (stepA_eq m ρ c ⟨n + 1, hn⟩ h0)
      rw [hA]
      exact newSt_run hb ⟨n + 1, hn⟩ a ((k0_pay5 (F := Ideal), k0_pay6 (F := Ideal)) : St Ideal) (by rw [h1]; exact pay5_apply a 0) (by rw [h1]; exact pay6_apply a 0)
    · have hn' : n < cfg0.N := Nat.lt_of_succ_lt hn
      have hprev := ih hn' a
      have hs := pairAt_shift p n hn h0 a
      have hm : (stAt m ρ c n hn').1 (ix2 a (0 : Fin 1)) = (pairAt p ⟨n + 1, hn⟩ a ((grid0.coords ⟨n + 1, hn⟩) 1).val).1 :=
        hprev.1.trans (congrArg Prod.fst hs)
      have hl : (stAt m ρ c n hn').2 (ix2 a (0 : Fin 1)) = (pairAt p ⟨n + 1, hn⟩ a ((grid0.coords ⟨n + 1, hn⟩) 1).val).2 :=
        hprev.2.trans (congrArg Prod.snd hs)
      by_cases h7 : (n + 1) % 8 = 7
      · have hC : stAt m ρ c (n + 1) hn
            = newSt (grid0.coords ⟨n + 1, hn⟩) (iblk m ρ c 0 ⟨n + 1, hn⟩) (iblk m ρ c 1 ⟨n + 1, hn⟩) (stAt m ρ c n hn') :=
          (stAt_C m ρ c ⟨n + 1, hn⟩ h0 h7).trans (stepC_eq m ρ c ⟨n + 1, hn⟩ h0 h7 _)
        rw [hC]
        exact newSt_run hb ⟨n + 1, hn⟩ a _ hm hl
      · have hB : stAt m ρ c (n + 1) hn
            = newSt (grid0.coords ⟨n + 1, hn⟩) (iblk m ρ c 0 ⟨n + 1, hn⟩) (iblk m ρ c 1 ⟨n + 1, hn⟩) (stAt m ρ c n hn') :=
          (stAt_B m ρ c ⟨n + 1, hn⟩ h0 h7).trans (stepB_eq m ρ c ⟨n + 1, hn⟩ h0 h7 _)
        rw [hB]
        exact newSt_run hb ⟨n + 1, hn⟩ a _ hm hl

/-- At a last column tile the output block reads, at row `a`, the log-sum-exp of row `1024 (t / 8) + a`. -/
theorem outAt_run (hb : BlocksReal m ρ p c) (t : Fin cfg0.N) (h7 : t.val % 8 = 7) (a : Fin 1024) :
    outAt m ρ c t (ix2 a (0 : Fin 1)) = ((Cert.Spec.lse p (rowIdx (grid0.coords t) a) : ℝ) : EReal) := by
  obtain ⟨n, hn⟩ := t
  cases n with
  | zero => exact absurd (show (0 : ℕ) % 8 = 7 from h7) (by decide)
  | succ n =>
    have h0 : ¬ (n + 1) % 8 = 0 := by
      have h7' : (n + 1) % 8 = 7 := h7
      omega
    have hn' : n < cfg0.N := Nat.lt_of_succ_lt hn
    have hprev := stAt_run hb n hn' a
    have hs := pairAt_shift p n hn h0 a
    have hnew := newSt_run hb ⟨n + 1, hn⟩ a (stAt m ρ c n hn') (hprev.1.trans (congrArg Prod.fst hs))
      (hprev.2.trans (congrArg Prod.snd hs))
    have h8 : ((grid0.coords (⟨n + 1, hn⟩ : Fin cfg0.N)) 1).val + 1 = 8 := by
      rw [(coords_val ⟨n + 1, hn⟩).2]
      show (n + 1) % 8 + 1 = 8
      have h7' : (n + 1) % 8 = 7 := h7
      omega
    rw [h8] at hnew
    have hO : outAt m ρ c ⟨n + 1, hn⟩
        = k0_pay4 (newSt (grid0.coords ⟨n + 1, hn⟩) (iblk m ρ c 0 ⟨n + 1, hn⟩) (iblk m ρ c 1 ⟨n + 1, hn⟩) (stAt m ρ c n hn')).1
            (newSt (grid0.coords ⟨n + 1, hn⟩) (iblk m ρ c 0 ⟨n + 1, hn⟩) (iblk m ρ c 1 ⟨n + 1, hn⟩) (stAt m ρ c n hn')).2 :=
      (outAt_C m ρ c ⟨n + 1, hn⟩ h0 h7).trans (outC_eq m ρ c ⟨n + 1, hn⟩ h0 h7 _)
    rw [hO]
    exact out_apply p (grid0.coords ⟨n + 1, hn⟩) a _ _ hnew.1 hnew.2

end Cert.KernelIdeal.Hand
-- ==== Proof.RefConcat.lean ====
/-
  The concatenation of two 4096 x 256 arrays along the rows, read at an index.

  Row r of the 8192 x 256 result is row r of the first array when r < 4096 and row r - 4096 of the
  second one otherwise; the column is unchanged. The statement is over any element type and any proof
  that the shapes concatenate, so it reads every program's concatenation of these two shapes.
-/
import Idealize.ShloMosaic.Lib.Pipeline.Value
import Idealize.ShloMosaic.Lib.ValueIdx

namespace Cert.RefConcat

open Idealize.ShloMosaic Idealize.ShloMosaic.ValueIdx

/-- The shape of one operand: 4096 rows of 256 features. -/
abbrev SHalf : Shape := ⟨2, ![4096, 256]⟩
/-- The shape of the concatenation: 8192 rows of 256 features. -/
abbrev SFull : Shape := ⟨2, ![8192, 256]⟩

/-- The concatenated rows as a function of row and feature: the first array's rows, then the second's. -/
def P {α : Type} (x2 x3 : SHalf.Idx → α) (r : Fin 8192) (k : Fin 256) : α :=
  if h : r.val < 4096 then x2 (ix2 (⟨r.val, h⟩ : Fin 4096) k)
  else x3 (ix2 (⟨r.val - 4096, by have := r.isLt; omega⟩ : Fin 4096) k)

/-- The concatenation at row r, feature k is P at r, k. -/
theorem concatenate_apply {α : Type} (x2 x3 : SHalf.Idx → α)
    (h : Shape.Concatenates [SHalf, SHalf] SFull 0) (r : Fin 8192) (k : Fin 256) :
    concatenate SFull 0 [⟨SHalf, x2⟩, ⟨SHalf, x3⟩] h (ix2 r k) = P x2 x3 r k := by
  unfold P
  by_cases hr : r.val < 4096
  · rw [dif_pos hr]
    refine concatenate_pair_apply_left 0 x2 x3 h (ix2 r k) rfl _ (fun b => ?_)
    match b with
    | ⟨0, _⟩ => rfl
    | ⟨1, _⟩ => rfl
  · rw [dif_neg hr]
    refine concatenate_pair_apply_right 0 x2 x3 h (ix2 r k) rfl rfl _ (fun b hb => ?_) ?_
    · match b with
      | ⟨0, _⟩ => exact absurd rfl hb
      | ⟨1, _⟩ => rfl
    · show r.val - 4096 + 4096 = r.val
      omega

/-- The same, at an arbitrary index of the result. -/
theorem concatenate_apply_idx {α : Type} (x2 x3 : SHalf.Idx → α)
    (h : Shape.Concatenates [SHalf, SHalf] SFull 0) (i : SFull.Idx) :
    concatenate SFull 0 [⟨SHalf, x2⟩, ⟨SHalf, x3⟩] h i = P x2 x3 (i 0) (i 1) := by
  have e : i = ix2 (i 0) (i 1) := eq_ix2 i
  rw [e]
  exact concatenate_apply x2 x3 h _ _

end Cert.RefConcat
-- ==== Proof.KBlocks.lean ====
/- The two input blocks of the kernel at a grid point, read off the concatenated projections: at point t = 8 i + j
   window 0's block holds rows 1024 i + a and window 1's block rows 1024 j + b of the 8192 x 256 array the host's
   concatenate wrote; so when every entry of that array is a real number, both blocks hold the reals' coercions. -/
import proofs.«126300_j66795331388029_1_alg».proof.Proof.KInduct
import proofs.«126300_j66795331388029_1_alg».proof.Proof.RefConcat
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable (m : (ℓ : Loc nD τ sig) → Buf (Elt F) ℓ) (ρ : Dev nD → PrngReg)

/-- When the region is entered the projections' array holds the concatenation of the last two arguments. -/
theorem V_v0 (c : Dev nD) :
    (V m ρ c main_v0 : S8192x256.Idx → Elt F .f32)
      = concatenate S8192x256 0 [⟨S4096x256, m ((c : Thread nD τ).loc main_arg2)⟩, ⟨S4096x256, m ((c : Thread nD τ).loc main_arg3)⟩] concatenates_S4096x256_S4096x256_S8192x256_d0 := by
  dsimp only [V, hostOps0]; after_results

/-- The index maps of the two input windows over the grid: block (i, 0) and block (j, 0). -/
theorem idx_in : ∀ t : Fin cfg0.N,
    win0_0.index t (0 : Fin 2) = ((grid0.coords t) 0).val ∧ win0_0.index t 1 = 0
      ∧ win0_1.index t (0 : Fin 2) = ((grid0.coords t) 1).val ∧ win0_1.index t 1 = 0 :=
  (by decide +kernel : ∀ t : Fin grid0.N,
    win0_0.index t (0 : Fin 2) = ((grid0.coords t) 0).val ∧ win0_0.index t 1 = 0
      ∧ win0_1.index t (0 : Fin 2) = ((grid0.coords t) 1).val ∧ win0_1.index t 1 = 0)

/-- Window 0's block at point `t`, entry (a, k), is the array's entry (1024 i + a, k). -/
theorem iblk0_apply (c : Dev nD) (t : Fin cfg0.N) (a : Fin 1024) (k : Fin 256) :
    (iblk m ρ c 0 t : Vec F S1024x256 .f32) (ix2 a k) = V m ρ c main_v0 (ix2 (Cert.KPay.rowIdx (grid0.coords t) a) k) := by
  unfold iblk
  rw [View.read_apply, cast_eq]
  show V m ρ c main_v0 (((cfg0.win 0).blk t).view.emb (ix2 a k)) = V m ρ c main_v0 (ix2 (Cert.KPay.rowIdx (grid0.coords t) a) k)
  refine congrArg (V m ρ c main_v0) (funext fun d => Fin.ext ?_)
  match d with
  | ⟨0, _⟩ =>
    show win0_0.index t 0 * 1024 + 1 * a.val = 1024 * ((grid0.coords t) 0).val + a.val
    rw [(idx_in t).1]; omega
  | ⟨1, _⟩ =>
    show win0_0.index t 1 * 256 + 1 * k.val = k.val
    rw [(idx_in t).2.1]; omega

/-- Window 1's block at point `t`, entry (b, k), is the array's entry (1024 j + b, k). -/
theorem iblk1_apply (c : Dev nD) (t : Fin cfg0.N) (b : Fin 1024) (k : Fin 256) :
    (iblk m ρ c 1 t : Vec F S1024x256 .f32) (ix2 b k) = V m ρ c main_v0 (ix2 (Cert.KPay.colIdx (grid0.coords t) b) k) := by
  unfold iblk
  rw [View.read_apply, cast_eq]
  show V m ρ c main_v0 (((cfg0.win 1).blk t).view.emb (ix2 b k)) = V m ρ c main_v0 (ix2 (Cert.KPay.colIdx (grid0.coords t) b) k)
  refine congrArg (V m ρ c main_v0) (funext fun d => Fin.ext ?_)
  match d with
  | ⟨0, _⟩ =>
    show win0_1.index t 0 * 1024 + 1 * b.val = 1024 * ((grid0.coords t) 1).val + b.val
    rw [(idx_in t).2.2.1]; omega
  | ⟨1, _⟩ =>
    show win0_1.index t 1 * 256 + 1 * k.val = k.val
    rw [(idx_in t).2.2.2]; omega

/-- The projections' array at row r, feature k: the concatenated rows. -/
theorem V_v0_apply (c : Dev nD) (r : Fin 8192) (k : Fin 256) :
    V m ρ c main_v0 (ix2 r k)
      = Cert.RefConcat.P (m ((c : Thread nD τ).loc main_arg2)) (m ((c : Thread nD τ).loc main_arg3)) r k := by
  have h := congrFun (V_v0 m ρ c) (ix2 r k)
  exact h.trans (Cert.RefConcat.concatenate_apply _ _ _ r k)

end Cert.KernelIdeal.Hand

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-- With real entries in the concatenated projections, both input blocks hold real numbers' coercions at every point. -/
theorem blocksReal (c : Dev nD) (p : Fin 8192 → Fin 256 → ℝ)
    (hp : ∀ r k, Cert.RefConcat.P (m ((c : Thread nD τ).loc main_arg2)) (m ((c : Thread nD τ).loc main_arg3)) r k = ((p r k : ℝ) : EReal)) :
    BlocksReal m ρ p c :=
  ⟨fun t a k => (iblk0_apply m ρ c t a k).trans ((V_v0_apply m ρ c _ k).trans (hp _ k)),
   fun t b k => (iblk1_apply m ρ c t b k).trans ((V_v0_apply m ρ c _ k).trans (hp _ k))⟩

end Cert.KernelIdeal.Hand

end
-- ==== Proof.KTail.lean ====
/- The host operations after the kernel's region, on the extended reals: the sum of the output column over both
   axes into a scalar, divided by 8192, added to 2e9. When the output column holds the rows' log-sum-exp values
   (real numbers), the result is the loss. -/
import proofs.«126300_j66795331388029_1_alg».proof.KernelIdeal
import proofs.«126300_j66795331388029_1_alg».proof.Proof.SpecLaws
import Idealize.ShloMosaic.Lib.ValueIdx
import Idealize.ShloMosaic.PureOps.Ideal.Laws

noncomputable section

namespace Cert.KernelIdeal.Hand

open Cert.KernelIdeal Idealize.ShloMosaic Idealize.ShloMosaic.ValueIdx

/-- The output column as it should end: at row `r` the log-sum-exp of row `r` of the similarity matrix. -/
def lseCol (p : Fin 8192 → Fin 256 → ℝ) : (⟨S8192x1, .f32⟩ : BufTy).Contents (Elt Ideal) :=
  fun i => ((Cert.Spec.lse p ⟨(i 0).val, (i 0).isLt⟩ : ℝ) : EReal)

theorem lseCol_ix2 (p : Fin 8192 → Fin 256 → ℝ) (r : Fin 8192) (u : Fin 1) :
    lseCol p (ix2 r u) = ((Cert.Spec.lse p r : ℝ) : EReal) := rfl

/-- The sum of the output column over both axes is the sum over the rows. -/
theorem sum_lseCol (p : Fin 8192 → Fin 256 → ℝ) :
    ∑ j : S8192x1.Idx, lseCol p j = ∑ r : Fin 8192, ((Cert.Spec.lse p r : ℝ) : EReal) := by
  rw [sum_idx2]
  refine Finset.sum_congr rfl fun r _ => ?_
  rw [Fin.sum_univ_one]
  rfl

/-- The tail of the host program applied to the column of log-sum-exp values is the loss. -/
theorem tail_eq (p : Fin 8192 → Fin 256 → ℝ) (hr : S8192x1.ReducesTo [0, 1] S_) (hs : 0 < S_.numel) :
    addf (F := Ideal) (constant (F := Ideal) S_ .f32 0x4EEE6B28#32)
        (Host.divf (F := Ideal) (Host.reduceAdd (F := Ideal) (lseCol p) (constant (F := Ideal) S_ .f32 0x00000000#32) hr hs)
          (constant (F := Ideal) S_ .f32 0x46000000#32))
      = fun _ => ((Cert.Spec.loss p : ℝ) : EReal) := by
  funext i
  have hsum : Host.reduceAdd (F := Ideal) (lseCol p) (constant (F := Ideal) S_ .f32 0x00000000#32) hr hs i
      = (0 : EReal) + ∑ r : Fin 8192, ((Cert.Spec.lse p r : ℝ) : EReal) := by
    have h1 : Host.reduceAdd (F := Ideal) (lseCol p) (constant (F := Ideal) S_ .f32 0x00000000#32) hr hs i
        = (constant (F := Ideal) S_ .f32 0x00000000#32) (Shape.Idx.first hs) + ∑ j : S8192x1.Idx, lseCol p j := by
      simp only [Host.reduceAdd, Ideal.hostReduceAdd_def]
      exact Ideal.hostReduceAdd_total hr (fun b => b.elim0) (lseCol p) _ i
    rw [h1, sum_lseCol]
    show Ideal.ofBits .f32 0x00000000#32 + _ = _
    rw [Ideal.ofBits_zero_f32]
  show Ideal.ofBits .f32 0x4EEE6B28#32
      + Ideal.div (Host.reduceAdd (F := Ideal) (lseCol p) (constant (F := Ideal) S_ .f32 0x00000000#32) hr hs i)
          (Ideal.ofBits .f32 0x46000000#32) = _
  rw [hsum, Cert.Spec.shift_coe, Cert.Spec.n_coe]
  exact Cert.Spec.kernel_result p

end Cert.KernelIdeal.Hand
-- ==== Proof.KFinal.lean ====
/- The output array when the kernel's region is left: every row tile's last column tile writes its block back, the
   eight blocks tile the [8192, 1] array, and block i holds at row a the log-sum-exp of row 1024 i + a of the
   similarity matrix; so the array is the column of the rows' log-sum-exp values. -/
import proofs.«126300_j66795331388029_1_alg».proof.Proof.KLaunch
import proofs.«126300_j66795331388029_1_alg».proof.Proof.KInduct
import proofs.«126300_j66795331388029_1_alg».proof.Proof.KTail
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open Idealize.ShloMosaic.TcCoe
open Idealize.SL.Sem
open Idealize.ShloMosaic.Pipeline (Dat Cfg Window)
open Cert.KPay

variable {m : (ℓ : Loc nD τ sig) → Buf (Elt Ideal) ℓ} {ρ : Dev nD → PrngReg} {p : Fin 8192 → Fin 256 → ℝ} {c : Dev nD}

/-- The output window's block index over the grid: the row tile on axis 0, zero on axis 1. -/
theorem out_index : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- At a last column tile the output block holds, at row `y 0`, the log-sum-exp of row `1024 (t / 8) + y 0`. -/
theorem outAt_block (hb : BlocksReal m ρ p c) (t : Fin cfg0.N) (h7 : t.val % 8 = 7) (y : S1024x1.Idx) (r : Fin 8192)
    (hr : r.val = t.val / 8 * 1024 + 1 * (y 0).val) :
    outAt m ρ c t y = ((Cert.Spec.lse p r : ℝ) : EReal) := by
  obtain ⟨a, u, rfl⟩ : ∃ (a : Fin 1024) (u : Fin 1), y = ix2 a u := ⟨y 0, y 1, eq_ix2 y⟩
  obtain rfl : u = 0 := Subsingleton.elim _ _
  rw [outAt_run hb t h7 a]
  have e : rowIdx (grid0.coords t) a = r :=
    Fin.ext (by
      show 1024 * ((grid0.coords t) 0).val + a.val = r.val
      rw [(coords_val t).1, hr]
      show 1024 * (t.val / 8) + a.val = t.val / 8 * 1024 + 1 * a.val
      omega)
  rw [e]

/-- What a last column tile writes back is its block of the column of log-sum-exp values. -/
theorem flushed_eq (hb : BlocksReal m ρ p c) (t : Fin cfg0.N) (hf : (cfg0.win 2).flush t = true) :
    (dats m ρ 0 c).flushed 2 t = ((cfg0.win 2).blk t).view.read (Elt Ideal) (lseCol p) := by
  have h7 : t.val % 8 = 7 := (flush0_2 t).mp hf
  show (cfg0.win 2).cut (grid0.coords t) ((dats m ρ 0 c).after 2 t) = _
  rw [after_2]
  funext y
  show outAt m ρ c t y = lseCol p (((cfg0.win 2).blk t).view.emb y)
  refine outAt_block hb t h7 y _ ?_
  show (((cfg0.win 2).blk t).view.emb y 0).val = t.val / 8 * 1024 + 1 * (y 0).val
  show win0_2.index t (0 : Fin 2) * 1024 + 1 * (y 0).val = _
  rw [(out_index t).1]

/-- An index of the output array is in point `t`'s block iff each coordinate is in the block's range on its axis. -/
theorem mem_out_blk (t : Fin cfg0.N) (i : S8192x1.Idx) :
    i ∈ ((cfg0.win 2).blk t).view.set
      ↔ ∀ a : Fin 2, win0_2.index t a * S1024x1.size a ≤ (i a).val
          ∧ (i a).val < win0_2.index t a * S1024x1.size a + S1024x1.size a := by
  show i ∈ ((View.whole main_v1).slice (win0_2.rect t)).set ↔ _
  rw [View.set_slice_whole, Rect.mem_set_unit]
  exact Iff.rfl

/-- Every row of the output array is in the block some last column tile writes back: row `r` in that of point
    `8 (r / 1024) + 7`. -/
theorem out_cover (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 64 := rfl
  refine ⟨⟨8 * ((i 0).val / 1024) + 7, by rw [hN]; omega⟩, ?_, ?_⟩
  · rw [flush0_2]
    show (8 * ((i 0).val / 1024) + 7) % 8 = 7
    omega
  · rw [mem_out_blk]
    obtain ⟨e0, e1⟩ := out_index ⟨8 * ((i 0).val / 1024) + 7, by rw [hN]; omega⟩
    intro a
    match a with
    | ⟨0, _⟩ =>
      show win0_2.index _ (0 : Fin 2) * 1024 ≤ (i 0).val ∧ (i 0).val < win0_2.index _ (0 : Fin 2) * 1024 + 1024
      rw [e0]
      show (8 * ((i 0).val / 1024) + 7) / 8 * 1024 ≤ (i 0).val ∧ (i 0).val < (8 * ((i 0).val / 1024) + 7) / 8 * 1024 + 1024
      omega
    | ⟨1, _⟩ =>
      show win0_2.index _ (1 : Fin 2) * 1 ≤ (i 1).val ∧ (i 1).val < win0_2.index _ (1 : Fin 2) * 1 + 1
      rw [e1]
      omega

/-- THE OUTPUT ARRAY when the region is left: the column of the rows' log-sum-exp values. -/
theorem final_eq (hb : BlocksReal m ρ p c) : finalOut m ρ c = lseCol p :=
  (dats m ρ 0 c).arrAt_eq_of_cover 2 (lseCol p) (fun t hf => flushed_eq hb t hf) out_cover

end Cert.KernelIdeal.Hand
-- ==== Proof.KValue.lean ====
/- The kernel's result as one real number: when every entry of the concatenated projections is real, the output
   array the region leaves is the column of the rows' log-sum-exps, and the host tail of that column is the loss. -/
import proofs.«126300_j66795331388029_1_alg».proof.Proof.KRun
import proofs.«126300_j66795331388029_1_alg».proof.Proof.KBlocks
import proofs.«126300_j66795331388029_1_alg».proof.Proof.KFinal

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- With real entries `p` in the concatenated projections the kernel's result is `loss p`. -/
theorem kernel_value (c : Dev nD) (p : Fin 8192 → Fin 256 → ℝ)
    (hp : ∀ r k, Cert.RefConcat.P (m ((c : Thread nD τ).loc main_arg2)) (m ((c : Thread nD τ).loc main_arg3)) r k = ((p r k : ℝ) : EReal)) :
    tailOf (finalOut m ρ c) = fun _ => ((Cert.Spec.loss p : ℝ) : EReal) := by
  unfold tailOf
  rw [final_eq (blocksReal m ρ c p hp)]
  exact tail_eq p _ _

end Cert.KernelIdeal.Hand

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.RefFinite.lean ====
/-
  From the precondition "every input entry is finite" to real entries.

  The precondition is the conjunction, over the four arguments, of "every entry x of the argument has
  |x| < +inf". On the extended reals that says every entry is a real number. Only the last two arguments
  (the two 4096 x 256 projections) are read by the programs, so only their conjuncts are used: every
  entry of the concatenated 8192 x 256 array is then the coercion of a real number.
-/
import proofs.«126300_j66795331388029_1_alg».proof.Pre_finite_inputs
import proofs.«126300_j66795331388029_1_alg».proof.Proof.LibFiniteEntry
import proofs.«126300_j66795331388029_1_alg».proof.Proof.RefConcat
import Idealize.ShloMosaic.Lib.ValueIdx

noncomputable section

namespace Cert.RefFinite

open Idealize.ShloMosaic Idealize.ShloMosaic.ValueIdx Cert.Pre_finite_inputs Cert.Lib.FiniteEntry

variable [Cert.Pre_finite_inputs.Facts]
open Cert.Pre_finite_inputs.Facts

/-- Under the precondition every entry of the third and of the fourth argument is a real number. -/
theorem entries_real (a0 a1 : FVec Ideal S4096x512 .f32) (a2 a3 : FVec Ideal S4096x256 .f32)
    (h : Cert.Pre_finite_inputs.fn (F := Ideal) a0 a1 a2 a3 = (fun _ => 1#1)) :
    (∀ i, ∃ v : ℝ, a2 i = (v : EReal)) ∧ (∀ i, ∃ v : ℝ, a3 i = (v : EReal)) := by
  have h0 := congrFun h ix0
  -- the result bit is ((t0 and t1) and t2) and t3, t_n the reduction by "and" of argument n's test
  change IntOp.andi (IntOp.andi _
      (Host.reduce IntOp.andi (cmpf .olt (Host.absf a2)
        (broadcastInDim S4096x256 ![] bcast_S_S4096x256 (constant (F := Ideal) S_ .f32 0x7F800000#32)))
        (constantI S_ 1 1#1) reducesTo_S4096x256_S_d0_1 h_S_ ix0))
      (Host.reduce IntOp.andi (cmpf .olt (Host.absf a3)
        (broadcastInDim S4096x256 ![] bcast_S_S4096x256 (constant (F := Ideal) S_ .f32 0x7F800000#32)))
        (constantI S_ 1 1#1) reducesTo_S4096x256_S_d0_1 h_S_ ix0) = 1#1 at h0
  obtain ⟨h1, h3⟩ := IntOp.andi_eq_one.1 h0
  obtain ⟨_, h2⟩ := IntOp.andi_eq_one.1 h1
  exact ⟨fun i => entry_real bcast_S_S4096x256 a2 i (Host.reduce_andi_all _ _ _ _ ix0 h2 i),
    fun i => entry_real bcast_S_S4096x256 a3 i (Host.reduce_andi_all _ _ _ _ ix0 h3 i)⟩

/-- Under the precondition the concatenated rows are the coercion of a real 8192 x 256 array. -/
theorem exists_real (a0 a1 : FVec Ideal S4096x512 .f32) (a2 a3 : FVec Ideal S4096x256 .f32)
    (h : Cert.Pre_finite_inputs.fn (F := Ideal) a0 a1 a2 a3 = (fun _ => 1#1)) :
    ∃ p : Fin 8192 → Fin 256 → ℝ, ∀ r k, Cert.RefConcat.P a2 a3 r k = ((p r k : ℝ) : EReal) := by
  obtain ⟨h2, h3⟩ := entries_real a0 a1 a2 a3 h
  have hP : ∀ r k, ∃ v : ℝ, Cert.RefConcat.P a2 a3 r k = (v : EReal) := by
    intro r k
    unfold Cert.RefConcat.P
    split
    · exact h2 _
    · exact h3 _
  choose p hp using hP
  exact ⟨p, hp⟩

end Cert.RefFinite

end
-- ==== Proof.RefRead.lean ====
/-
  The reference program's result read back to a formula on the extended reals.

  With P the concatenation of the two 4096 x 256 arguments (8192 rows of 256 features), the reference forms
    dot r s  = sum over k of P r k * P s k,          nrm r = sqrt (sum over k of P r k * P r k),
    y r s    = (if r = s then the mask constant else dot r s / max (nrm r * nrm s) eps) / (1/2),
    Mx r     = max -inf (the maximum over s of y r s, folded from -inf),
    Sx r     = 0 + sum over s of exp (y r s - Mx r),
    logp r s = (y r s - Mx r) - log (Sx r),
  gathers logp at the diagonal (the gather's start indices are the row numbers, so every one is in range and the
  fill value is never selected), and returns -((0 + sum over r of logp r r) / 8192). The f32 constants are kept as
  the words the program names; what real numbers they denote is used where the formula is evaluated.
-/
import proofs.«126300_j66795331388029_1_alg».proof.Proof.RefReadP
import proofs.«126300_j66795331388029_1_alg».proof.Proof.RefConcat
import Idealize.ShloMosaic.Lib.ReduceAll

noncomputable section

namespace Cert.RefRead

open Cert.ReferenceIdeal Cert.ReferenceIdeal.Gen Cert.ReferenceIdeal.ReadP Idealize.ShloMosaic Idealize.ShloMosaic.ValueIdx
open scoped BigOperators

/-! ### The formula -/

/-- The inner product of rows r and s. -/
def dotE (q : Fin 8192 → Fin 256 → EReal) (r s : Fin 8192) : EReal := ∑ k, q r k * q s k
/-- The norm of row r. -/
def nrmE (q : Fin 8192 → Fin 256 → EReal) (r : Fin 8192) : EReal := Ideal.sqrt (∑ k, q r k * q r k)
/-- The cosine similarity of rows r and s, the product of the norms bounded below by eps. -/
def cosE (q : Fin 8192 → Fin 256 → EReal) (r s : Fin 8192) : EReal :=
  Ideal.div (dotE q r s) (max (nrmE q r * nrmE q s) (Ideal.ofBits .f32 0x322BCC77#32))
/-- The masked similarity over one half. -/
def yE (q : Fin 8192 → Fin 256 → EReal) (r s : Fin 8192) : EReal :=
  Ideal.div (if r = s then Ideal.ofBits .f32 0xCE6E6B28#32 else cosE q r s) (Ideal.ofBits .f32 0x3F000000#32)
/-- The row maximum as log_softmax forms it. -/
def MxE (q : Fin 8192 → Fin 256 → EReal) (r : Fin 8192) : EReal :=
  max (Ideal.ofBits .f32 0xFF800000#32)
    ((Finset.univ : Finset (Fin 8192)).fold max (Ideal.ofBits .f32 0xFF800000#32) fun s => yE q r s)
/-- The row's sum of shifted exponentials. -/
def SxE (q : Fin 8192 → Fin 256 → EReal) (r : Fin 8192) : EReal := 0 + ∑ s, Ideal.exp (yE q r s - MxE q r)
/-- The log-probability at (r, s). -/
def logpE (q : Fin 8192 → Fin 256 → EReal) (r s : Fin 8192) : EReal := (yE q r s - MxE q r) - Ideal.log (SxE q r)
/-- The reference's result. -/
def resE (q : Fin 8192 → Fin 256 → EReal) : EReal :=
  -(Ideal.div (0 + ∑ r, logpE q r r) (Ideal.ofBits .f32 0x46000000#32))

variable (x2 x3 : (⟨S4096x256, .f32⟩ : BufTy).Contents (Elt Ideal))

/-! ### The entries -/

/-- The concatenation at (r, k). -/
theorem v0_apply (r : Fin 8192) (k : Fin 256) :
    val_main_v0 (F := Ideal) x2 x3 (ix2 r k) = Cert.RefConcat.P x2 x3 r k :=
  Cert.RefConcat.concatenate_apply x2 x3 _ r k

/-- The row norms. -/
theorem v1_apply (r : Fin 8192) :
    val_main_v1 (F := Ideal) x2 x3 (ix1 r) = nrmE (Cert.RefConcat.P x2 x3) r := by
  rw [val_main_v1_apply, val_main_call0_v1_apply]
  simp only [val_main_call0_cst_apply, val_main_call0_v0_apply, Ideal.hostUnary_sqrt_def, Ideal.ofBits_def,
    Ideal.mulf_def, Ideal.ofBits_zero_f32, zero_add]
  unfold nrmE
  refine congrArg Ideal.sqrt (Finset.sum_congr rfl fun k _ => ?_)
  rw [show idx_main_call0_v1 (ix1 r) k = ix2 r k from funext fun a => by match a with | ⟨0, _⟩ => rfl | ⟨1, _⟩ => rfl,
    v0_apply]

/-- The Gram matrix. -/
theorem v3_apply (r s : Fin 8192) :
    val_main_v3 (F := Ideal) x2 x3 (ix2 r s) = dotE (Cert.RefConcat.P x2 x3) r s := by
  rw [val_main_v3_apply]
  unfold dotE
  refine Finset.sum_congr rfl fun k _ => ?_
  rw [val_main_v2_apply,
    show lidx_main_v3 (ix2 r s) k = ix2 r k from funext fun a => by match a with | ⟨0, _⟩ => rfl | ⟨1, _⟩ => rfl,
    show idx_main_v2 (ridx_main_v3 (ix2 r s) k) = ix2 s k from funext fun a => by match a with | ⟨0, _⟩ => rfl | ⟨1, _⟩ => rfl,
    v0_apply, v0_apply]

/-- The denominator: the product of the norms bounded below by eps. -/
theorem v10_apply (r s : Fin 8192) :
    val_main_v10 (F := Ideal) x2 x3 (ix2 r s)
      = max (nrmE (Cert.RefConcat.P x2 x3) r * nrmE (Cert.RefConcat.P x2 x3) s) (Ideal.ofBits .f32 0x322BCC77#32) := by
  rw [val_main_v10_apply, val_main_v8_apply, val_main_v6_apply, val_main_v7_apply, val_main_v4_apply, val_main_v5_apply,
    val_main_v9_apply, val_main_cst_apply]
  simp only [Ideal.maximumf_def, Ideal.mulf_def, Ideal.ofBits_def]
  rw [show idx_main_v4 (idx_main_v6 (ix2 r s)) = ix1 r from funext fun a => by match a with | ⟨0, _⟩ => rfl,
    show idx_main_v5 (idx_main_v7 (ix2 r s)) = ix1 s from funext fun a => by match a with | ⟨0, _⟩ => rfl,
    v1_apply, v1_apply]

/-- The cosine similarity. -/
theorem v11_apply (r s : Fin 8192) :
    val_main_v11 (F := Ideal) x2 x3 (ix2 r s) = cosE (Cert.RefConcat.P x2 x3) r s := by
  rw [val_main_v11_apply, v3_apply, v10_apply]
  rfl

/-! ### Row and column numbers as 32-bit words -/

/-- A row number below 8192 is its word's unsigned value … -/
theorem ofNat_toNat (r : Fin 8192) : (BitVec.ofNat 32 r.val).toNat = r.val := by
  rw [BitVec.toNat_ofNat]; exact Nat.mod_eq_of_lt (by have := r.isLt; omega)

/-- … and its signed value. -/
theorem ofNat_toInt (r : Fin 8192) : (BitVec.ofNat 32 r.val).toInt = (r.val : Int) := by
  have h := ofNat_toNat r
  have hr := r.isLt
  rw [BitVec.toInt_eq_toNat_cond, h]
  split <;> omega

/-- Two row numbers with one word are equal. -/
theorem ofNat_inj (r s : Fin 8192) : BitVec.ofNat 32 r.val = BitVec.ofNat 32 s.val ↔ r = s := by
  constructor
  · intro h
    have := congrArg BitVec.toNat h
    rw [ofNat_toNat, ofNat_toNat] at this
    exact Fin.ext this
  · rintro rfl; rfl

/-! ### The mask and the division by one half -/

/-- The diagonal's bit: row number plus zero against column number. -/
theorem v16_apply (r s : Fin 8192) :
    val_main_v16 (F := Ideal) (ix2 r s) = if r = s then 1#1 else 0#1 := by
  rw [val_main_v16_apply, val_main_v15_apply, val_main_v12_apply, val_main_v13_apply, val_main_v14_apply,
    val_main_c_apply]
  show IntOp.cmpi .eq (IntOp.addi (BitVec.ofNat 32 r.val) 0#32) (BitVec.ofNat 32 s.val) = _
  rw [show IntOp.addi (BitVec.ofNat 32 r.val) 0#32 = BitVec.ofNat 32 r.val from BitVec.add_zero _]
  by_cases h : r = s
  · rw [if_pos h]; exact IntOp.cmpi_eq.2 ((ofNat_inj r s).2 h)
  · rw [if_neg h]; exact eq_zero_of_ne_one fun e => h ((ofNat_inj r s).1 (IntOp.cmpi_eq.1 e))

/-- The masked similarity over one half. -/
theorem v19_apply (r s : Fin 8192) :
    val_main_v19 (F := Ideal) x2 x3 (ix2 r s) = yE (Cert.RefConcat.P x2 x3) r s := by
  rw [val_main_v19_apply, val_main_v17_apply, v16_apply, v11_apply, val_main_call1_v0_apply, val_main_cst_0_apply,
    val_main_v18_apply, val_main_cst_1_apply]
  simp only [Ideal.hostDivf_def, Ideal.ofBits_def]
  unfold yE
  by_cases h : r = s
  · rw [if_pos h, if_pos h, select_one]
  · rw [if_neg h, if_neg h, select_zero]

/-! ### log_softmax along the rows -/

theorem reduces_d1 : S8192x8192.Reduces [1] S8192 := by decide

/-- Column k inserted into row number r is the index (r, k). -/
theorem lift_d1 (r : Fin 8192) (k : Fin (S8192x8192.size 1)) :
    reduces_d1.lift (ix1 r) k = (ix2 r (k : Fin 8192) : S8192x8192.Idx) := by
  funext c
  refine Fin.ext ?_
  match c with
  | ⟨0, _⟩ => rfl
  | ⟨1, _⟩ => rfl

/-- The reduction by maximum along a row: the fold of max from the initial word over the row's columns. -/
theorem call2_v0_apply (r : Fin 8192) :
    val_main_call2_v0 (F := Ideal) x2 x3 (ix1 r)
      = (Finset.univ : Finset (Fin 8192)).fold max (Ideal.ofBits .f32 0xFF800000#32)
          fun s => yE (Cert.RefConcat.P x2 x3) r s := by
  unfold val_main_call2_v0
  rw [Host.reduce_eq_fold_single FloatOps.maximumf _ _ reducesTo_S8192x8192_S8192_d1 reduces_d1 h_S_ (ix1 r)]
  show (Finset.univ : Finset (Fin 8192)).fold max (Ideal.ofBits .f32 0xFF800000#32)
    (fun s => val_main_v19 (F := Ideal) x2 x3 (reduces_d1.lift (ix1 r) s)) = _
  refine Finset.fold_congr fun s _ => ?_
  exact (congrArg (val_main_v19 (F := Ideal) x2 x3) (lift_d1 r s)).trans (v19_apply x2 x3 r s)

/-- The row maximum. -/
theorem call2_v2_apply (r : Fin 8192) :
    val_main_call2_v2 (F := Ideal) x2 x3 (ix1 r) = MxE (Cert.RefConcat.P x2 x3) r := by
  rw [val_main_call2_v2_apply, call2_v0_apply, val_main_call2_v1_apply, val_main_call2_cst_0_apply]
  rfl

/-- The shifted entry. -/
theorem call2_v5_apply (r s : Fin 8192) :
    val_main_call2_v5 (F := Ideal) x2 x3 (ix2 r s)
      = yE (Cert.RefConcat.P x2 x3) r s - MxE (Cert.RefConcat.P x2 x3) r := by
  rw [val_main_call2_v5_apply, v19_apply, val_main_call2_v4_apply, val_main_call2_v3_apply,
    show idx_main_call2_v3 (idx_main_call2_v4 (ix2 r s)) = ix1 r from funext fun a => by match a with | ⟨0, _⟩ => rfl,
    call2_v2_apply]
  rfl

/-- The row's sum of shifted exponentials. -/
theorem call2_v7_apply (r : Fin 8192) :
    val_main_call2_v7 (F := Ideal) x2 x3 (ix1 r) = SxE (Cert.RefConcat.P x2 x3) r := by
  rw [val_main_call2_v7_apply, val_main_call2_cst_1_apply]
  simp only [Ideal.ofBits_def, Ideal.ofBits_zero_f32]
  unfold SxE
  refine congrArg (0 + ·) (Finset.sum_congr rfl fun s _ => ?_)
  rw [val_main_call2_v6_apply,
    show idx_main_call2_v7 (ix1 r) s = ix2 r s from funext fun a => by match a with | ⟨0, _⟩ => rfl | ⟨1, _⟩ => rfl,
    call2_v5_apply]
  rfl

/-- The log-probability at (r, s). -/
theorem v21_apply (r s : Fin 8192) :
    val_main_v21 (F := Ideal) x2 x3 (ix2 r s) = logpE (Cert.RefConcat.P x2 x3) r s := by
  rw [val_main_v21_apply, call2_v5_apply, val_main_call2_v10_apply, val_main_call2_v9_apply, val_main_call2_v8_apply,
    show idx_main_call2_v8 (idx_main_call2_v10 (ix2 r s)) = ix1 r from funext fun a => by match a with | ⟨0, _⟩ => rfl,
    call2_v7_apply]
  rfl

/-! ### take_along_axis at the diagonal -/

/-- The normalised index of row j: the row number itself (it is never negative, so 8192 is never added). -/
theorem call3_v4_apply' (j : S8192x1.Idx) :
    val_main_call3_v4 (F := Ideal) j = BitVec.ofNat 32 (j 0).val := by
  rw [val_main_call3_v4_apply, val_main_call3_v1_apply, val_main_v22_apply, val_main_v20_apply,
    val_main_call3_v0_apply, val_main_call3_c_apply]
  have h0 : IntOp.cmpi .slt (BitVec.ofNat 32 (j 0).val) 0#32 = 0#1 := by
    refine eq_zero_of_ne_one fun e => ?_
    have := IntOp.cmpi_slt.1 e
    rw [ofNat_toInt (j 0 : Fin 8192)] at this
    have h00 : (0#32 : BitVec 32).toInt = 0 := by decide
    omega
  show Scalar.select (IntOp.cmpi .slt (BitVec.ofNat 32 (j 0).val) 0#32) _ (BitVec.ofNat 32 (j 0).val) = _
  rw [h0, select_zero]

/-- The start index of the gather at (r, ·, ·): the row number r. -/
theorem call3_v5_apply' (i : S8192x1x1.Idx) :
    val_main_call3_v5 (F := Ideal) i = BitVec.ofNat 32 (i 0).val := by
  rw [val_main_call3_v5_apply, call3_v4_apply']
  refine congrArg (BitVec.ofNat 32) ?_
  show (((i 0).val * 1 + (i 1).val) * 1 + (i 2).val) / 1 = (i 0).val
  have h1 : (i 1).val < 1 := (i 1).isLt
  have h2 : (i 2).val < 1 := (i 2).isLt
  omega

/-- Every start index lies in [0, 8191]. -/
theorem call3_v11_apply' (i : S8192x1x1.Idx) : val_main_call3_v11 (F := Ideal) i = 1#1 := by
  rw [val_main_call3_v11_apply, val_main_call3_v7_apply, val_main_call3_v10_apply, call3_v5_apply',
    val_main_call3_v6_apply, val_main_call3_c_2_apply, val_main_call3_v9_apply, val_main_call3_v8_apply,
    val_main_call3_c_1_apply]
  have hi : (i 0).val < 8192 := (i 0).isLt
  have h0 : (0#32 : BitVec 32).toInt = 0 := by decide
  have h1 : (8191#32 : BitVec 32).toInt = 8191 := by decide
  refine IntOp.andi_eq_one.2 ⟨IntOp.cmpi_sge.2 ?_, IntOp.cmpi_sle.2 ?_⟩
  · rw [ofNat_toInt (i 0 : Fin 8192), h0]; omega
  · rw [ofNat_toInt (i 0 : Fin 8192), h1]; omega

/-- A reduction by "and" of an array of ones, from one, is one. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx a]
    exact ih

/-- The bounds test is one at every row. -/
theorem call3_v12_apply' (j : S8192x1.Idx) : val_main_call3_v12 (F := Ideal) j = 1#1 :=
  reduce_andi_of_all _ _ _ _ j (fun i => call3_v11_apply' i) rfl

/-- take_along_axis's gather at (r, z): the operand at row r, at the column the start index (r, z, 0) names, read signed
    and clamped into [0, 8191]. -/
theorem gather_apply {α : Type} (x : S8192x8192.Idx → α) (idx : IVec S8192x1x1 32) (r : Fin 8192) (z : Fin 1) :
    Host.gather gather_S8192x8192_S8192x1x1_S8192x1_n_1_0_0_1_2_11 x idx (ix2 r z)
      = x (ix2 r (⟨min (idx (ix3 r z (0 : Fin 1))).toInt.toNat 8191, by omega⟩ : Fin 8192)) := by
  unfold Host.gather
  congr 1
  funext a
  refine Fin.ext ?_
  match a with
  | ⟨0, _⟩ =>
    have h1 : gather_S8192x8192_S8192x1x1_S8192x1_n_1_0_0_1_2_11.start (ix2 r z) idx (0 : Fin 2) = 0 := rfl
    have h2 : gather_S8192x8192_S8192x1x1_S8192x1_n_1_0_0_1_2_11.batchCoord (ix2 r z) (0 : Fin 2) = r.val := rfl
    have h3 : gather_S8192x8192_S8192x1x1_S8192x1_n_1_0_0_1_2_11.offCoord (ix2 r z) (0 : Fin 2) = 0 := rfl
    show gather_S8192x8192_S8192x1x1_S8192x1_n_1_0_0_1_2_11.start (ix2 r z) idx (0 : Fin 2)
      + gather_S8192x8192_S8192x1x1_S8192x1_n_1_0_0_1_2_11.batchCoord (ix2 r z) (0 : Fin 2)
      + gather_S8192x8192_S8192x1x1_S8192x1_n_1_0_0_1_2_11.offCoord (ix2 r z) (0 : Fin 2) = r.val
    rw [h1, h2, h3]; omega
  | ⟨1, _⟩ =>
    have h1 : gather_S8192x8192_S8192x1x1_S8192x1_n_1_0_0_1_2_11.start (ix2 r z) idx (1 : Fin 2)
        = min (idx (ix3 r z (0 : Fin 1))).toInt.toNat 8191 := by
      unfold GatherDims.start
      rw [dif_pos (show (1 : Fin 2) ∈ gather_S8192x8192_S8192x1x1_S8192x1_n_1_0_0_1_2_11.startIndexMap from
        List.mem_singleton.mpr rfl)]
      have hsi : gather_S8192x8192_S8192x1x1_S8192x1_n_1_0_0_1_2_11.siIdx (ix2 r z)
          ⟨List.idxOf (1 : Fin 2) gather_S8192x8192_S8192x1x1_S8192x1_n_1_0_0_1_2_11.startIndexMap,
            List.idxOf_lt_length_iff.2 (List.mem_singleton.mpr rfl)⟩ = ix3 r z (0 : Fin 1) := by
        funext b; refine Fin.ext ?_
        match b with
        | ⟨0, _⟩ => rfl
        | ⟨1, _⟩ => rfl
        | ⟨2, _⟩ => rfl
      rw [hsi]
      rfl
    have h2 : gather_S8192x8192_S8192x1x1_S8192x1_n_1_0_0_1_2_11.batchCoord (ix2 r z) (1 : Fin 2) = 0 := rfl
    have h3 : gather_S8192x8192_S8192x1x1_S8192x1_n_1_0_0_1_2_11.offCoord (ix2 r z) (1 : Fin 2) = 0 := rfl
    show gather_S8192x8192_S8192x1x1_S8192x1_n_1_0_0_1_2_11.start (ix2 r z) idx (1 : Fin 2)
      + gather_S8192x8192_S8192x1x1_S8192x1_n_1_0_0_1_2_11.batchCoord (ix2 r z) (1 : Fin 2)
      + gather_S8192x8192_S8192x1x1_S8192x1_n_1_0_0_1_2_11.offCoord (ix2 r z) (1 : Fin 2)
      = min (idx (ix3 r z (0 : Fin 1))).toInt.toNat 8191
    rw [h1, h2, h3]; omega

/-- The gathered element at row r is the log-probability on the diagonal: the start index is r itself. -/
theorem v23_apply (r : Fin 8192) (z : Fin 1) :
    val_main_v23 (F := Ideal) x2 x3 (ix2 r z) = logpE (Cert.RefConcat.P x2 x3) r r := by
  rw [val_main_v23_apply, call3_v12_apply', select_one]
  unfold val_main_call3_v13
  rw [gather_apply]
  have hr := r.isLt
  have hm : min (val_main_call3_v5 (F := Ideal) (ix3 r z (0 : Fin 1))).toInt.toNat 8191 = r.val := by
    rw [call3_v5_apply']
    show min (BitVec.ofNat 32 r.val).toInt.toNat 8191 = r.val
    rw [ofNat_toInt r, Int.toNat_natCast]; omega
  have hidx : (ix2 r (⟨min (val_main_call3_v5 (F := Ideal) (ix3 r z (0 : Fin 1))).toInt.toNat 8191, by omega⟩ : Fin 8192)
      : S8192x8192.Idx) = ix2 r r := by
    funext a; refine Fin.ext ?_
    match a with
    | ⟨0, _⟩ => rfl
    | ⟨1, _⟩ => exact hm
  exact (congrArg (val_main_v21 (F := Ideal) x2 x3) hidx).trans (v21_apply x2 x3 r r)

/-! ### The mean and the sign -/

/-- The reference's result is the formula at the concatenated rows. -/
theorem val_main_v26_read :
    val_main_v26 (F := Ideal) x2 x3 = fun _ => resE (Cert.RefConcat.P x2 x3) := by
  funext i
  rw [val_main_v26_apply, val_main_v25_apply, val_main_v24_apply, val_main_cst_2_apply, val_main_cst_3_apply]
  simp only [Ideal.hostNegf_def, Ideal.negf_def, Ideal.hostDivf_def, Ideal.ofBits_def, Ideal.ofBits_zero_f32]
  unfold resE
  rw [sum_idx2]
  refine congrArg (fun t => -(Ideal.div (0 + t) (Ideal.ofBits .f32 0x46000000#32))) (Finset.sum_congr rfl fun r _ => ?_)
  rw [Fin.sum_univ_one]
  exact v23_apply x2 x3 r 0

end Cert.RefRead

end
-- ==== Proof.RefLoss.lean ====
/-
  The reference's result is the loss of the real-valued statement.

  When every entry of the concatenated rows is a real number p r k, each quantity the reference forms is the
  coercion of the corresponding real one: the inner products and norms, the masked similarity over one half
  (which is x p r s), the row maximum (M p r), the sum of shifted exponentials (S p r, at least 1, so its
  logarithm is real) and the diagonal log-probability (-2e9 - M p r) - log (S p r); minus their mean is loss p.
-/
import proofs.«126300_j66795331388029_1_alg».proof.Proof.RefRead
import proofs.«126300_j66795331388029_1_alg».proof.Proof.SpecLaws

noncomputable section

namespace Cert.RefLoss

open Cert.ReferenceIdeal Cert.ReferenceIdeal.ReadP Cert.RefRead Cert.Spec Idealize.ShloMosaic Idealize.SL.Sem

variable (p : Fin 8192 → Fin 256 → ℝ)

/-- A real array read at the extended reals. -/
def up (p : Fin 8192 → Fin 256 → ℝ) : Fin 8192 → Fin 256 → EReal := fun r k => ((p r k : ℝ) : EReal)

theorem dotE_up (r s : Fin 8192) : dotE (up p) r s = ((dotR p r s : ℝ) : EReal) := by
  unfold dotE up; exact dot_coe p r s

theorem nrmE_up (r : Fin 8192) : nrmE (up p) r = ((nrmR p r : ℝ) : EReal) := by
  unfold nrmE up; exact nrm_coe p r

theorem cosE_up (r s : Fin 8192) :
    cosE (up p) r s = ((dotR p r s / max (nrmR p r * nrmR p s) epsR : ℝ) : EReal) := by
  unfold cosE
  rw [dotE_up, nrmE_up, nrmE_up, eps_coe, den_coe, cos_coe]

/-- The masked similarity over one half is x p r s. -/
theorem yE_up (r s : Fin 8192) : yE (up p) r s = ((x p r s : ℝ) : EReal) := by
  unfold yE
  rw [mask_coe, half_coe]
  have h := entry_div p r s
  by_cases hrs : r = s
  · rw [if_pos hrs] at h ⊢; exact h
  · rw [if_neg hrs] at h ⊢; rw [cos_coe] at h; rw [cosE_up]; exact h

/-- The row maximum is M p r. -/
theorem MxE_up (r : Fin 8192) : MxE (up p) r = ((M p r : ℝ) : EReal) := by
  unfold MxE
  rw [negInf_coe]
  simp only [yE_up]
  exact ref_max p r

/-- The sum of shifted exponentials is S p r. -/
theorem SxE_up (r : Fin 8192) : SxE (up p) r = ((S p r : ℝ) : EReal) := by
  unfold SxE
  simp only [yE_up, MxE_up]
  exact ref_sum p r

/-- The diagonal log-probability. -/
theorem logpE_up_diag (r : Fin 8192) :
    logpE (up p) r r = (((-2000000000 - M p r) - Real.log (S p r) : ℝ) : EReal) := by
  unfold logpE
  rw [yE_up, MxE_up, SxE_up]
  exact ref_logp_diag p r

/-- The formula at a real array is the loss. -/
theorem resE_up : resE (up p) = ((loss p : ℝ) : EReal) := by
  unfold resE
  simp only [logpE_up_diag]
  rw [n_coe]
  exact ref_result p

/-- The reference's result, when the concatenated rows are the real array p: the loss of p. -/
theorem val_main_v26_loss (x2 x3 : (⟨S4096x256, .f32⟩ : BufTy).Contents (Elt Ideal))
    (hp : ∀ r k, Cert.RefConcat.P x2 x3 r k = ((p r k : ℝ) : EReal)) :
    val_main_v26 (F := Ideal) x2 x3 = fun _ => ((Cert.Spec.loss p : ℝ) : EReal) := by
  rw [val_main_v26_read]
  have hq : Cert.RefConcat.P x2 x3 = up p := funext fun r => funext fun k => hp r k
  rw [hq, resE_up]

/-- The same on the term the run theorem names: the result buffer of the reference's run is the loss of p. -/
theorem res_main_v26_loss (m : (ℓ : Loc nD τ sig) → Buf (Elt Ideal) ℓ) (c : Dev nD)
    (hp : ∀ r k, Cert.RefConcat.P (m ((c.tc : Thread nD τ).loc main_arg2)) (m ((c.tc : Thread nD τ).loc main_arg3)) r k
      = ((p r k : ℝ) : EReal)) :
    Cert.ReferenceIdeal.ValueP.res_main_v26 (F := Ideal) m c = fun _ => ((Cert.Spec.loss p : ℝ) : EReal) :=
  (val_main_v26_eq (F := Ideal) m c).trans (val_main_v26_loss p _ _ hp)

end Cert.RefLoss

end
-- ==== Proof.lean ====
/- The certificate of a contrastive (NT-Xent) loss: a kernel that walks the 8192 x 8192 cosine-similarity
   matrix tile by tile, keeping for each row a running maximum and a running sum of exponentials, against a
   reference that forms the whole matrix, applies log_softmax to its rows and averages the diagonal.
   The five conjuncts: the three programs run to the end leaving their arguments as they were; the kernel's
   idealization rewrote nothing; and at the extended reals both programs return
   2e9 + (1/8192) * sum over rows r of (max_s x r s + log (sum_s exp (x r s - max_s x r s))),
   where x r s is twice the masked cosine similarity of rows r and s (Cert.Spec.loss) — for the kernel because its
   running (maximum, sum) pair over the 8 column tiles ends at the row's maximum and the sum of exp (x - maximum),
   for the reference because the diagonal entry of log_softmax is (-2e9 - maximum) - log (that sum), and the mean of
   -2e9 over the 8192 rows is -2e9. Finite inputs are used: every entry of the similarity matrix is then a real
   number (its denominator is at least the positive eps), and the identities above are identities of real numbers. -/
import proofs.«126300_j66795331388029_1_alg».proof.Defs
import proofs.«126300_j66795331388029_1_alg».proof.Proof.Gen.Kernel
import proofs.«126300_j66795331388029_1_alg».proof.Proof.Gen.KernelIdeal
import proofs.«126300_j66795331388029_1_alg».proof.Proof.Gen.ReferenceIdeal
import proofs.«126300_j66795331388029_1_alg».proof.Proof.Gen.Pre_finite_inputs
import proofs.«126300_j66795331388029_1_alg».proof.Proof.WRun
import proofs.«126300_j66795331388029_1_alg».proof.Proof.KValue
import proofs.«126300_j66795331388029_1_alg».proof.Proof.RefFinite
import proofs.«126300_j66795331388029_1_alg».proof.Proof.RefLoss
import Idealize.ShloMosaic.Adequacy
import Idealize.ShloMosaic.Init

noncomputable section

namespace Cert.Proof

open Idealize.ShloMosaic Idealize.SL.Sem

/-- The word-level kernel runs to the end and leaves its arguments as they were. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments, with finite inputs, both idealized programs end at the loss of the
    real matrix the concatenated projections hold: the kernel by its tiled running maximum and sum, the reference by
    log_softmax's diagonal. -/
theorem algebraic : Cert.algebraic_KernelIdeal_ReferenceIdeal := by
  intro m ρ m' ρ' hpre hagree
  have hreal : ∀ c : Dev Cert.KernelIdeal.nD, ∃ p : Fin 8192 → Fin 256 → ℝ, ∀ r k,
      Cert.RefConcat.P (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) r k = ((p r k : ℝ) : EReal) :=
    fun c => Cert.RefFinite.exists_real _ _ _ _ (hpre c)
  choose p hp using hreal
  refine ⟨fun c => fun _ => ((Cert.Spec.loss (p c) : ℝ) : EReal), ?_, ?_⟩
  · exact (θ_run Cert.KernelIdeal.defs _ _).mono
      (fun _ h c => ⟨(h c).1.trans (Cert.KernelIdeal.Hand.kernel_value m ρ c (p c) (hp c)), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.ValueP.run (F := Ideal) m' ρ')
    refine Cert.RefLoss.res_main_v26_loss (p c) m' c ?_
    rw [(hagree c).2.2.1, (hagree c).2.2.2]
    exact hp c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
